-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x384 : Shape := ⟨2, ![128, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128 .f32) (main_arg16 : FVec F S128 .f32) (main_arg17 : FVec F S128x384 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x384 .f32 := Host.absf main_arg17
  let main_cst_30 : FVec F S_ .f32 := constant S_ .f32 0x7F800000#32
  let main_v80 : FVec F S128x384 .f32 := broadcastInDim S128x384 ![] bcast_S_S128x384 main_cst_30
  let main_v81 : IVec S128x384 1 := cmpf .olt main_v79 main_v80
  let main_c_31 : IVec S_ 1 := constantI S_ 1 1#1
  let main_v82 : IVec S_ 1 := (fun x v => Host.reduce IntOp.andi x v reducesTo_S128x384_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_arg17 : FVec F S128x384 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x384 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x384 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128x384 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x384 : Shape := ⟨2, ![128, 384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 154
  | .vmem => 69
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128x384, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000x1, .f32⟩
  | 38 => ⟨S_, .f32⟩
  | 39 => ⟨S50000x1, .f32⟩
  | 40 => ⟨S800000x1, .i32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S128x128, .f32⟩
  | 48 => ⟨S128x128, .f32⟩
  | 49 => ⟨S1x128, .f32⟩
  | 50 => ⟨S50000x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S_, .f32⟩
  | 78 => ⟨S800000x1, .f32⟩
  | 79 => ⟨S_, .f32⟩
  | 80 => ⟨S50000x1, .f32⟩
  | 81 => ⟨S800000x1, .i32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S128x128, .f32⟩
  | 89 => ⟨S128x128, .f32⟩
  | 90 => ⟨S1x128, .f32⟩
  | 91 => ⟨S50000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000x1, .f32⟩
  | 120 => ⟨S_, .f32⟩
  | 121 => ⟨S50000x1, .f32⟩
  | 122 => ⟨S800000x1, .i32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S128x128, .f32⟩
  | 2 => ⟨S128x128, .f32⟩
  | 3 => ⟨S1x128, .f32⟩
  | 4 => ⟨S50000x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S50000x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S1x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S128x128, .f32⟩
  | .local _ .vmem, ⟨64, _⟩ => ⟨S128x128, .f32⟩
  | .local _ .vmem, ⟨65, _⟩ => ⟨S128x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56_0 : Ref sig .tc := ⟨.hbm, 91, rfl⟩
abbrev main_v56_1 : Ref sig .tc := ⟨.hbm, 92, rfl⟩
abbrev main_v56_2 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_cst_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_c_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_16 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_17 : Ref sig .tc := ⟨.hbm, 118, rfl⟩
abbrev main_v76 : Ref sig .tc := ⟨.hbm, 119, rfl⟩
abbrev main_cst_18 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_19 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87_0 : Ref sig .tc := ⟨.hbm, 132, rfl⟩
abbrev main_v87_1 : Ref sig .tc := ⟨.hbm, 133, rfl⟩
abbrev main_v87_2 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg7_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem7_1 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S128x384_S128x128_0_0 : S128x384.Slices ![0, 0] S128x128
  slices_S128x384_S128x128_0_128 : S128x384.Slices ![0, 128] S128x128
  slices_S128x384_S128x128_0_256 : S128x384.Slices ![0, 256] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v87_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v87_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v87_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v34) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v103) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v104) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x384 : Shape := ⟨2, ![128, 384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x384 : Shape := ⟨2, ![50000, 384]⟩
abbrev S384x128 : Shape := ⟨2, ![384, 128]⟩

abbrev nBuf : Space → Nat
  | .hbm => 269
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128x384, .f32⟩
  | 18 => ⟨S128, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000x1, .f32⟩
  | 38 => ⟨S_, .f32⟩
  | 39 => ⟨S50000x1, .f32⟩
  | 40 => ⟨S800000x1, .i32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S128x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S_, .f32⟩
  | 116 => ⟨S800000x1, .f32⟩
  | 117 => ⟨S_, .f32⟩
  | 118 => ⟨S50000x1, .f32⟩
  | 119 => ⟨S800000x1, .i32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S128x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S128x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000x1, .f32⟩
  | 68 => ⟨S_, .f32⟩
  | 69 => ⟨S50000x1, .f32⟩
  | 70 => ⟨S800000x1, .i32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S128x128, .f32⟩
  | 78 => ⟨S50000x128, .f32⟩
  | 79 => ⟨S1x128, .f32⟩
  | 80 => ⟨S50000x128, .f32⟩
  | 81 => ⟨S50000x128, .f32⟩
  | 82 => ⟨S128x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S50000x384, .f32⟩
  | 5 => ⟨S384x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call0_cst : Ref sig .tc := ⟨.hbm, 55, rfl⟩
abbrev main_call0_v0 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_cst_3 : Ref sig .tc := ⟨.hbm, 80, rfl⟩
abbrev main_call1_v12 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_7 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_c_8 : Ref sig .tc := ⟨.hbm, 102, rfl⟩
abbrev main_v50 : Ref sig .tc := ⟨.hbm, 103, rfl⟩
abbrev main_v51 : Ref sig .tc := ⟨.hbm, 104, rfl⟩
abbrev main_c_9 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_10 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_11 : Ref sig .tc := ⟨.hbm, 115, rfl⟩
abbrev main_v60 : Ref sig .tc := ⟨.hbm, 116, rfl⟩
abbrev main_cst_12 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_13 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_call2_cst : Ref sig .tc := ⟨.hbm, 134, rfl⟩
abbrev main_call2_v0 : Ref sig .tc := ⟨.hbm, 135, rfl⟩
abbrev main_v76 : Ref sig .tc := ⟨.hbm, 136, rfl⟩
abbrev main_cst_14 : Ref sig .tc := ⟨.hbm, 137, rfl⟩
abbrev main_v77 : Ref sig .tc := ⟨.hbm, 138, rfl⟩
abbrev main_cst_15 : Ref sig .tc := ⟨.hbm, 139, rfl⟩
abbrev main_v78 : Ref sig .tc := ⟨.hbm, 140, rfl⟩
abbrev main_v79 : Ref sig .tc := ⟨.hbm, 141, rfl⟩
abbrev main_c_16 : Ref sig .tc := ⟨.hbm, 142, rfl⟩
abbrev main_call3_cst : Ref sig .tc := ⟨.hbm, 143, rfl⟩
abbrev main_call3_v0 : Ref sig .tc := ⟨.hbm, 144, rfl⟩
abbrev main_call3_v1 : Ref sig .tc := ⟨.hbm, 145, rfl⟩
abbrev main_call3_cst_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_v7 : Ref sig .tc := ⟨.hbm, 152, rfl⟩
abbrev main_call3_cst_1 : Ref sig .tc := ⟨.hbm, 153, rfl⟩
abbrev main_call3_v8 : Ref sig .tc := ⟨.hbm, 154, rfl⟩
abbrev main_call3_cst_2 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_cst_3 : Ref sig .tc := ⟨.hbm, 159, rfl⟩
abbrev main_call3_v12 : Ref sig .tc := ⟨.hbm, 160, rfl⟩
abbrev main_call3_cst_4 : Ref sig .tc := ⟨.hbm, 161, rfl⟩
abbrev main_call3_call0_v0 : Ref sig .tc := ⟨.hbm, 162, rfl⟩
abbrev main_call3_call0_v1 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_17 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_c_18 : Ref sig .tc := ⟨.hbm, 181, rfl⟩
abbrev main_v96 : Ref sig .tc := ⟨.hbm, 182, rfl⟩
abbrev main_v97 : Ref sig .tc := ⟨.hbm, 183, rfl⟩
abbrev main_c_19 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_cst_20 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_21 : Ref sig .tc := ⟨.hbm, 194, rfl⟩
abbrev main_v106 : Ref sig .tc := ⟨.hbm, 195, rfl⟩
abbrev main_cst_22 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_cst_23 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_call4_cst : Ref sig .tc := ⟨.hbm, 213, rfl⟩
abbrev main_call4_v0 : Ref sig .tc := ⟨.hbm, 214, rfl⟩
abbrev main_v122 : Ref sig .tc := ⟨.hbm, 215, rfl⟩
abbrev main_cst_24 : Ref sig .tc := ⟨.hbm, 216, rfl⟩
abbrev main_v123 : Ref sig .tc := ⟨.hbm, 217, rfl⟩
abbrev main_cst_25 : Ref sig .tc := ⟨.hbm, 218, rfl⟩
abbrev main_v124 : Ref sig .tc := ⟨.hbm, 219, rfl⟩
abbrev main_v125 : Ref sig .tc := ⟨.hbm, 220, rfl⟩
abbrev main_c_26 : Ref sig .tc := ⟨.hbm, 221, rfl⟩
abbrev main_call5_cst : Ref sig .tc := ⟨.hbm, 222, rfl⟩
abbrev main_call5_v0 : Ref sig .tc := ⟨.hbm, 223, rfl⟩
abbrev main_call5_v1 : Ref sig .tc := ⟨.hbm, 224, rfl⟩
abbrev main_call5_cst_0 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_call5_v5 : Ref sig .tc := ⟨.hbm, 229, rfl⟩
abbrev main_call5_v6 : Ref sig .tc := ⟨.hbm, 230, rfl⟩
abbrev main_call5_v7 : Ref sig .tc := ⟨.hbm, 231, rfl⟩
abbrev main_call5_cst_1 : Ref sig .tc := ⟨.hbm, 232, rfl⟩
abbrev main_call5_v8 : Ref sig .tc := ⟨.hbm, 233, rfl⟩
abbrev main_call5_cst_2 : Ref sig .tc := ⟨.hbm, 234, rfl⟩
abbrev main_call5_v9 : Ref sig .tc := ⟨.hbm, 235, rfl⟩
abbrev main_call5_v10 : Ref sig .tc := ⟨.hbm, 236, rfl⟩
abbrev main_call5_v11 : Ref sig .tc := ⟨.hbm, 237, rfl⟩
abbrev main_call5_cst_3 : Ref sig .tc := ⟨.hbm, 238, rfl⟩
abbrev main_call5_v12 : Ref sig .tc := ⟨.hbm, 239, rfl⟩
abbrev main_call5_cst_4 : Ref sig .tc := ⟨.hbm, 240, rfl⟩
abbrev main_call5_call0_v0 : Ref sig .tc := ⟨.hbm, 241, rfl⟩
abbrev main_call5_call0_v1 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_cst_27 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_call6_cst : Ref sig .tc := ⟨.hbm, 266, rfl⟩
abbrev main_call6_v0 : Ref sig .tc := ⟨.hbm, 267, rfl⟩
abbrev main_v148 : Ref sig .tc := ⟨.hbm, 268, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S50000x128_S50000x128_S50000x128_S50000x384_d1 : Shape.Concatenates [S50000x128, S50000x128, S50000x128] S50000x384 1
  transposes_S128x384_S384x128_1_0 : S128x384.Transposes [1, 0] S384x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x384_S384x128_S50000x128_1_0_0_1_n_n_wf : DotDims.WF S50000x384 S384x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.KerRun.lean ====
/-
  The idealized kernel's run, stated with its result: every weakly fair execution of @main terminates without a
  fault; the result buffer ends at the contents the chain of segment boundaries assigns it (seven regions among
  stretches of host operations: each region's arrays at what its write-backs leave, each stretch's buffers at its
  operations' values), and the argument arrays end as launched.
-/
import proofs.«147097_j73383811219611_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer holds the last boundary's contents, the arguments are unchanged. -/
theorem run_val : θ_run defs (onTc (τ := τ) (main (F := F))) ⟨m, fun _ => 0, ρ⟩ (fun r => ∀ c : Dev nD,
      r.2.mem ((c.tc : Thread nD τ).loc main_v104) = W14 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v104 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c)⟩)

end Cert.KernelIdeal.KerRun

end
-- ==== Proof.KCarry.lean ====
/-
  Buffers that a stretch of host operations does not write, and arrays that a region only reads, keep their
  contents across that segment: the contents of the buffers the later segments read, carried from the boundary
  where they were last written.
-/
import proofs.«147097_j73383811219611_1_alg».proof.Proof.Gen.KernelIdeal.Frame

set_option maxRecDepth 16384

noncomputable section

namespace Cert.KernelIdeal.KCarry

open Idealize.ShloMosaic Idealize.ShloMosaic.TcCoe Idealize.SL.Sem
open Idealize.ShloMosaic.Pipeline (Dat Cfg Window)
open Cert.KernelIdeal Cert.KernelIdeal.Gen

/-- a stretch of host operations leaves a buffer it does not write as it was -/
macro "host_carry " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem c_main_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := (by host_carry hostOps0)

theorem c_main_arg1_0_1 (c : Dev nD) : W1 m ρ c (Proc.devRef .tc main_arg1) = W0 m ρ c (Proc.devRef .tc main_arg1) :=
  calc W1 m ρ c (Proc.devRef .tc main_arg1)
    _ = W0 m ρ c (Proc.devRef .tc main_arg1) := (by host_carry hostOps0)

theorem c_main_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := (W2_of_ne m ρ c main_arg5 (by decide))
    _ = W0 m ρ c (Proc.devRef .tc main_arg5) := (by host_carry hostOps0)

theorem c_main_arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := (W2_of_ne m ρ c main_arg6 (by decide))
    _ = W0 m ρ c (Proc.devRef .tc main_arg6) := (by host_carry hostOps0)

theorem c_main_arg7_0_4 (c : Dev nD) : W4 m ρ c (Proc.devRef .tc main_arg7) = W0 m ρ c (Proc.devRef .tc main_arg7) :=
  calc W4 m ρ c (Proc.devRef .tc main_arg7)
    _ = W3 m ρ c (Proc.devRef .tc main_arg7) := (W4_of_ne m ρ c main_arg7 (by decide))
    _ = W2 m ρ c (Proc.devRef .tc main_arg7) := (by host_carry hostOps1)
    _ = W1 m ρ c (Proc.devRef .tc main_arg7) := (W2_of_ne m ρ c main_arg7 (by decide))
    _ = W0 m ρ c (Proc.devRef .tc main_arg7) := (by host_carry hostOps0)

theorem c_main_arg8_0_4 (c : Dev nD) : W4 m ρ c (Proc.devRef .tc main_arg8) = W0 m ρ c (Proc.devRef .tc main_arg8) :=
  calc W4 m ρ c (Proc.devRef .tc main_arg8)
    _ = W3 m ρ c (Proc.devRef .tc main_arg8) := (W4_of_ne m ρ c main_arg8 (by decide))
    _ = W2 m ρ c (Proc.devRef .tc main_arg8) := (by host_carry hostOps1)
    _ = W1 m ρ c (Proc.devRef .tc main_arg8) := (W2_of_ne m ρ c main_arg8 (by decide))
    _ = W0 m ρ c (Proc.devRef .tc main_arg8) := (by host_carry hostOps0)

theorem c_main_arg9_0_4 (c : Dev nD) : W4 m ρ c (Proc.devRef .tc main_arg9) = W0 m ρ c (Proc.devRef .tc main_arg9) :=
  calc W4 m ρ c (Proc.devRef .tc main_arg9)
    _ = W3 m ρ c (Proc.devRef .tc main_arg9) := (W4_of_ne m ρ c main_arg9 (by decide))
    _ = W2 m ρ c (Proc.devRef .tc main_arg9) := (by host_carry hostOps1)
    _ = W1 m ρ c (Proc.devRef .tc main_arg9) := (W2_of_ne m ρ c main_arg9 (by decide))
    _ = W0 m ρ c (Proc.devRef .tc main_arg9) := (by host_carry hostOps0)

theorem c_main_arg10_0_6 (c : Dev nD) : W6 m ρ c (Proc.devRef .tc main_arg10) = W0 m ρ c (Proc.devRef .tc main_arg10) :=
  calc W6 m ρ c (Proc.devRef .tc main_arg10)
    _ = W5 m ρ c (Proc.devRef .tc main_arg10) := (W6_of_ne m ρ c main_arg10 (by decide))
    _ = W4 m ρ c (Proc.devRef .tc main_arg10) := (by host_carry hostOps2)
    _ = W3 m ρ c (Proc.devRef .tc main_arg10) := (W4_of_ne m ρ c main_arg10 (by decide))
    _ = W2 m ρ c (Proc.devRef .tc main_arg10) := (by host_carry hostOps1)
    _ = W1 m ρ c (Proc.devRef .tc main_arg10) := (W2_of_ne m ρ c main_arg10 (by decide))
    _ = W0 m ρ c (Proc.devRef .tc main_arg10) := (by host_carry hostOps0)

theorem c_main_arg11_0_6 (c : Dev nD) : W6 m ρ c (Proc.devRef .tc main_arg11) = W0 m ρ c (Proc.devRef .tc main_arg11) :=
  calc W6 m ρ c (Proc.devRef .tc main_arg11)
    _ = W5 m ρ c (Proc.devRef .tc main_arg11) := (W6_of_ne m ρ c main_arg11 (by decide))
    _ = W4 m ρ c (Proc.devRef .tc main_arg11) := (by host_carry hostOps2)
    _ = W3 m ρ c (Proc.devRef .tc main_arg11) := (W4_of_ne m ρ c main_arg11 (by decide))
    _ = W2 m ρ c (Proc.devRef .tc main_arg11) := (by host_carry hostOps1)
    _ = W1 m ρ c (Proc.devRef .tc main_arg11) := (W2_of_ne m ρ c main_arg11 (by decide))
    _ = W0 m ρ c (Proc.devRef .tc main_arg11) := (by host_carry hostOps0)

theorem c_main_arg12_0_8 (c : Dev nD) : W8 m ρ c (Proc.devRef .tc main_arg12) = W0 m ρ c (Proc.devRef .tc main_arg12) :=
  calc W8 m ρ c (Proc.devRef .tc main_arg12)
    _ = W7 m ρ c (Proc.devRef .tc main_arg12) := (W8_of_ne m ρ c main_arg12 (by decide))
    _ = W6 m ρ c (Proc.devRef .tc main_arg12) := (by host_carry hostOps3)
    _ = W5 m ρ c (Proc.devRef .tc main_arg12) := (W6_of_ne m ρ c main_arg12 (by decide))
    _ = W4 m ρ c (Proc.devRef .tc main_arg12) := (by host_carry hostOps2)
    _ = W3 m ρ c (Proc.devRef .tc main_arg12) := (W4_of_ne m ρ c main_arg12 (by decide))
    _ = W2 m ρ c (Proc.devRef .tc main_arg12) := (by host_carry hostOps1)
    _ = W1 m ρ c (Proc.devRef .tc main_arg12) := (W2_of_ne m ρ c main_arg12 (by decide))
    _ = W0 m ρ c (Proc.devRef .tc main_arg12) := (by host_carry hostOps0)

theorem c_main_arg13_0_8 (c : Dev nD) : W8 m ρ c (Proc.devRef .tc main_arg13) = W0 m ρ c (Proc.devRef .tc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (by host_carry hostOps3)
    _ = W5 m ρ c (Proc.devRef .tc main_arg13) := (W6_of_ne m ρ c main_arg13 (by decide))
    _ = W4 m ρ c (Proc.devRef .tc main_arg13) := (by host_carry hostOps2)
    _ = W3 m ρ c (Proc.devRef .tc main_arg13) := (W4_of_ne m ρ c main_arg13 (by decide))
    _ = W2 m ρ c (Proc.devRef .tc main_arg13) := (by host_carry hostOps1)
    _ = W1 m ρ c (Proc.devRef .tc main_arg13) := (W2_of_ne m ρ c main_arg13 (by decide))
    _ = W0 m ρ c (Proc.devRef .tc main_arg13) := (by host_carry hostOps0)

theorem c_main_arg14_0_8 (c : Dev nD) : W8 m ρ c (Proc.devRef .tc main_arg14) = W0 m ρ c (Proc.devRef .tc main_arg14) :=
  calc W8 m ρ c (Proc.devRef .tc main_arg14)
    _ = W7 m ρ c (Proc.devRef .tc main_arg14) := (W8_of_ne m ρ c main_arg14 (by decide))
    _ = W6 m ρ c (Proc.devRef .tc main_arg14) := (by host_carry hostOps3)
    _ = W5 m ρ c (Proc.devRef .tc main_arg14) := (W6_of_ne m ρ c main_arg14 (by decide))
    _ = W4 m ρ c (Proc.devRef .tc main_arg14) := (by host_carry hostOps2)
    _ = W3 m ρ c (Proc.devRef .tc main_arg14) := (W4_of_ne m ρ c main_arg14 (by decide))
    _ = W2 m ρ c (Proc.devRef .tc main_arg14) := (by host_carry hostOps1)
    _ = W1 m ρ c (Proc.devRef .tc main_arg14) := (W2_of_ne m ρ c main_arg14 (by decide))
    _ = W0 m ρ c (Proc.devRef .tc main_arg14) := (by host_carry hostOps0)

theorem c_main_arg15_0_10 (c : Dev nD) : W10 m ρ c (Proc.devRef .tc main_arg15) = W0 m ρ c (Proc.devRef .tc main_arg15) :=
  calc W10 m ρ c (Proc.devRef .tc main_arg15)
    _ = W9 m ρ c (Proc.devRef .tc main_arg15) := (W10_of_ne m ρ c main_arg15 (by decide))
    _ = W8 m ρ c (Proc.devRef .tc main_arg15) := (by host_carry hostOps4)
    _ = W7 m ρ c (Proc.devRef .tc main_arg15) := (W8_of_ne m ρ c main_arg15 (by decide))
    _ = W6 m ρ c (Proc.devRef .tc main_arg15) := (by host_carry hostOps3)
    _ = W5 m ρ c (Proc.devRef .tc main_arg15) := (W6_of_ne m ρ c main_arg15 (by decide))
    _ = W4 m ρ c (Proc.devRef .tc main_arg15) := (by host_carry hostOps2)
    _ = W3 m ρ c (Proc.devRef .tc main_arg15) := (W4_of_ne m ρ c main_arg15 (by decide))
    _ = W2 m ρ c (Proc.devRef .tc main_arg15) := (by host_carry hostOps1)
    _ = W1 m ρ c (Proc.devRef .tc main_arg15) := (W2_of_ne m ρ c main_arg15 (by decide))
    _ = W0 m ρ c (Proc.devRef .tc main_arg15) := (by host_carry hostOps0)

theorem c_main_arg16_0_10 (c : Dev nD) : W10 m ρ c (Proc.devRef .tc main_arg16) = W0 m ρ c (Proc.devRef .tc main_arg16) :=
  calc W10 m ρ c (Proc.devRef .tc main_arg16)
    _ = W9 m ρ c (Proc.devRef .tc main_arg16) := (W10_of_ne m ρ c main_arg16 (by decide))
    _ = W8 m ρ c (Proc.devRef .tc main_arg16) := (by host_carry hostOps4)
    _ = W7 m ρ c (Proc.devRef .tc main_arg16) := (W8_of_ne m ρ c main_arg16 (by decide))
    _ = W6 m ρ c (Proc.devRef .tc main_arg16) := (by host_carry hostOps3)
    _ = W5 m ρ c (Proc.devRef .tc main_arg16) := (W6_of_ne m ρ c main_arg16 (by decide))
    _ = W4 m ρ c (Proc.devRef .tc main_arg16) := (by host_carry hostOps2)
    _ = W3 m ρ c (Proc.devRef .tc main_arg16) := (W4_of_ne m ρ c main_arg16 (by decide))
    _ = W2 m ρ c (Proc.devRef .tc main_arg16) := (by host_carry hostOps1)
    _ = W1 m ρ c (Proc.devRef .tc main_arg16) := (W2_of_ne m ρ c main_arg16 (by decide))
    _ = W0 m ρ c (Proc.devRef .tc main_arg16) := (by host_carry hostOps0)

theorem c_main_arg17_0_12 (c : Dev nD) : W12 m ρ c (Proc.devRef .tc main_arg17) = W0 m ρ c (Proc.devRef .tc main_arg17) :=
  calc W12 m ρ c (Proc.devRef .tc main_arg17)
    _ = W11 m ρ c (Proc.devRef .tc main_arg17) := (W12_of_ne m ρ c main_arg17 (by decide))
    _ = W10 m ρ c (Proc.devRef .tc main_arg17) := (by host_carry hostOps5)
    _ = W9 m ρ c (Proc.devRef .tc main_arg17) := (W10_of_ne m ρ c main_arg17 (by decide))
    _ = W8 m ρ c (Proc.devRef .tc main_arg17) := (by host_carry hostOps4)
    _ = W7 m ρ c (Proc.devRef .tc main_arg17) := (W8_of_ne m ρ c main_arg17 (by decide))
    _ = W6 m ρ c (Proc.devRef .tc main_arg17) := (by host_carry hostOps3)
    _ = W5 m ρ c (Proc.devRef .tc main_arg17) := (W6_of_ne m ρ c main_arg17 (by decide))
    _ = W4 m ρ c (Proc.devRef .tc main_arg17) := (by host_carry hostOps2)
    _ = W3 m ρ c (Proc.devRef .tc main_arg17) := (W4_of_ne m ρ c main_arg17 (by decide))
    _ = W2 m ρ c (Proc.devRef .tc main_arg17) := (by host_carry hostOps1)
    _ = W1 m ρ c (Proc.devRef .tc main_arg17) := (W2_of_ne m ρ c main_arg17 (by decide))
    _ = W0 m ρ c (Proc.devRef .tc main_arg17) := (by host_carry hostOps0)

theorem c_main_arg18_0_12 (c : Dev nD) : W12 m ρ c (Proc.devRef .tc main_arg18) = W0 m ρ c (Proc.devRef .tc main_arg18) :=
  calc W12 m ρ c (Proc.devRef .tc main_arg18)
    _ = W11 m ρ c (Proc.devRef .tc main_arg18) := (W12_of_ne m ρ c main_arg18 (by decide))
    _ = W10 m ρ c (Proc.devRef .tc main_arg18) := (by host_carry hostOps5)
    _ = W9 m ρ c (Proc.devRef .tc main_arg18) := (W10_of_ne m ρ c main_arg18 (by decide))
    _ = W8 m ρ c (Proc.devRef .tc main_arg18) := (by host_carry hostOps4)
    _ = W7 m ρ c (Proc.devRef .tc main_arg18) := (W8_of_ne m ρ c main_arg18 (by decide))
    _ = W6 m ρ c (Proc.devRef .tc main_arg18) := (by host_carry hostOps3)
    _ = W5 m ρ c (Proc.devRef .tc main_arg18) := (W6_of_ne m ρ c main_arg18 (by decide))
    _ = W4 m ρ c (Proc.devRef .tc main_arg18) := (by host_carry hostOps2)
    _ = W3 m ρ c (Proc.devRef .tc main_arg18) := (W4_of_ne m ρ c main_arg18 (by decide))
    _ = W2 m ρ c (Proc.devRef .tc main_arg18) := (by host_carry hostOps1)
    _ = W1 m ρ c (Proc.devRef .tc main_arg18) := (W2_of_ne m ρ c main_arg18 (by decide))
    _ = W0 m ρ c (Proc.devRef .tc main_arg18) := (by host_carry hostOps0)

theorem c_main_v1_1_4 (c : Dev nD) : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (by host_carry hostOps1)
    _ = W1 m ρ c (Proc.devRef .tc main_v1) := (W2_of_ne m ρ c main_v1 (by decide))

theorem c_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (by host_carry hostOps1)
    _ = W1 m ρ c (Proc.devRef .tc main_v3) := (W2_of_ne m ρ c main_v3 (by decide))

theorem c_main_v1_1_8 (c : Dev nD) : W8 m ρ c (Proc.devRef .tc main_v1) = W1 m ρ c (Proc.devRef .tc main_v1) :=
  calc W8 m ρ c (Proc.devRef .tc main_v1)
    _ = W7 m ρ c (Proc.devRef .tc main_v1) := (W8_of_ne m ρ c main_v1 (by decide))
    _ = W6 m ρ c (Proc.devRef .tc main_v1) := (by host_carry hostOps3)
    _ = W5 m ρ c (Proc.devRef .tc main_v1) := (W6_of_ne m ρ c main_v1 (by decide))
    _ = W4 m ρ c (Proc.devRef .tc main_v1) := (by host_carry hostOps2)
    _ = W3 m ρ c (Proc.devRef .tc main_v1) := (W4_of_ne m ρ c main_v1 (by decide))
    _ = W2 m ρ c (Proc.devRef .tc main_v1) := (by host_carry hostOps1)
    _ = W1 m ρ c (Proc.devRef .tc main_v1) := (W2_of_ne m ρ c main_v1 (by decide))

theorem c_main_v3_1_8 (c : Dev nD) : W8 m ρ c (Proc.devRef .tc main_v3) = W1 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (by host_carry hostOps3)
    _ = W5 m ρ c (Proc.devRef .tc main_v3) := (W6_of_ne m ρ c main_v3 (by decide))
    _ = W4 m ρ c (Proc.devRef .tc main_v3) := (by host_carry hostOps2)
    _ = W3 m ρ c (Proc.devRef .tc main_v3) := (W4_of_ne m ρ c main_v3 (by decide))
    _ = W2 m ρ c (Proc.devRef .tc main_v3) := (by host_carry hostOps1)
    _ = W1 m ρ c (Proc.devRef .tc main_v3) := (W2_of_ne m ρ c main_v3 (by decide))

theorem c_main_v25_0_2_3 (c : Dev nD) : W3 m ρ c (Proc.devRef .tc main_v25_0) = W2 m ρ c (Proc.devRef .tc main_v25_0) :=
  calc W3 m ρ c (Proc.devRef .tc main_v25_0)
    _ = W2 m ρ c (Proc.devRef .tc main_v25_0) := (by host_carry hostOps1)

theorem c_main_v34_4_5 (c : Dev nD) : W5 m ρ c (Proc.devRef .tc main_v34) = W4 m ρ c (Proc.devRef .tc main_v34) :=
  calc W5 m ρ c (Proc.devRef .tc main_v34)
    _ = W4 m ρ c (Proc.devRef .tc main_v34) := (by host_carry hostOps2)

theorem c_main_v56_0_6_7 (c : Dev nD) : W7 m ρ c (Proc.devRef .tc main_v56_0) = W6 m ρ c (Proc.devRef .tc main_v56_0) :=
  calc W7 m ρ c (Proc.devRef .tc main_v56_0)
    _ = W6 m ρ c (Proc.devRef .tc main_v56_0) := (by host_carry hostOps3)

theorem c_main_v65_8_9 (c : Dev nD) : W9 m ρ c (Proc.devRef .tc main_v65) = W8 m ρ c (Proc.devRef .tc main_v65) :=
  calc W9 m ρ c (Proc.devRef .tc main_v65)
    _ = W8 m ρ c (Proc.devRef .tc main_v65) := (by host_carry hostOps4)

theorem c_main_v87_0_10_11 (c : Dev nD) : W11 m ρ c (Proc.devRef .tc main_v87_0) = W10 m ρ c (Proc.devRef .tc main_v87_0) :=
  calc W11 m ρ c (Proc.devRef .tc main_v87_0)
    _ = W10 m ρ c (Proc.devRef .tc main_v87_0) := (by host_carry hostOps5)

theorem c_main_v34_4_13 (c : Dev nD) : W13 m ρ c (Proc.devRef .tc main_v34) = W4 m ρ c (Proc.devRef .tc main_v34) :=
  calc W13 m ρ c (Proc.devRef .tc main_v34)
    _ = W12 m ρ c (Proc.devRef .tc main_v34) := (by host_carry hostOps6)
    _ = W11 m ρ c (Proc.devRef .tc main_v34) := (W12_of_ne m ρ c main_v34 (by decide))
    _ = W10 m ρ c (Proc.devRef .tc main_v34) := (by host_carry hostOps5)
    _ = W9 m ρ c (Proc.devRef .tc main_v34) := (W10_of_ne m ρ c main_v34 (by decide))
    _ = W8 m ρ c (Proc.devRef .tc main_v34) := (by host_carry hostOps4)
    _ = W7 m ρ c (Proc.devRef .tc main_v34) := (W8_of_ne m ρ c main_v34 (by decide))
    _ = W6 m ρ c (Proc.devRef .tc main_v34) := (by host_carry hostOps3)
    _ = W5 m ρ c (Proc.devRef .tc main_v34) := ((W6_arr m ρ c 1).trans (((dat2 (V5 m ρ) c).arrAt_in 1 rfl _).trans (A_eq2 (V5 m ρ) c 1)))
    _ = W4 m ρ c (Proc.devRef .tc main_v34) := (by host_carry hostOps2)

theorem c_main_v65_8_13 (c : Dev nD) : W13 m ρ c (Proc.devRef .tc main_v65) = W8 m ρ c (Proc.devRef .tc main_v65) :=
  calc W13 m ρ c (Proc.devRef .tc main_v65)
    _ = W12 m ρ c (Proc.devRef .tc main_v65) := (by host_carry hostOps6)
    _ = W11 m ρ c (Proc.devRef .tc main_v65) := (W12_of_ne m ρ c main_v65 (by decide))
    _ = W10 m ρ c (Proc.devRef .tc main_v65) := (by host_carry hostOps5)
    _ = W9 m ρ c (Proc.devRef .tc main_v65) := ((W10_arr m ρ c 1).trans (((dat4 (V9 m ρ) c).arrAt_in 1 rfl _).trans (A_eq4 (V9 m ρ) c 1)))
    _ = W8 m ρ c (Proc.devRef .tc main_v65) := (by host_carry hostOps4)

theorem c_main_v96_12_13 (c : Dev nD) : W13 m ρ c (Proc.devRef .tc main_v96) = W12 m ρ c (Proc.devRef .tc main_v96) :=
  calc W13 m ρ c (Proc.devRef .tc main_v96)
    _ = W12 m ρ c (Proc.devRef .tc main_v96) := (by host_carry hostOps6)

end Cert.KernelIdeal.KCarry

end
-- ==== Proof.Spec.lean ====
/-
  The mathematics of the certificate, free of any program: three rounds of "average the neighbours' features,
  apply two linear maps and a bias, clip below at zero, normalise every column to zero mean and unit variance over the
  50000 nodes, scale and shift", followed by one linear map of the three rounds' results side by side.

  Everything is a function on indices into the extended reals.  The neighbourhood average is a PARAMETER `agg`
  (both programs compute it by the same chain of host operations).  Two spellings are given of each round:
  the one that accumulates column sums of `y` and of `y²` and takes `E[y²] − E[y]²` (suffix `K`), and the one that
  subtracts the column mean first and averages the squares (suffix `R`).  They agree on finite data.
-/
import Idealize.ShloMosaic.PureOps.Ideal
import Idealize.ShloMosaic.Lib.ValueIdx

noncomputable section

namespace Cert.Gnn

open Idealize.ShloMosaic Idealize.ShloMosaic.ValueIdx

/-- node features: 50000 nodes × 128 channels -/
abbrev SN : Shape := ⟨2, ![50000, 128]⟩
/-- a square weight matrix, indexed (output channel, input channel) -/
abbrev SW : Shape := ⟨2, ![128, 128]⟩
/-- a per-channel vector -/
abbrev SV : Shape := ⟨1, ![128]⟩
/-- the last layer's weight matrix, indexed (output channel, input channel of the three rounds side by side) -/
abbrev SL : Shape := ⟨2, ![128, 384]⟩

/-- the number of nodes, as the programs spell it (the f32 word of 50000.0) -/
abbrev cN : EReal := Ideal.ofBits .f32 0x47435000#32
/-- zero, as the programs spell it -/
abbrev cZ : EReal := Ideal.ofBits .f32 0x00000000#32
/-- the variance's guard, as the programs spell it (the f32 word nearest 1e-5) -/
abbrev cEps : EReal := Ideal.ofBits .f32 0x3727C5AC#32

/-- A node-by-channel table read at an array index. -/
abbrev tab (Y : Fin 50000 → Fin 128 → EReal) : SN.Idx → EReal := fun i => Y (i 0) (i 1)

/-! ## One round -/

/-- `max ((A·Wlᵀ + X·Wrᵀ) + bl) 0` at node `r`, channel `j`: the two products added first, then the bias. -/
def actK (A X : SN.Idx → EReal) (Wl Wr : SW.Idx → EReal) (bl : SV.Idx → EReal) (r : Fin 50000) (j : Fin 128) : EReal :=
  max ((∑ k : Fin 128, A (ix2 r k) * Wl (ix2 j k) + ∑ k : Fin 128, X (ix2 r k) * Wr (ix2 j k)) + bl (ix1 j)) cZ

/-- `max ((A·Wlᵀ + bl) + X·Wrᵀ) 0`: the bias added to the first product, then the second product. -/
def actR (A X : SN.Idx → EReal) (Wl Wr : SW.Idx → EReal) (bl : SV.Idx → EReal) (r : Fin 50000) (j : Fin 128) : EReal :=
  max ((∑ k : Fin 128, A (ix2 r k) * Wl (ix2 j k) + bl (ix1 j)) + ∑ k : Fin 128, X (ix2 r k) * Wr (ix2 j k)) cZ

/-- the sum of a column over all nodes -/
def colSum (Y : Fin 50000 → Fin 128 → EReal) (j : Fin 128) : EReal := ∑ r : Fin 50000, Y r j

/-- the column mean: the column sum divided by the number of nodes -/
def mean (Y : Fin 50000 → Fin 128 → EReal) (j : Fin 128) : EReal := Ideal.div (colSum Y j) cN

/-- the column variance as `E[y²] − E[y]²` -/
def varK (Y : Fin 50000 → Fin 128 → EReal) (j : Fin 128) : EReal :=
  Ideal.div (colSum (fun r j => Y r j * Y r j) j) cN - mean Y j * mean Y j

/-- the column variance as `E[(y − E[y])²]` -/
def varR (Y : Fin 50000 → Fin 128 → EReal) (j : Fin 128) : EReal :=
  Ideal.div (colSum (fun r j => (Y r j - mean Y j) * (Y r j - mean Y j)) j) cN

/-- normalise, scale and shift: `(g · (y − μ)) · (σ² + ε)^(-1/2) + b` -/
def bn (Y : Fin 50000 → Fin 128 → EReal) (mu var : Fin 128 → EReal) (g b : SV.Idx → EReal) (r : Fin 50000) (j : Fin 128) : EReal :=
  g (ix1 j) * (Y r j - mu j) * Ideal.rsqrt (var j + cEps) + b (ix1 j)

/-- one round, sums-of-squares spelling -/
def layerK (agg : (SN.Idx → EReal) → SN.Idx → EReal) (X : SN.Idx → EReal) (Wl : SW.Idx → EReal) (bl : SV.Idx → EReal)
    (Wr : SW.Idx → EReal) (g b : SV.Idx → EReal) : SN.Idx → EReal :=
  tab (bn (actK (agg X) X Wl Wr bl) (mean (actK (agg X) X Wl Wr bl)) (varK (actK (agg X) X Wl Wr bl)) g b)

/-- one round, centred-squares spelling -/
def layerR (agg : (SN.Idx → EReal) → SN.Idx → EReal) (X : SN.Idx → EReal) (Wl : SW.Idx → EReal) (bl : SV.Idx → EReal)
    (Wr : SW.Idx → EReal) (g b : SV.Idx → EReal) : SN.Idx → EReal :=
  tab (bn (actR (agg X) X Wl Wr bl) (mean (actR (agg X) X Wl Wr bl)) (varR (actR (agg X) X Wl Wr bl)) g b)

/-! ## The last linear map -/

/-- column `k` of block `q` (0, 1 or 2) of the 384 input channels -/
abbrev col3 (q : Fin 3) (k : Fin 128) : Fin 384 := ⟨128 * q.val + k.val, by omega⟩

/-- three products, one per round, added left to right, then the bias, clipped below at zero -/
def finK (X1 X2 X3 : SN.Idx → EReal) (Wlin : SL.Idx → EReal) (blin : SV.Idx → EReal) : SN.Idx → EReal := fun i =>
  max (((∑ k : Fin 128, X1 (ix2 (i 0) k) * Wlin (ix2 (i 1) (col3 0 k)) + ∑ k : Fin 128, X2 (ix2 (i 0) k) * Wlin (ix2 (i 1) (col3 1 k)))
      + ∑ k : Fin 128, X3 (ix2 (i 0) k) * Wlin (ix2 (i 1) (col3 2 k))) + blin (ix1 (i 1))) cZ

/-- the three rounds' results side by side: 384 channels -/
def cat3 (X1 X2 X3 : SN.Idx → EReal) (r : Fin 50000) (k : Fin 384) : EReal :=
  if h1 : k.val < 128 then X1 (ix2 r ⟨k.val, h1⟩)
  else if h2 : k.val < 256 then X2 (ix2 r ⟨k.val - 128, by omega⟩)
  else X3 (ix2 r ⟨k.val - 256, by omega⟩)

/-- one product over all 384 channels, then the bias, clipped below at zero -/
def finR (X1 X2 X3 : SN.Idx → EReal) (Wlin : SL.Idx → EReal) (blin : SV.Idx → EReal) : SN.Idx → EReal := fun i =>
  max ((∑ k : Fin 384, cat3 X1 X2 X3 (i 0) k * Wlin (ix2 (i 1) k)) + blin (ix1 (i 1))) cZ

/-! ## The whole network -/

def outK (agg : (SN.Idx → EReal) → SN.Idx → EReal) (x : SN.Idx → EReal)
    (Wl1 : SW.Idx → EReal) (bl1 : SV.Idx → EReal) (Wr1 : SW.Idx → EReal) (g1 b1 : SV.Idx → EReal)
    (Wl2 : SW.Idx → EReal) (bl2 : SV.Idx → EReal) (Wr2 : SW.Idx → EReal) (g2 b2 : SV.Idx → EReal)
    (Wl3 : SW.Idx → EReal) (bl3 : SV.Idx → EReal) (Wr3 : SW.Idx → EReal) (g3 b3 : SV.Idx → EReal)
    (Wlin : SL.Idx → EReal) (blin : SV.Idx → EReal) : SN.Idx → EReal :=
  finK (layerK agg x Wl1 bl1 Wr1 g1 b1)
    (layerK agg (layerK agg x Wl1 bl1 Wr1 g1 b1) Wl2 bl2 Wr2 g2 b2)
    (layerK agg (layerK agg (layerK agg x Wl1 bl1 Wr1 g1 b1) Wl2 bl2 Wr2 g2 b2) Wl3 bl3 Wr3 g3 b3) Wlin blin

def outR (agg : (SN.Idx → EReal) → SN.Idx → EReal) (x : SN.Idx → EReal)
    (Wl1 : SW.Idx → EReal) (bl1 : SV.Idx → EReal) (Wr1 : SW.Idx → EReal) (g1 b1 : SV.Idx → EReal)
    (Wl2 : SW.Idx → EReal) (bl2 : SV.Idx → EReal) (Wr2 : SW.Idx → EReal) (g2 b2 : SV.Idx → EReal)
    (Wl3 : SW.Idx → EReal) (bl3 : SV.Idx → EReal) (Wr3 : SW.Idx → EReal) (g3 b3 : SV.Idx → EReal)
    (Wlin : SL.Idx → EReal) (blin : SV.Idx → EReal) : SN.Idx → EReal :=
  finR (layerR agg x Wl1 bl1 Wr1 g1 b1)
    (layerR agg (layerR agg x Wl1 bl1 Wr1 g1 b1) Wl2 bl2 Wr2 g2 b2)
    (layerR agg (layerR agg (layerR agg x Wl1 bl1 Wr1 g1 b1) Wl2 bl2 Wr2 g2 b2) Wl3 bl3 Wr3 g3 b3) Wlin blin

/-- every entry is a real number -/
def Fin_ {ι : Type} (f : ι → EReal) : Prop := ∀ i, ∃ v : ℝ, f i = (v : EReal)

end Cert.Gnn

end
-- ==== Proof.KSpec.lean ====
/-
  The network's pieces in the form the kernel's regions compute them: the weight matrices already transposed
  (indexed (input channel, output channel)), every per-channel vector a one-row table.
-/
import proofs.«147097_j73383811219611_1_alg».proof.Proof.Spec

noncomputable section

namespace Cert.Gnn

open Idealize.ShloMosaic Idealize.ShloMosaic.ValueIdx

/-- a one-row table: 1 × 128 -/
abbrev SR : Shape := ⟨2, ![1, 128]⟩

/-- `max ((A·WlT + X·WrT) + bl) 0`: the products over the shared input channel `k`, the bias a row. -/
def yArr (A X : SN.Idx → EReal) (WlT : SW.Idx → EReal) (bl : SR.Idx → EReal) (WrT : SW.Idx → EReal) : SN.Idx → EReal := fun i =>
  max ((∑ k : Fin 128, A (ix2 (i 0) k) * WlT (ix2 k (i 1)) + ∑ k : Fin 128, X (ix2 (i 0) k) * WrT (ix2 k (i 1))) + bl (ix2 0 (i 1))) cZ

/-- the column sums over all 50000 nodes, as a row -/
def sArr (Y : SN.Idx → EReal) : SR.Idx → EReal := fun i => ∑ r : Fin 50000, Y (ix2 r (i 1))

/-- the column sums of squares over all 50000 nodes, as a row -/
def ssArr (Y : SN.Idx → EReal) : SR.Idx → EReal := fun i => ∑ r : Fin 50000, Y (ix2 r (i 1)) * Y (ix2 r (i 1))

/-- `(g · (y − μ)) · (σ² + ε)^(-1/2) + b` with μ, σ², g, b rows -/
def bnArr (Y : SN.Idx → EReal) (mu var g b : SR.Idx → EReal) : SN.Idx → EReal := fun i =>
  g (ix2 0 (i 1)) * (Y i - mu (ix2 0 (i 1))) * Ideal.rsqrt (var (ix2 0 (i 1)) + cEps) + b (ix2 0 (i 1))

/-- three products added left to right, then the bias row, clipped below at zero -/
def finArr (X1 X2 X3 : SN.Idx → EReal) (W1 W2 W3 : SW.Idx → EReal) (b : SR.Idx → EReal) : SN.Idx → EReal := fun i =>
  max (((∑ k : Fin 128, X1 (ix2 (i 0) k) * W1 (ix2 k (i 1)) + ∑ k : Fin 128, X2 (ix2 (i 0) k) * W2 (ix2 k (i 1)))
      + ∑ k : Fin 128, X3 (ix2 (i 0) k) * W3 (ix2 k (i 1))) + b (ix2 0 (i 1))) cZ

end Cert.Gnn

end
-- ==== Proof.KRegLib.lean ====
/-
  Shared per-point facts for the matmul regions, at the ideal values: one matrix product read at an index,
  a column sum over a block's rows, the one-row broadcast, and each region's block payloads read at an index.
-/
import proofs.«147097_j73383811219611_1_alg».proof.Proof.Gen.KernelIdeal.Skeleton
import proofs.«147097_j73383811219611_1_alg».proof.Proof.KSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRegLib

open Idealize.ShloMosaic Idealize.ShloMosaic.ValueIdx Cert.KernelIdeal Cert.KernelIdeal.Gen Cert.Gnn

/-- A block-by-matrix product into a zero accumulator, read at row `r`, column `j`: the sum over the shared axis. -/
theorem mm_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  refine (Ideal.matmul_constant_zero_apply dot_S5000x128_S128x128_S5000x128_1_0_0_1_n_n none a b (ix2 r j)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 r j)
      ((contrEquiv1 dot_S5000x128_S128x128_S5000x128_1_0_0_1_n_n 128 rfl rfl).symm k) = ix2 r k := by
    funext ax
    match ax with
    | ⟨0, _⟩ => rfl
    | ⟨1, _⟩ =>
      apply Fin.ext
      exact (DotDims.lhsIdx_val_of_single _ (cl := (1 : Fin 2)) rfl _ _).trans (contrEquiv1_symm_val dot_S5000x128_S128x128_S5000x128_1_0_0_1_n_n 128 rfl rfl k)
  have hr : dot_S5000x128_S128x128_S5000x128_1_0_0_1_n_n.rhsIdx (ix2 r j)
      ((contrEquiv1 dot_S5000x128_S128x128_S5000x128_1_0_0_1_n_n 128 rfl rfl).symm k) = ix2 k j := by
    funext ax
    match ax with
    | ⟨0, _⟩ =>
      apply Fin.ext
      exact (DotDims.rhsIdx_val_of_single _ (cr := (0 : Fin 2)) rfl _ _).trans (contrEquiv1_symm_val dot_S5000x128_S128x128_S5000x128_1_0_0_1_n_n 128 rfl rfl k)
    | ⟨1, _⟩ => rfl
  rw [hl, hr]

/-- The column sums of a block over its 5000 rows, as a one-row table, read at column `j`. -/
theorem colsum_apply (src : FVec Ideal S5000x128 .f32)
    (hφ : FKind.Formats FTy.f32) (hacc : (0x00000000#32 : BitVec 32) = FKind.add.neutral .f32 hφ) (u : Fin 1) (j : Fin 128) :
    shapeCast S1x128 (multiReduction (F := Ideal) .add [0] S128 src 0x00000000#32 reduces_S5000x128_S128 hφ hacc) shapeCasts_S128_S1x128 (ix2 u j)
      = ∑ r : Fin 5000, src (ix2 r j) := by
  refine (shapeCast_a_1a_apply _ shapeCasts_S128_S1x128 u j).trans ?_
  refine (Ideal.multiReduction_add_single src 0x00000000#32 reduces_S5000x128_S128 hφ hacc (ix1 j)).trans ?_
  refine Finset.sum_congr rfl fun r _ => congrArg src ?_
  funext ax
  match ax with
  | ⟨0, _⟩ => rfl
  | ⟨1, _⟩ => rfl

/-! ### Ten blocks of 5000 rows are the 50000 rows -/

/-- a column of the table continued by zero past its last row -/
def ext (f : Fin 50000 → EReal) (n : ℕ) : EReal := if h : n < 50000 then f ⟨n, h⟩ else 0

theorem ext_of_lt (f : Fin 50000 → EReal) (n : ℕ) (h : n < 50000) : ext f n = f ⟨n, h⟩ := dif_pos h

/-- the sum over the first `t` blocks plus block `t`'s sum is the sum over the first `t + 1` blocks -/
theorem ext_step (f : Fin 50000 → EReal) (t : ℕ) (S : Fin 5000 → EReal) (hS : ∀ r : Fin 5000, S r = ext f (5000 * t + r.val)) :
    ∑ i ∈ Finset.range (5000 * t), ext f i + ∑ r : Fin 5000, S r = ∑ i ∈ Finset.range (5000 * (t + 1)), ext f i := by
  rw [Nat.mul_add_one, Finset.sum_range_add, ← Fin.sum_univ_eq_sum_range (fun r => ext f (5000 * t + r)) 5000]
  exact congrArg₂ (· + ·) rfl (Finset.sum_congr rfl fun r _ => hS r)

/-- the first block's sum, added to zero -/
theorem ext_base (f : Fin 50000 → EReal) (S : Fin 5000 → EReal) (hS : ∀ r : Fin 5000, S r = ext f (5000 * 0 + r.val)) :
    (0 : EReal) + ∑ r : Fin 5000, S r = ∑ i ∈ Finset.range (5000 * (0 + 1)), ext f i := by
  have h := ext_step f 0 S hS
  rw [Nat.mul_zero, Finset.sum_range_zero] at h
  exact h

/-- all ten blocks: the whole column -/
theorem ext_total (f : Fin 50000 → EReal) : ∑ i ∈ Finset.range (5000 * (9 + 1)), ext f i = ∑ i : Fin 50000, f i := by
  rw [show 5000 * (9 + 1) = 50000 from rfl, ← Fin.sum_univ_eq_sum_range (fun i => ext f i) 50000]
  exact Finset.sum_congr rfl fun i _ => ext_of_lt f i.val i.isLt

/-! ### Region 0's block payloads read at an index -/

/-- the block of `y`: both products over the shared channel, the bias row, clipped below at zero -/
theorem pay4_0_apply (v3 v6 : Vec Ideal S5000x128 .f32) (v8 v11 : Vec Ideal S128x128 .f32) (v17 : Vec Ideal S1x128 .f32)
    (r : Fin 5000) (j : Fin 128) :
    k0_pay4 (F := Ideal) v3 v6 v8 v11 v17 (ix2 r j)
      = max ((∑ k : Fin 128, v3 (ix2 r k) * v8 (ix2 k j) + ∑ k : Fin 128, v6 (ix2 r k) * v11 (ix2 k j)) + v17 (ix2 0 j)) cZ := by
  unfold k0_pay4
  (try dsimp only)
  refine congrArg₂ max (congrArg₂ (· + ·) (congrArg₂ (· + ·) ?_ ?_) ?_) rfl
  · refine (mm_apply _ _ r j).trans ?_
    simp only [truncf_apply, shapeCast_self]
  · refine (mm_apply _ _ r j).trans ?_
    simp only [truncf_apply, shapeCast_self]
  · refine (broadcastTo_1b_ab_apply _ broadcasts_S1x128_S5000x128 r j).trans ?_
    rw [shapeCast_self]

/-- the carried column sums plus this block's column sums -/
theorem pay5_0_apply (v3 v6 : Vec Ideal S5000x128 .f32) (v8 v11 : Vec Ideal S128x128 .f32) (v17 v24 : Vec Ideal S1x128 .f32)
    (u : Fin 1) (j : Fin 128) :
    k0_pay5 (F := Ideal) v3 v6 v8 v11 v17 v24 (ix2 u j)
      = v24 (ix2 u j) + ∑ r : Fin 5000, k0_pay4 (F := Ideal) v3 v6 v8 v11 v17 (ix2 r j) := by
  unfold k0_pay5
  (try dsimp only)
  refine congrArg₂ (· + ·) ?_ ?_
  · rw [shapeCast_self]
  · exact colsum_apply _ _ _ u j

/-- the carried column sums of squares plus this block's -/
theorem pay1_0_apply (v22 : FVec Ideal S5000x128 .f32) (v31 : FVec Ideal S1x128 .f32) (u : Fin 1) (j : Fin 128) :
    k0_pay1 (F := Ideal) v22 v31 (ix2 u j) = v31 (ix2 u j) + ∑ r : Fin 5000, v22 (ix2 r j) * v22 (ix2 r j) := by
  unfold k0_pay1
  (try dsimp only)
  refine congrArg₂ (· + ·) rfl ?_
  exact colsum_apply _ _ _ u j

/-- the carried row passes through unchanged -/
theorem pay6_0_eq (v : Vec Ideal S1x128 .f32) : k0_pay6 (F := Ideal) v = v := shapeCast_self v _

/-- the zero rows the first point stores -/
theorem pay2_0_apply (i : S1x128.Idx) : k0_pay2 (F := Ideal) i = 0 := Ideal.ofBits_zero_f32
theorem pay3_0_apply (i : S1x128.Idx) : k0_pay3 (F := Ideal) i = 0 := Ideal.ofBits_zero_f32

/-! ### Region 6's block payload read at an index -/

/-- three products added left to right, then the bias row, clipped below at zero -/
theorem pay1_6_apply (v0 v3 v6 : Vec Ideal S5000x128 .f32) (v9 v12 v15 : Vec Ideal S128x128 .f32) (v23 : Vec Ideal S1x128 .f32)
    (r : Fin 5000) (j : Fin 128) :
    k6_pay1 (F := Ideal) v0 v3 v6 v9 v12 v15 v23 (ix2 r j)
      = max (((∑ k : Fin 128, v0 (ix2 r k) * v9 (ix2 k j) + ∑ k : Fin 128, v3 (ix2 r k) * v12 (ix2 k j))
          + ∑ k : Fin 128, v6 (ix2 r k) * v15 (ix2 k j)) + v23 (ix2 0 j)) cZ := by
  unfold k6_pay1
  (try dsimp only)
  refine congrArg₂ max (congrArg₂ (· + ·) (congrArg₂ (· + ·) (congrArg₂ (· + ·) ?_ ?_) ?_) ?_) rfl
  · refine (mm_apply _ _ r j).trans ?_
    simp only [truncf_apply, shapeCast_self]
  · refine (mm_apply _ _ r j).trans ?_
    simp only [truncf_apply, shapeCast_self]
  · refine (mm_apply _ _ r j).trans ?_
    simp only [truncf_apply, shapeCast_self]
  · refine (broadcastTo_1b_ab_apply _ broadcasts_S1x128_S5000x128 r j).trans ?_
    rw [shapeCast_self]

/-! ### Region 2's block payloads read at an index -/

/-- the block of `y`: both products over the shared channel, the bias row, clipped below at zero -/
theorem pay4_2_apply (v3 v6 : Vec Ideal S5000x128 .f32) (v8 v11 : Vec Ideal S128x128 .f32) (v17 : Vec Ideal S1x128 .f32)
    (r : Fin 5000) (j : Fin 128) :
    k2_pay4 (F := Ideal) v3 v6 v8 v11 v17 (ix2 r j)
      = max ((∑ k : Fin 128, v3 (ix2 r k) * v8 (ix2 k j) + ∑ k : Fin 128, v6 (ix2 r k) * v11 (ix2 k j)) + v17 (ix2 0 j)) cZ := by
  unfold k2_pay4
  (try dsimp only)
  refine congrArg₂ max (congrArg₂ (· + ·) (congrArg₂ (· + ·) ?_ ?_) ?_) rfl
  · refine (mm_apply _ _ r j).trans ?_
    simp only [truncf_apply, shapeCast_self]
  · refine (mm_apply _ _ r j).trans ?_
    simp only [truncf_apply, shapeCast_self]
  · refine (broadcastTo_1b_ab_apply _ broadcasts_S1x128_S5000x128 r j).trans ?_
    rw [shapeCast_self]

/-- the carried column sums plus this block's column sums -/
theorem pay5_2_apply (v3 v6 : Vec Ideal S5000x128 .f32) (v8 v11 : Vec Ideal S128x128 .f32) (v17 v24 : Vec Ideal S1x128 .f32)
    (u : Fin 1) (j : Fin 128) :
    k2_pay5 (F := Ideal) v3 v6 v8 v11 v17 v24 (ix2 u j)
      = v24 (ix2 u j) + ∑ r : Fin 5000, k2_pay4 (F := Ideal) v3 v6 v8 v11 v17 (ix2 r j) := by
  unfold k2_pay5
  (try dsimp only)
  refine congrArg₂ (· + ·) ?_ ?_
  · rw [shapeCast_self]
  · exact colsum_apply _ _ _ u j

/-- the carried column sums of squares plus this block's -/
theorem pay1_2_apply (v22 : FVec Ideal S5000x128 .f32) (v31 : Vec Ideal S1x128 .f32) (u : Fin 1) (j : Fin 128) :
    k2_pay1 (F := Ideal) v22 v31 (ix2 u j) = v31 (ix2 u j) + ∑ r : Fin 5000, v22 (ix2 r j) * v22 (ix2 r j) := by
  unfold k2_pay1
  (try dsimp only)
  refine congrArg₂ (· + ·) ?_ ?_
  · rw [shapeCast_self]
  exact colsum_apply _ _ _ u j

/-- the zero rows the first point stores -/
theorem pay2_2_apply (i : S1x128.Idx) : k2_pay2 (F := Ideal) i = 0 := Ideal.ofBits_zero_f32
theorem pay3_2_apply (i : S1x128.Idx) : k2_pay3 (F := Ideal) i = 0 := Ideal.ofBits_zero_f32

/-! ### Region 4's block payloads read at an index -/

/-- the block of `y`: both products over the shared channel, the bias row, clipped below at zero -/
theorem pay4_4_apply (v3 v6 : Vec Ideal S5000x128 .f32) (v8 v11 : Vec Ideal S128x128 .f32) (v17 : Vec Ideal S1x128 .f32)
    (r : Fin 5000) (j : Fin 128) :
    k4_pay4 (F := Ideal) v3 v6 v8 v11 v17 (ix2 r j)
      = max ((∑ k : Fin 128, v3 (ix2 r k) * v8 (ix2 k j) + ∑ k : Fin 128, v6 (ix2 r k) * v11 (ix2 k j)) + v17 (ix2 0 j)) cZ := by
  unfold k4_pay4
  (try dsimp only)
  refine congrArg₂ max (congrArg₂ (· + ·) (congrArg₂ (· + ·) ?_ ?_) ?_) rfl
  · refine (mm_apply _ _ r j).trans ?_
    simp only [truncf_apply, shapeCast_self]
  · refine (mm_apply _ _ r j).trans ?_
    simp only [truncf_apply, shapeCast_self]
  · refine (broadcastTo_1b_ab_apply _ broadcasts_S1x128_S5000x128 r j).trans ?_
    rw [shapeCast_self]

/-- the carried column sums plus this block's column sums -/
theorem pay5_4_apply (v3 v6 : Vec Ideal S5000x128 .f32) (v8 v11 : Vec Ideal S128x128 .f32) (v17 v24 : Vec Ideal S1x128 .f32)
    (u : Fin 1) (j : Fin 128) :
    k4_pay5 (F := Ideal) v3 v6 v8 v11 v17 v24 (ix2 u j)
      = v24 (ix2 u j) + ∑ r : Fin 5000, k4_pay4 (F := Ideal) v3 v6 v8 v11 v17 (ix2 r j) := by
  unfold k4_pay5
  (try dsimp only)
  refine congrArg₂ (· + ·) ?_ ?_
  · rw [shapeCast_self]
  · exact colsum_apply _ _ _ u j

/-- the carried column sums of squares plus this block's -/
theorem pay1_4_apply (v22 : FVec Ideal S5000x128 .f32) (v31 : Vec Ideal S1x128 .f32) (u : Fin 1) (j : Fin 128) :
    k4_pay1 (F := Ideal) v22 v31 (ix2 u j) = v31 (ix2 u j) + ∑ r : Fin 5000, v22 (ix2 r j) * v22 (ix2 r j) := by
  unfold k4_pay1
  (try dsimp only)
  refine congrArg₂ (· + ·) ?_ ?_
  · rw [shapeCast_self]
  exact colsum_apply _ _ _ u j

/-- the zero rows the first point stores -/
theorem pay2_4_apply (i : S1x128.Idx) : k4_pay2 (F := Ideal) i = 0 := Ideal.ofBits_zero_f32
theorem pay3_4_apply (i : S1x128.Idx) : k4_pay3 (F := Ideal) i = 0 := Ideal.ofBits_zero_f32

end Cert.KernelIdeal.KRegLib

end
-- ==== Proof.KReg0.lean ====
import proofs.«147097_j73383811219611_1_alg».proof.Proof.Gen.KernelIdeal.Frame
import proofs.«147097_j73383811219611_1_alg».proof.Proof.KRegLib
import Idealize.ShloMosaic.Lib.Pipeline.Value
import Idealize.ShloMosaic.Lib.Tactic

set_option pp.maxSteps 5000
set_option pp.deepTerms false

noncomputable section

namespace Cert.KernelIdeal.KReg0

open Idealize.ShloMosaic Idealize.ShloMosaic.TcCoe Idealize.SL.Sem Idealize.ShloMosaic.ValueIdx
open Idealize.ShloMosaic.Pipeline (Dat)
open Cert.KernelIdeal Cert.KernelIdeal.Gen Cert.Gnn

variable {F : FTy → Type} [FloatOps F]

theorem hz : (![0, 0] : Fin 2 → Nat) = fun _ => 0 := funext fun a => by fin_cases a <;> rfl

/-! ## What each control case leaves in the three output blocks, as the payloads of the blocks read -/

theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_5 c i a1 h1 a2 h2 a3 h3 a4 h4 a5 h5 a6 h6 a7 h7 a8 h8 hc x0 x1 x2 x3 x4 = k0_pay4 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_6 c i a1 h1 a2 h2 a3 h3 a4 h4 a5 h5 a6 h6 a7 h7 a8 h8 hc x0 x1 x2 x3 x4 = k0_pay5 x0 x1 x2 x4 x3 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_7 c i a1 h1 a2 h2 a3 h3 a4 h4 a5 h5 a6 h6 a7 h7 a8 h8 hc x0 x1 x2 x3 x4 = k0_pay1 (k0_pay4 x0 x1 x2 x4 x3) (k0_pay6 (k0_pay3 (F := F))) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_5 c i a1 h1 a2 h2 a3 h3 a4 h4 a5 h5 a6 h6 a7 h7 a8 h8 hc x0 x1 x2 x3 x4 xo6 xo7 = k0_pay4 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_6 c i a1 h1 a2 h2 a3 h3 a4 h4 a5 h5 a6 h6 a7 h7 a8 h8 hc x0 x1 x2 x3 x4 xo6 xo7 = k0_pay5 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out0_B_7 c i a1 h1 a2 h2 a3 h3 a4 h4 a5 h5 a6 h6 a7 h7 a8 h8 hc x0 x1 x2 x3 x4 xo6 xo7 = k0_pay1 (k0_pay4 x0 x1 x2 x4 x3) (k0_pay6 xo7) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

section Vals
variable (V : (c : Dev nD) → (b : Ref sig .tc) → Buf (Elt Ideal) ((c : Thread nD τ).loc b))

/-- The printed index maps, decided over the ten points: the two row-blocked inputs and the row-blocked output sit at block
    row `t`; the weights, the bias row and the two running rows sit at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks read where the arrays hold them -/

theorem blk0_apply (c : Dev nD) (t : Fin cfg0.N) (r : Fin 5000) (k : Fin 128) (h : 5000 * t.val + r.val < 50000) :
    (iblk0 V c 0 t : Vec Ideal S5000x128 .f32) (ix2 r k)
      = (V c (Pipeline.arrRef spec0 0) : S50000x128.Idx → EReal) (ix2 ⟨5000 * t.val + r.val, h⟩ k) := by
  unfold iblk0
  rw [View.read_apply]
  show V c (Pipeline.arrRef spec0 0) (((cfg0.win 0).blk t).view.emb (ix2 r k)) = _
  refine congrArg (V c (Pipeline.arrRef spec0 0)) ?_
  obtain ⟨e00, e01, e10, e11, -⟩ := idx_facts t
  funext a
  apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

theorem blk1_apply (c : Dev nD) (t : Fin cfg0.N) (r : Fin 5000) (k : Fin 128) (h : 5000 * t.val + r.val < 50000) :
    (iblk0 V c 1 t : Vec Ideal S5000x128 .f32) (ix2 r k)
      = (V c (Pipeline.arrRef spec0 1) : S50000x128.Idx → EReal) (ix2 ⟨5000 * t.val + r.val, h⟩ k) := by
  unfold iblk0
  rw [View.read_apply]
  show V c (Pipeline.arrRef spec0 1) (((cfg0.win 1).blk t).view.emb (ix2 r k)) = _
  refine congrArg (V c (Pipeline.arrRef spec0 1)) ?_
  obtain ⟨-, -, e10, e11, -⟩ := idx_facts t
  funext a
  apply Fin.ext
  match a with
  | ⟨0, _⟩ => show win0_1.index t (0 : Fin 2) * 5000 + 1 * r.val = 5000 * t.val + r.val; omega
  | ⟨1, _⟩ => show win0_1.index t (1 : Fin 2) * 128 + 1 * k.val = k.val; omega

theorem blk2_apply (c : Dev nD) (t : Fin cfg0.N) (a : Fin 128) (b : Fin 128) :
    (iblk0 V c 2 t : Vec Ideal S128x128 .f32) (ix2 a b) = (V c (Pipeline.arrRef spec0 2) : S128x128.Idx → EReal) (ix2 a b) := by
  unfold iblk0
  rw [View.read_apply]
  show V c (Pipeline.arrRef spec0 2) (((cfg0.win 2).blk t).view.emb (ix2 a b)) = _
  refine congrArg (V c (Pipeline.arrRef spec0 2)) ?_
  obtain ⟨-, -, -, -, e20, e21, e30, e31, e40, e41, -⟩ := idx_facts t
  funext ax
  apply Fin.ext
  match ax with
  | ⟨0, _⟩ => show win0_2.index t (0 : Fin 2) * 128 + 1 * a.val = a.val; omega
  | ⟨1, _⟩ => show win0_2.index t (1 : Fin 2) * 128 + 1 * b.val = b.val; omega

theorem blk3_apply (c : Dev nD) (t : Fin cfg0.N) (a : Fin 1) (b : Fin 128) :
    (iblk0 V c 3 t : Vec Ideal S1x128 .f32) (ix2 a b) = (V c (Pipeline.arrRef spec0 3) : S1x128.Idx → EReal) (ix2 a b) := by
  unfold iblk0
  rw [View.read_apply]
  show V c (Pipeline.arrRef spec0 3) (((cfg0.win 3).blk t).view.emb (ix2 a b)) = _
  refine congrArg (V c (Pipeline.arrRef spec0 3)) ?_
  obtain ⟨-, -, -, -, e20, e21, e30, e31, e40, e41, -⟩ := idx_facts t
  funext ax
  apply Fin.ext
  match ax with
  | ⟨0, _⟩ => show win0_3.index t (0 : Fin 2) * 1 + 1 * a.val = a.val; omega
  | ⟨1, _⟩ => show win0_3.index t (1 : Fin 2) * 128 + 1 * b.val = b.val; omega

theorem blk4_apply (c : Dev nD) (t : Fin cfg0.N) (a : Fin 128) (b : Fin 128) :
    (iblk0 V c 4 t : Vec Ideal S128x128 .f32) (ix2 a b) = (V c (Pipeline.arrRef spec0 4) : S128x128.Idx → EReal) (ix2 a b) := by
  unfold iblk0
  rw [View.read_apply]
  show V c (Pipeline.arrRef spec0 4) (((cfg0.win 4).blk t).view.emb (ix2 a b)) = _
  refine congrArg (V c (Pipeline.arrRef spec0 4)) ?_
  obtain ⟨-, -, -, -, e20, e21, e30, e31, e40, e41, -⟩ := idx_facts t
  funext ax
  apply Fin.ext
  match ax with
  | ⟨0, _⟩ => show win0_4.index t (0 : Fin 2) * 128 + 1 * a.val = a.val; omega
  | ⟨1, _⟩ => show win0_4.index t (1 : Fin 2) * 128 + 1 * b.val = b.val; omega

/-- the whole table of `y` the region computes -/
abbrev Yc (c : Dev nD) : SN.Idx → EReal :=
  yArr (V c (Pipeline.arrRef spec0 0)) (V c (Pipeline.arrRef spec0 1)) (V c (Pipeline.arrRef spec0 2)) (V c (Pipeline.arrRef spec0 3)) (V c (Pipeline.arrRef spec0 4))

/-- Point `t`'s block of `y` is rows `5000 t …` of the table. -/
theorem yblk_apply (c : Dev nD) (t : Fin cfg0.N) (r : Fin 5000) (j : Fin 128) (h : 5000 * t.val + r.val < 50000) :
    k0_pay4 (F := Ideal) (iblk0 V c 0 t) (iblk0 V c 1 t) (iblk0 V c 2 t) (iblk0 V c 4 t) (iblk0 V c 3 t) (ix2 r j) = Yc V c (ix2 ⟨5000 * t.val + r.val, h⟩ j) := by
  refine (KRegLib.pay4_0_apply (iblk0 V c 0 t) (iblk0 V c 1 t) (iblk0 V c 2 t) (iblk0 V c 4 t) (iblk0 V c 3 t) r j).trans ?_
  refine congrArg₂ max (congrArg₂ (· + ·) (congrArg₂ (· + ·) ?_ ?_) ?_) rfl
  · exact Finset.sum_congr rfl fun k _ => congrArg₂ (· * ·) (blk0_apply V c t r k h) (blk2_apply V c t k j)
  · exact Finset.sum_congr rfl fun k _ => congrArg₂ (· * ·) (blk1_apply V c t r k h) (blk4_apply V c t k j)
  · exact blk3_apply V c t 0 j

/-! ## The running contents of the three output blocks, by induction on the point -/

theorem outs_eq (c : Dev nD) : ∀ (n : ℕ) (h : n < cfg0.N),
    (outsAt0 V c n h).1 = k0_pay4 (F := Ideal) (iblk0 V c 0 ⟨n, h⟩) (iblk0 V c 1 ⟨n, h⟩) (iblk0 V c 2 ⟨n, h⟩) (iblk0 V c 4 ⟨n, h⟩) (iblk0 V c 3 ⟨n, h⟩)
    ∧ (∀ (u : Fin 1) (j : Fin 128), (outsAt0 V c n h).2.1 (ix2 u j)
        = ∑ i ∈ Finset.range (5000 * (n + 1)), KRegLib.ext (fun i => Yc V c (ix2 i j)) i)
    ∧ (∀ (u : Fin 1) (j : Fin 128), (outsAt0 V c n h).2.2 (ix2 u j)
        = ∑ i ∈ Finset.range (5000 * (n + 1)), KRegLib.ext (fun i => Yc V c (ix2 i j) * Yc V c (ix2 i j)) i)
  | 0, h => by
    have hN : cfg0.N = 10 := N_0
    let t : Fin cfg0.N := ⟨0, h⟩
    have hlt : ∀ r : Fin 5000, 5000 * t.val + r.val < 50000 := fun r => by have := r.isLt; show 5000 * 0 + r.val < 50000; omega
    rw [outsAt0_A V c t rfl]
    dsimp only
    refine ⟨out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr rfl) (iblk0 V c 0 t) (iblk0 V c 1 t) (iblk0 V c 2 t) (iblk0 V c 3 t) (iblk0 V c 4 t), fun u j => ?_, fun u j => ?_⟩
    · rw [out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr rfl) (iblk0 V c 0 t) (iblk0 V c 1 t) (iblk0 V c 2 t) (iblk0 V c 3 t) (iblk0 V c 4 t)]
      refine (KRegLib.pay5_0_apply (iblk0 V c 0 t) (iblk0 V c 1 t) (iblk0 V c 2 t) (iblk0 V c 4 t) (iblk0 V c 3 t) _ u j).trans ?_
      rw [KRegLib.pay2_0_apply]
      exact KRegLib.ext_base _ _ fun r => (yblk_apply V c t r j (hlt r)).trans (KRegLib.ext_of_lt (fun i => Yc V c (ix2 i j)) _ (hlt r)).symm
    · rw [out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr rfl) (iblk0 V c 0 t) (iblk0 V c 1 t) (iblk0 V c 2 t) (iblk0 V c 3 t) (iblk0 V c 4 t)]
      refine (KRegLib.pay1_0_apply _ _ u j).trans ?_
      rw [KRegLib.pay6_0_eq, KRegLib.pay3_0_apply]
      exact KRegLib.ext_base _ _ fun r => (congrArg₂ (· * ·) (yblk_apply V c t r j (hlt r)) (yblk_apply V c t r j (hlt r))).trans (KRegLib.ext_of_lt (fun i => Yc V c (ix2 i j) * Yc V c (ix2 i j)) _ (hlt r)).symm
  | n + 1, h => by
    have hN : cfg0.N = 10 := N_0
    let t : Fin cfg0.N := ⟨n + 1, h⟩
    have hB : ¬t.val % 10 = 0 := by show ¬(n + 1) % 10 = 0; omega
    have hlt : ∀ r : Fin 5000, 5000 * t.val + r.val < 50000 := fun r => by have := r.isLt; show 5000 * (n + 1) + r.val < 50000; omega
    obtain ⟨-, ih6, ih7⟩ := outs_eq c n (by omega)
    rw [outsAt0_B V c t hB]
    dsimp only
    refine ⟨out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => hB ((hcond0_0 t).mp hh)) (iblk0 V c 0 t) (iblk0 V c 1 t) (iblk0 V c 2 t) (iblk0 V c 3 t) (iblk0 V c 4 t) _ _, fun u j => ?_, fun u j => ?_⟩
    · rw [out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => hB ((hcond0_0 t).mp hh)) (iblk0 V c 0 t) (iblk0 V c 1 t) (iblk0 V c 2 t) (iblk0 V c 3 t) (iblk0 V c 4 t) _ _]
      refine (KRegLib.pay5_0_apply (iblk0 V c 0 t) (iblk0 V c 1 t) (iblk0 V c 2 t) (iblk0 V c 4 t) (iblk0 V c 3 t) _ u j).trans ?_
      refine (congrArg₂ (· + ·) (ih6 u j) rfl).trans ?_
      exact KRegLib.ext_step _ (n + 1) _ fun r => (yblk_apply V c t r j (hlt r)).trans (KRegLib.ext_of_lt (fun i => Yc V c (ix2 i j)) _ (hlt r)).symm
    · rw [out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => hB ((hcond0_0 t).mp hh)) (iblk0 V c 0 t) (iblk0 V c 1 t) (iblk0 V c 2 t) (iblk0 V c 3 t) (iblk0 V c 4 t) _ _]
      refine (KRegLib.pay1_0_apply _ _ u j).trans ?_
      rw [KRegLib.pay6_0_eq]
      refine (congrArg₂ (· + ·) (ih7 u j) rfl).trans ?_
      exact KRegLib.ext_step _ (n + 1) _ fun r => (congrArg₂ (· * ·) (yblk_apply V c t r j (hlt r)) (yblk_apply V c t r j (hlt r))).trans (KRegLib.ext_of_lt (fun i => Yc V c (ix2 i j) * Yc V c (ix2 i j)) _ (hlt r)).symm

end Vals

section Final
variable (V : (c : Dev nD) → (b : Ref sig .tc) → Buf (Elt Ideal) ((c : Thread nD τ).loc b))

/-! ## From the blocks to the arrays -/

/-- What point `t` writes back of `y` is block `t` of the table. -/
theorem flushed5_eq (c : Dev nD) (t : Fin cfg0.N) :
    (dat0 V c).flushed 5 t = ((cfg0.win 5).blk t).view.read (Elt Ideal) (Yc V c) := by
  show (cfg0.win 5).cut (grid0.coords t) ((dat0 V c).after 5 t) = _
  rw [after0_5, (outs_eq V c t.val t.isLt).1]
  refine funext fun (y : S5000x128.Idx) => ?_
  obtain ⟨r, j, rfl⟩ : ∃ (r : Fin 5000) (j : Fin 128), y = ix2 r j := ⟨y 0, y 1, eq_ix2 y⟩
  have hN : cfg0.N = 10 := N_0
  have hlt : 5000 * t.val + r.val < 50000 := by have := t.isLt; have := r.isLt; omega
  refine (yblk_apply V c t r j hlt).trans ?_
  rw [View.read_apply]
  show Yc V c _ = Yc V c (((cfg0.win 5).blk t).view.emb (ix2 r j))
  refine congrArg (Yc V c) ?_
  obtain ⟨-, -, -, -, -, -, -, -, -, -, e50, e51, -⟩ := idx_facts t
  funext a
  apply Fin.ext
  match a with
  | ⟨0, _⟩ => show 5000 * t.val + r.val = win0_5.index t (0 : Fin 2) * 5000 + 1 * r.val; omega
  | ⟨1, _⟩ => show j.val = win0_5.index t (1 : Fin 2) * 128 + 1 * j.val; omega

/-- An index of the table is in point `t`'s block iff each coordinate is in the block's range. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25_0).slice (win0_5.rect t)).set ↔ _
  rw [View.set_slice_whole, Rect.mem_set_unit]
  exact Iff.rfl

/-- THE TABLE `y`: the ten row blocks tile it. -/
theorem y_val (c : Dev nD) : (dat0 (F := Ideal) V c).arrAt 5 cfg0.N = yArr (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 (Yc V c) (fun t _ => flushed5_eq V c t) fun i => by
    have hN : cfg0.N = 10 := N_0
    have hi0 : (i 0).val < 50000 := (i 0).isLt
    have hi1 : (i 1).val < 128 := (i 1).isLt
    let t : Fin cfg0.N := ⟨(i 0).val / 5000, by rw [hN]; omega⟩
    obtain ⟨-, -, -, -, -, -, -, -, -, -, e50, e51, -⟩ := idx_facts t
    have ht : t.val = (i 0).val / 5000 := rfl
    refine ⟨t, flush0_5 t, ?_⟩
    rw [mem_blk5]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega

/-- The one write-back of running row 6 (after the last point) writes the whole column sums. -/
theorem flushed6_eq (c : Dev nD) (t : Fin cfg0.N) (hf : (cfg0.win 6).flush t = true) :
    (dat0 V c).flushed 6 t = ((cfg0.win 6).blk t).view.read (Elt Ideal) (sArr (Yc V c)) := by
  have hN : cfg0.N = 10 := N_0
  have h9 : t.val = 9 := by have := (flush0_6 t).mp hf; have := t.isLt; omega
  show (cfg0.win 6).cut (grid0.coords t) ((dat0 V c).after 6 t) = _
  rw [after0_6]
  refine funext fun (y : S1x128.Idx) => ?_
  obtain ⟨u, j, rfl⟩ : ∃ (u : Fin 1) (j : Fin 128), y = ix2 u j := ⟨y 0, y 1, eq_ix2 y⟩
  refine ((outs_eq V c t.val t.isLt).2.1 u j).trans ?_
  rw [View.read_apply]
  obtain ⟨-, -, -, -, -, -, -, -, -, -, -, -, e60, e61, e70, e71⟩ := idx_facts t
  have he : (((cfg0.win 6).blk t).view.emb (ix2 u j)) (1 : Fin 2) = j := by
    apply Fin.ext
    show win0_6.index t (1 : Fin 2) * 128 + 1 * j.val = j.val
    omega
  refine Eq.trans ?_ (cast_eq _ _).symm
  unfold sArr
  dsimp only
  rw [he, h9]
  exact KRegLib.ext_total _

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v25_1).slice (win0_6.rect t)).set ↔ _
  rw [View.set_slice_whole, Rect.mem_set_unit]
  exact Iff.rfl

/-- THE COLUMN SUMS of `y` over all rows. -/
theorem s_val (c : Dev nD) : (dat0 (F := Ideal) V c).arrAt 6 cfg0.N = sArr (yArr (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 6 (sArr (Yc V c)) (flushed6_eq V c) fun i => by
    have hN : cfg0.N = 10 := N_0
    have hi0 : (i 0).val < 1 := (i 0).isLt
    have hi1 : (i 1).val < 128 := (i 1).isLt
    let t : Fin cfg0.N := ⟨9, by rw [hN]; omega⟩
    obtain ⟨-, -, -, -, -, -, -, -, -, -, -, -, e60, e61, e70, e71⟩ := idx_facts t
    refine ⟨t, (flush0_6 t).mpr rfl, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 128 ≤ (i 1).val ∧ (i 1).val < win0_6.index t (1 : Fin 2) * 128 + 128; omega

/-- The one write-back of running row 7 (after the last point) writes the whole column sums of squares. -/
theorem flushed7_eq (c : Dev nD) (t : Fin cfg0.N) (hf : (cfg0.win 7).flush t = true) :
    (dat0 V c).flushed 7 t = ((cfg0.win 7).blk t).view.read (Elt Ideal) (ssArr (Yc V c)) := by
  have hN : cfg0.N = 10 := N_0
  have h9 : t.val = 9 := by have := (flush0_7 t).mp hf; have := t.isLt; omega
  show (cfg0.win 7).cut (grid0.coords t) ((dat0 V c).after 7 t) = _
  rw [after0_7]
  refine funext fun (y : S1x128.Idx) => ?_
  obtain ⟨u, j, rfl⟩ : ∃ (u : Fin 1) (j : Fin 128), y = ix2 u j := ⟨y 0, y 1, eq_ix2 y⟩
  refine ((outs_eq V c t.val t.isLt).2.2 u j).trans ?_
  rw [View.read_apply]
  obtain ⟨-, -, -, -, -, -, -, -, -, -, -, -, e60, e61, e70, e71⟩ := idx_facts t
  have he : (((cfg0.win 7).blk t).view.emb (ix2 u j)) (1 : Fin 2) = j := by
    apply Fin.ext
    show win0_7.index t (1 : Fin 2) * 128 + 1 * j.val = j.val
    omega
  refine Eq.trans ?_ (cast_eq _ _).symm
  unfold ssArr
  dsimp only
  rw [he, h9]
  exact KRegLib.ext_total _

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v25_2).slice (win0_7.rect t)).set ↔ _
  rw [View.set_slice_whole, Rect.mem_set_unit]
  exact Iff.rfl

/-- THE COLUMN SUMS OF SQUARES of `y` over all rows. -/
theorem ss_val (c : Dev nD) : (dat0 (F := Ideal) V c).arrAt 7 cfg0.N = ssArr (yArr (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 7 (ssArr (Yc V c)) (flushed7_eq V c) fun i => by
    have hN : cfg0.N = 10 := N_0
    have hi0 : (i 0).val < 1 := (i 0).isLt
    have hi1 : (i 1).val < 128 := (i 1).isLt
    let t : Fin cfg0.N := ⟨9, by rw [hN]; omega⟩
    obtain ⟨-, -, -, -, -, -, -, -, -, -, -, -, e60, e61, e70, e71⟩ := idx_facts t
    refine ⟨t, (flush0_7 t).mpr rfl, ?_⟩
    rw [mem_blk7]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 128 ≤ (i 1).val ∧ (i 1).val < win0_7.index t (1 : Fin 2) * 128 + 128; omega

end Final

end Cert.KernelIdeal.KReg0
end
-- ==== Proof.KReg1.lean ====
/-
  Region 1 of the idealized kernel (normalise, scale and shift, one 5000-row block per grid point) read as a
  value: after the region its output array is `(g · (y − μ)) · (σ² + ε)^(-1/2) + b` of the arrays the region finds,
  index by index — every point writes back exactly its block of that function, and the ten blocks cover the array.
-/
import proofs.«147097_j73383811219611_1_alg».proof.Proof.Gen.KernelIdeal.Frame
import proofs.«147097_j73383811219611_1_alg».proof.Proof.KSpec
import Idealize.ShloMosaic.Lib.Pipeline.Value
import Idealize.ShloMosaic.Lib.ValueLayout

set_option maxRecDepth 16384

noncomputable section

namespace Cert.KernelIdeal.KReg1

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Gnn

theorem hz : (![0, 0] : Fin 2 → Nat) = fun _ => 0 := funext fun a => by fin_cases a <;> rfl

/-- The body's arithmetic at row `p`, channel `q` of its block: the rows μ, σ², g, b are read at channel `q`. -/
theorem pay_apply (v0 v5 : Vec Ideal S1x128 .f32) (v7 : Vec Ideal S5000x128 .f32) (v9 v17 : Vec Ideal S1x128 .f32)
    (p : Fin 5000) (q : Fin 128) :
    k1_pay1 (F := Ideal) v0 v5 v7 v9 v17 (ix2 p q)
      = v5 (ix2 0 q) * (v7 (ix2 p q) - v9 (ix2 0 q)) * Ideal.rsqrt (v0 (ix2 0 q) + cEps) + v17 (ix2 0 q) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The index maps over the grid: point `t` takes row block `t` of the data and of the output, the one block of each row table. -/
theorem idx_facts : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val :=
  (by decide +kernel : ∀ t : Fin grid1.N, _)

/-- the arrays the region finds: the data, then the rows μ, σ², g, b -/
abbrev arrY (V : (c : Dev nD) → (b : Ref sig .tc) → Buf (Elt Ideal) ((c : Thread nD τ).loc b)) (c : Dev nD) : S50000x128.Idx → EReal := V c (Pipeline.arrRef spec1 0)
abbrev arrR (V : (c : Dev nD) → (b : Ref sig .tc) → Buf (Elt Ideal) ((c : Thread nD τ).loc b)) (c : Dev nD) (w : Fin 4) : S1x128.Idx → EReal :=
  match w with
  | 0 => V c (Pipeline.arrRef spec1 1)
  | 1 => V c (Pipeline.arrRef spec1 2)
  | 2 => V c (Pipeline.arrRef spec1 3)
  | 3 => V c (Pipeline.arrRef spec1 4)

/-- What point `t` writes back is block `t` of the normalised array. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (bnArr (arrY V c) (arrR V c 0) (arrR V c 1) (arrR V c 2) (arrR V c 3)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext (j : S5000x128.Idx)
  obtain ⟨p, q, rfl⟩ : ∃ (p : Fin 5000) (q : Fin 128), j = ix2 p q := ⟨j 0, j 1, eq_ix2 j⟩
  refine (pay_apply _ _ _ _ _ p q).trans ?_
  have hp : p.val < 5000 := p.isLt
  have hq : q.val < 128 := q.isLt
  have h0 : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix2 (0 : Fin 1) q) = ix2 (0 : Fin 1) ((((cfg1.win 5).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have h2 : ((cfg1.win 2).blk t).view.emb (ix2 (0 : Fin 1) q) = ix2 (0 : Fin 1) ((((cfg1.win 5).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have h3 : ((cfg1.win 3).blk t).view.emb (ix2 (0 : Fin 1) q) = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 (0 : Fin 1) q) = ix2 (0 : Fin 1) ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  show arrR V c 2 (((cfg1.win 3).blk t).view.emb (ix2 (0 : Fin 1) q))
      * (arrY V c (((cfg1.win 0).blk t).view.emb (ix2 p q)) - arrR V c 0 (((cfg1.win 1).blk t).view.emb (ix2 (0 : Fin 1) q)))
      * Ideal.rsqrt (arrR V c 1 (((cfg1.win 2).blk t).view.emb (ix2 (0 : Fin 1) q)) + cEps)
      + arrR V c 3 (((cfg1.win 4).blk t).view.emb (ix2 (0 : Fin 1) q))
    = bnArr (arrY V c) (arrR V c 0) (arrR V c 1) (arrR V c 2) (arrR V c 3) (((cfg1.win 5).blk t).view.emb (ix2 p q))
  rw [h0, h1, h2, h3, h4]
  rfl

/-- An index of the output array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

theorem idx_onto : ∀ q0 : Fin 10, ∃ t : Fin cfg1.N, win1_5.index t = ![q0.val, 0] :=
  (by decide +kernel : ∀ q0 : Fin 10, ∃ t : Fin grid1.N, win1_5.index t = ![q0.val, 0])

/-- Every index of the output array is in the block of the point that takes its row's block. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the normalised, scaled and shifted array of what the region finds. -/
theorem out_val (V : (c : Dev nD) → (b : Ref sig .tc) → Buf (Elt Ideal) ((c : Thread nD τ).loc b)) (c : Dev nD) :
    (dat1 (F := Ideal) V c).arrAt 5 cfg1.N
      = bnArr (arrY V c) (arrR V c 0) (arrR V c 1) (arrR V c 2) (arrR V c 3) :=
  (dat1 (F := Ideal) V c).arrAt_eq_of_cover 5 _ (fun t _ => flushed_eq V c t) cover

end Cert.KernelIdeal.KReg1

end
-- ==== Proof.KStretch.lean ====
/-
  The host operations between the regions, read as values: after each stretch of operations, what the buffers the next
  region reads hold, in terms of what the buffers held when the stretch began.  Every statement is for an arbitrary
  valuation at the stretch's entry.
-/
import proofs.«147097_j73383811219611_1_alg».proof.Proof.Gen.KernelIdeal.Frame
import proofs.«147097_j73383811219611_1_alg».proof.Proof.Spec
import Idealize.ShloMosaic.Lib.StableHlo.Run
import Idealize.ShloMosaic.Lib.ValueLayout
import Idealize.ShloMosaic.Lib.Pipeline.Value

noncomputable section

namespace Cert.KernelIdeal.KStretch

open Idealize.ShloMosaic Idealize.ShloMosaic.TcCoe Idealize.SL.Sem Idealize.ShloMosaic.ValueIdx
open Cert.KernelIdeal Cert.KernelIdeal.Gen Cert.Gnn

/-- A float buffer's contents, as a table of extended reals (the identity: it only names the type). -/
abbrev fl {S : Shape} (f : S.Idx → EReal) : S.Idx → EReal := f

/-- An integer buffer's contents, as a table of 32-bit words (the identity: it only names the type). -/
abbrev wd {S : Shape} (f : S.Idx → BitVec 32) : S.Idx → BitVec 32 := f

variable (W : Valuation τ sig (Elt Ideal))

/-! ## Stretch 1: the column mean and variance from the column sums and sums of squares; scale and shift as rows -/

/-- The mean row is the row of column sums divided by the node count. -/
theorem s1_mu (i : S1x128.Idx) :
    fl (S := S1x128) (StableHlo.after (hostOps1 (F := Ideal)) W (Proc.devRef .tc main_v27)) i
      = Ideal.div (fl (S := S1x128) (W (Proc.devRef .tc main_v25_1)) i) Cert.Gnn.cN := by
  unfold fl
  after_results
  rfl

/-- The variance row is the row of column sums of squares divided by the node count, minus the squared mean. -/
theorem s1_var (i : S1x128.Idx) :
    fl (S := S1x128) (StableHlo.after (hostOps1 (F := Ideal)) W (Proc.devRef .tc main_v31)) i
      = Ideal.div (fl (S := S1x128) (W (Proc.devRef .tc main_v25_2)) i) Cert.Gnn.cN
        - fl (S := S1x128) (StableHlo.after (hostOps1 (F := Ideal)) W (Proc.devRef .tc main_v27)) i
          * fl (S := S1x128) (StableHlo.after (hostOps1 (F := Ideal)) W (Proc.devRef .tc main_v27)) i := by
  unfold fl
  after_results
  rfl

/-- The scale as a row. -/
theorem s1_g (j : Fin 128) :
    fl (S := S1x128) (StableHlo.after (hostOps1 (F := Ideal)) W (Proc.devRef .tc main_v32)) (ix2 0 j)
      = fl (S := S128) (W (Proc.devRef .tc main_arg5)) (ix1 j) := by
  unfold fl
  after_results
  exact shapeCast_a_1a_apply _ _ 0 j

/-- The shift as a row. -/
theorem s1_b (j : Fin 128) :
    fl (S := S1x128) (StableHlo.after (hostOps1 (F := Ideal)) W (Proc.devRef .tc main_v33)) (ix2 0 j)
      = fl (S := S128) (W (Proc.devRef .tc main_arg6)) (ix1 j) := by
  unfold fl
  after_results
  exact shapeCast_a_1a_apply _ _ 0 j

/-! ## Stretch 3: the column mean and variance from the column sums and sums of squares; scale and shift as rows -/

/-- The mean row is the row of column sums divided by the node count. -/
theorem s3_mu (i : S1x128.Idx) :
    fl (S := S1x128) (StableHlo.after (hostOps3 (F := Ideal)) W (Proc.devRef .tc main_v58)) i
      = Ideal.div (fl (S := S1x128) (W (Proc.devRef .tc main_v56_1)) i) Cert.Gnn.cN := by
  unfold fl
  after_results
  rfl

/-- The variance row is the row of column sums of squares divided by the node count, minus the squared mean. -/
theorem s3_var (i : S1x128.Idx) :
    fl (S := S1x128) (StableHlo.after (hostOps3 (F := Ideal)) W (Proc.devRef .tc main_v62)) i
      = Ideal.div (fl (S := S1x128) (W (Proc.devRef .tc main_v56_2)) i) Cert.Gnn.cN
        - fl (S := S1x128) (StableHlo.after (hostOps3 (F := Ideal)) W (Proc.devRef .tc main_v58)) i
          * fl (S := S1x128) (StableHlo.after (hostOps3 (F := Ideal)) W (Proc.devRef .tc main_v58)) i := by
  unfold fl
  after_results
  rfl

/-- The scale as a row. -/
theorem s3_g (j : Fin 128) :
    fl (S := S1x128) (StableHlo.after (hostOps3 (F := Ideal)) W (Proc.devRef .tc main_v63)) (ix2 0 j)
      = fl (S := S128) (W (Proc.devRef .tc main_arg10)) (ix1 j) := by
  unfold fl
  after_results
  exact shapeCast_a_1a_apply _ _ 0 j

/-- The shift as a row. -/
theorem s3_b (j : Fin 128) :
    fl (S := S1x128) (StableHlo.after (hostOps3 (F := Ideal)) W (Proc.devRef .tc main_v64)) (ix2 0 j)
      = fl (S := S128) (W (Proc.devRef .tc main_arg11)) (ix1 j) := by
  unfold fl
  after_results
  exact shapeCast_a_1a_apply _ _ 0 j

/-! ## Stretch 5: the column mean and variance from the column sums and sums of squares; scale and shift as rows -/

/-- The mean row is the row of column sums divided by the node count. -/
theorem s5_mu (i : S1x128.Idx) :
    fl (S := S1x128) (StableHlo.after (hostOps5 (F := Ideal)) W (Proc.devRef .tc main_v89)) i
      = Ideal.div (fl (S := S1x128) (W (Proc.devRef .tc main_v87_1)) i) Cert.Gnn.cN := by
  unfold fl
  after_results
  rfl

/-- The variance row is the row of column sums of squares divided by the node count, minus the squared mean. -/
theorem s5_var (i : S1x128.Idx) :
    fl (S := S1x128) (StableHlo.after (hostOps5 (F := Ideal)) W (Proc.devRef .tc main_v93)) i
      = Ideal.div (fl (S := S1x128) (W (Proc.devRef .tc main_v87_2)) i) Cert.Gnn.cN
        - fl (S := S1x128) (StableHlo.after (hostOps5 (F := Ideal)) W (Proc.devRef .tc main_v89)) i
          * fl (S := S1x128) (StableHlo.after (hostOps5 (F := Ideal)) W (Proc.devRef .tc main_v89)) i := by
  unfold fl
  after_results
  rfl

/-- The scale as a row. -/
theorem s5_g (j : Fin 128) :
    fl (S := S1x128) (StableHlo.after (hostOps5 (F := Ideal)) W (Proc.devRef .tc main_v94)) (ix2 0 j)
      = fl (S := S128) (W (Proc.devRef .tc main_arg15)) (ix1 j) := by
  unfold fl
  after_results
  exact shapeCast_a_1a_apply _ _ 0 j

/-- The shift as a row. -/
theorem s5_b (j : Fin 128) :
    fl (S := S1x128) (StableHlo.after (hostOps5 (F := Ideal)) W (Proc.devRef .tc main_v95)) (ix2 0 j)
      = fl (S := S128) (W (Proc.devRef .tc main_arg16)) (ix1 j) := by
  unfold fl
  after_results
  exact shapeCast_a_1a_apply _ _ 0 j

end Cert.KernelIdeal.KStretch

end
-- ==== Proof.Agg.lean ====
/-
  The neighbourhood average both programs compute, as one array-level term of the edge list and the node features:
  every edge (source, target) sends the source node's feature row to the target node; the rows arriving at a node are
  summed and divided by the number of arrivals, or by one where nothing arrives.
-/
import Idealize.ShloMosaic.PureOps.Ideal
import Idealize.ShloMosaic.PureOps.Contract
import Idealize.ShloMosaic.Lib.ValueIdx
import proofs.«147097_j73383811219611_1_alg».proof.Proof.Spec

noncomputable section

namespace Cert.Gnn

open Idealize.ShloMosaic Idealize.ShloMosaic.ValueIdx

/-- the edge list: row 0 the sources, row 1 the targets -/
abbrev SE : Shape := ⟨2, ![2, 800000]⟩
/-- one row of the edge list -/
abbrev SE1 : Shape := ⟨2, ![1, 800000]⟩
/-- one entry per edge -/
abbrev SEv : Shape := ⟨1, ![800000]⟩
/-- a scalar -/
abbrev S0 : Shape := ⟨0, ![]⟩
/-- one index vector of length one per edge -/
abbrev SEc : Shape := ⟨2, ![800000, 1]⟩
/-- one feature row per edge -/
abbrev SM : Shape := ⟨2, ![800000, 128]⟩
/-- one count per node -/
abbrev SC : Shape := ⟨2, ![50000, 1]⟩

theorem slices_row0 : SE.Slices ![0, 0] SE1 := by decide
theorem slices_row1 : SE.Slices ![1, 0] SE1 := by decide
theorem casts_row : SE1.ShapeCasts SEv := by decide
theorem bcast_S0_SEv : S0.BroadcastsInDim SEv (![] : Fin 0 → Fin SEv.rank) := by decide
theorem bcast_SEv_SEc : SEv.BroadcastsInDim SEc (![0] : Fin 1 → Fin SEc.rank) := by decide
theorem bcast_S0_SN : S0.BroadcastsInDim SN (![] : Fin 0 → Fin SN.rank) := by decide
theorem bcast_S0_SEc : S0.BroadcastsInDim SEc (![] : Fin 0 → Fin SEc.rank) := by decide
theorem bcast_S0_SC : S0.BroadcastsInDim SC (![] : Fin 0 → Fin SC.rank) := by decide
theorem bcast_SC_SN : SC.BroadcastsInDim SN (![0, 1] : Fin 2 → Fin SN.rank) := by decide

/-- read whole rows of the feature table at the row numbers an index vector names -/
def gatherRows : GatherDims SN SEc SM where
  offsetDims := [1]
  collapsedSliceDims := [0]
  operandBatchingDims := []
  startIndicesBatchingDims := []
  startIndexMap := [0]
  indexVectorDim := 1
  sliceSizes := ![1, 128]
  wf := by decide

/-- add whole rows into the feature table at the row numbers an index vector names -/
def scatterRows : ScatterDims SN SEc SM where
  updateWindowDims := [1]
  insertedWindowDims := [0]
  scatterDimsToOperandDims := [0]
  indexVectorDim := 1
  wf := by decide

/-- add one number per edge into the per-node count at the row numbers an index vector names -/
def scatterCount : ScatterDims SC SEc SEc where
  updateWindowDims := [1]
  insertedWindowDims := [0]
  scatterDimsToOperandDims := [0]
  indexVectorDim := 1
  wf := by decide

/-- the edges' source nodes as written: row 0 of the edge list -/
def edgeSrc0 (ei : SE.Idx → BitVec 32) : IVec SEv 32 :=
  fun i => shapeCast SEv (extractStridedSlice SE1 ![0, 0] ei slices_row0) casts_row i

/-- the edges' target nodes: row 1 of the edge list -/
def edgeDst (ei : SE.Idx → BitVec 32) : IVec SEv 32 :=
  fun i => shapeCast SEv (extractStridedSlice SE1 ![1, 0] ei slices_row1) casts_row i

/-- the edges' source nodes, a negative number counted from the end -/
def edgeSrc (ei : SE.Idx → BitVec 32) : IVec SEv 32 :=
  select (cmpi .slt (edgeSrc0 ei) (broadcastInDim SEv ![] bcast_S0_SEv (constantI S0 32 0#32)))
    (addi (edgeSrc0 ei) (broadcastInDim SEv ![] bcast_S0_SEv (constantI S0 32 50000#32)))
    (edgeSrc0 ei)

/-- the feature row each edge carries: its source node's -/
def edgeMsg (ei : SE.Idx → BitVec 32) (X : SN.Idx → EReal) : SM.Idx → EReal :=
  Host.gather gatherRows X (broadcastInDim SEc ![0] bcast_SEv_SEc (edgeSrc ei))

/-- per node, the sum of the rows arriving -/
def aggSum (ei : SE.Idx → BitVec 32) (X : SN.Idx → EReal) : SN.Idx → EReal :=
  Host.scatterAdd (F := Ideal) (φ := .f32) scatterRows
    (broadcastInDim SN ![] bcast_S0_SN (constant (F := Ideal) S0 .f32 0x00000000#32))
    (broadcastInDim SEc ![0] bcast_SEv_SEc (edgeDst ei))
    (edgeMsg ei X)

/-- per node, the number of rows arriving -/
def aggCnt (ei : SE.Idx → BitVec 32) : SC.Idx → EReal :=
  Host.scatterAdd (F := Ideal) (φ := .f32) scatterCount
    (broadcastInDim SC ![] bcast_S0_SC (constant (F := Ideal) S0 .f32 0x00000000#32))
    (broadcastInDim SEc ![0] bcast_SEv_SEc (edgeDst ei))
    (broadcastInDim SEc ![] bcast_S0_SEc (constant (F := Ideal) S0 .f32 0x3F800000#32))

/-- the neighbourhood average: the sum of the arriving rows over the larger of their number and one -/
def agg (ei : SE.Idx → BitVec 32) (X : SN.Idx → EReal) : SN.Idx → EReal :=
  Host.divf (F := Ideal) (φ := .f32) (aggSum ei X)
    (broadcastInDim SN ![0, 1] bcast_SC_SN
      (maximumf (F := Ideal) (φ := .f32) (aggCnt ei)
        (broadcastInDim SC ![] bcast_S0_SC (constant (F := Ideal) S0 .f32 0x3F800000#32))))

end Cert.Gnn

end
-- ==== Proof.AggProg.lean ====
/-
  Each program's neighbourhood-average chain, spelled with that program's own shape witnesses and dimension records,
  is the term `agg`: the two differ only in the proofs of the shape side conditions they carry.
-/
import proofs.«147097_j73383811219611_1_alg».proof.KernelIdeal
import proofs.«147097_j73383811219611_1_alg».proof.ReferenceIdeal
import proofs.«147097_j73383811219611_1_alg».proof.Proof.Agg

noncomputable section

namespace Cert.Gnn

open Idealize.ShloMosaic Idealize.ShloMosaic.ValueIdx

section K
open Cert.KernelIdeal.Facts₀
theorem aggK_eq [Cert.KernelIdeal.Facts₀] (ei : Cert.KernelIdeal.S2x800000.Idx → BitVec 32) (X : Cert.KernelIdeal.S50000x128.Idx → EReal) :
    Host.divf (F := Ideal) (φ := .f32)
      (Host.scatterAdd (F := Ideal) (φ := .f32) Cert.KernelIdeal.scatter_S50000x128_S800000x1_S800000x128_1_0_0_1
        (broadcastInDim Cert.KernelIdeal.S50000x128 ![] bcast_S_S50000x128 (constant (F := Ideal) Cert.KernelIdeal.S_ .f32 0x00000000#32))
        (broadcastInDim Cert.KernelIdeal.S800000x1 ![0] bcast_S800000_S800000x1_0
          (fun i => shapeCast Cert.KernelIdeal.S800000 (extractStridedSlice Cert.KernelIdeal.S1x800000 ![1, 0] ei slices_S2x800000_S1x800000_1_0) shapeCasts_S1x800000_S800000 i))
        (Host.gather Cert.KernelIdeal.gather_S50000x128_S800000x1_S800000x128_1_0_n_n_0_1_1128 X
          (broadcastInDim Cert.KernelIdeal.S800000x1 ![0] bcast_S800000_S800000x1_0
            (select
              (cmpi .slt
                (fun i => shapeCast Cert.KernelIdeal.S800000 (extractStridedSlice Cert.KernelIdeal.S1x800000 ![0, 0] ei slices_S2x800000_S1x800000_0_0) shapeCasts_S1x800000_S800000 i)
                (broadcastInDim Cert.KernelIdeal.S800000 ![] bcast_S_S800000 (constantI Cert.KernelIdeal.S_ 32 0#32)))
              (addi
                (fun i => shapeCast Cert.KernelIdeal.S800000 (extractStridedSlice Cert.KernelIdeal.S1x800000 ![0, 0] ei slices_S2x800000_S1x800000_0_0) shapeCasts_S1x800000_S800000 i)
                (broadcastInDim Cert.KernelIdeal.S800000 ![] bcast_S_S800000 (constantI Cert.KernelIdeal.S_ 32 50000#32)))
              (fun i => shapeCast Cert.KernelIdeal.S800000 (extractStridedSlice Cert.KernelIdeal.S1x800000 ![0, 0] ei slices_S2x800000_S1x800000_0_0) shapeCasts_S1x800000_S800000 i)))))
      (broadcastInDim Cert.KernelIdeal.S50000x128 ![0, 1] bcast_S50000x1_S50000x128_0_1
        (maximumf (F := Ideal) (φ := .f32)
          (Host.scatterAdd (F := Ideal) (φ := .f32) Cert.KernelIdeal.scatter_S50000x1_S800000x1_S800000x1_1_0_0_1
            (broadcastInDim Cert.KernelIdeal.S50000x1 ![] bcast_S_S50000x1 (constant (F := Ideal) Cert.KernelIdeal.S_ .f32 0x00000000#32))
            (broadcastInDim Cert.KernelIdeal.S800000x1 ![0] bcast_S800000_S800000x1_0
              (fun i => shapeCast Cert.KernelIdeal.S800000 (extractStridedSlice Cert.KernelIdeal.S1x800000 ![1, 0] ei slices_S2x800000_S1x800000_1_0) shapeCasts_S1x800000_S800000 i))
            (broadcastInDim Cert.KernelIdeal.S800000x1 ![] bcast_S_S800000x1 (constant (F := Ideal) Cert.KernelIdeal.S_ .f32 0x3F800000#32)))
          (broadcastInDim Cert.KernelIdeal.S50000x1 ![] bcast_S_S50000x1 (constant (F := Ideal) Cert.KernelIdeal.S_ .f32 0x3F800000#32))))
    = agg ei X := rfl

end K

section R
open Cert.ReferenceIdeal.Facts₀
theorem aggR_eq [Cert.ReferenceIdeal.Facts₀] (ei : Cert.ReferenceIdeal.S2x800000.Idx → BitVec 32) (X : Cert.ReferenceIdeal.S50000x128.Idx → EReal) :
    Host.divf (F := Ideal) (φ := .f32)
      (Host.scatterAdd (F := Ideal) (φ := .f32) Cert.ReferenceIdeal.scatter_S50000x128_S800000x1_S800000x128_1_0_0_1
        (broadcastInDim Cert.ReferenceIdeal.S50000x128 ![] bcast_S_S50000x128 (constant (F := Ideal) Cert.ReferenceIdeal.S_ .f32 0x00000000#32))
        (broadcastInDim Cert.ReferenceIdeal.S800000x1 ![0] bcast_S800000_S800000x1_0
          (fun i => shapeCast Cert.ReferenceIdeal.S800000 (extractStridedSlice Cert.ReferenceIdeal.S1x800000 ![1, 0] ei slices_S2x800000_S1x800000_1_0) shapeCasts_S1x800000_S800000 i))
        (Host.gather Cert.ReferenceIdeal.gather_S50000x128_S800000x1_S800000x128_1_0_n_n_0_1_1128 X
          (broadcastInDim Cert.ReferenceIdeal.S800000x1 ![0] bcast_S800000_S800000x1_0
            (select
              (cmpi .slt
                (fun i => shapeCast Cert.ReferenceIdeal.S800000 (extractStridedSlice Cert.ReferenceIdeal.S1x800000 ![0, 0] ei slices_S2x800000_S1x800000_0_0) shapeCasts_S1x800000_S800000 i)
                (broadcastInDim Cert.ReferenceIdeal.S800000 ![] bcast_S_S800000 (constantI Cert.ReferenceIdeal.S_ 32 0#32)))
              (addi
                (fun i => shapeCast Cert.ReferenceIdeal.S800000 (extractStridedSlice Cert.ReferenceIdeal.S1x800000 ![0, 0] ei slices_S2x800000_S1x800000_0_0) shapeCasts_S1x800000_S800000 i)
                (broadcastInDim Cert.ReferenceIdeal.S800000 ![] bcast_S_S800000 (constantI Cert.ReferenceIdeal.S_ 32 50000#32)))
              (fun i => shapeCast Cert.ReferenceIdeal.S800000 (extractStridedSlice Cert.ReferenceIdeal.S1x800000 ![0, 0] ei slices_S2x800000_S1x800000_0_0) shapeCasts_S1x800000_S800000 i)))))
      (broadcastInDim Cert.ReferenceIdeal.S50000x128 ![0, 1] bcast_S50000x1_S50000x128_0_1
        (maximumf (F := Ideal) (φ := .f32)
          (Host.scatterAdd (F := Ideal) (φ := .f32) Cert.ReferenceIdeal.scatter_S50000x1_S800000x1_S800000x1_1_0_0_1
            (broadcastInDim Cert.ReferenceIdeal.S50000x1 ![] bcast_S_S50000x1 (constant (F := Ideal) Cert.ReferenceIdeal.S_ .f32 0x00000000#32))
            (broadcastInDim Cert.ReferenceIdeal.S800000x1 ![0] bcast_S800000_S800000x1_0
              (fun i => shapeCast Cert.ReferenceIdeal.S800000 (extractStridedSlice Cert.ReferenceIdeal.S1x800000 ![1, 0] ei slices_S2x800000_S1x800000_1_0) shapeCasts_S1x800000_S800000 i))
            (broadcastInDim Cert.ReferenceIdeal.S800000x1 ![] bcast_S_S800000x1 (constant (F := Ideal) Cert.ReferenceIdeal.S_ .f32 0x3F800000#32)))
          (broadcastInDim Cert.ReferenceIdeal.S50000x1 ![] bcast_S_S50000x1 (constant (F := Ideal) Cert.ReferenceIdeal.S_ .f32 0x3F800000#32))))
    = agg ei X := rfl

end R

end Cert.Gnn

end
-- ==== Proof.KStretchA.lean ====
/-
  The stretches of host operations before each round's first region, read as values: the edge list's two index rows,
  the neighbourhood average of the round's input, the two weight matrices transposed and the bias as a row.
-/
import proofs.«147097_j73383811219611_1_alg».proof.Proof.KStretch
import proofs.«147097_j73383811219611_1_alg».proof.Proof.Agg
import proofs.«147097_j73383811219611_1_alg».proof.Proof.AggProg

noncomputable section

namespace Cert.KernelIdeal.KStretch

open Idealize.ShloMosaic Idealize.ShloMosaic.TcCoe Idealize.SL.Sem Idealize.ShloMosaic.ValueIdx
open Cert.KernelIdeal Cert.KernelIdeal.Gen Cert.Gnn

variable (W : Valuation τ sig (Elt Ideal))

/-! ## Stretch 0 -/

/-- The source-index row of the edge list. -/
theorem s0_src :
    wd (S := S800000) (StableHlo.after (hostOps0 (F := Ideal)) W (Proc.devRef .tc main_v1))
      = Cert.Gnn.edgeSrc0 (wd (S := S2x800000) (W (Proc.devRef .tc main_arg1))) := by
  unfold wd
  after_results
  rfl

/-- The target-index row of the edge list. -/
theorem s0_dst :
    wd (S := S800000) (StableHlo.after (hostOps0 (F := Ideal)) W (Proc.devRef .tc main_v3))
      = Cert.Gnn.edgeDst (wd (S := S2x800000) (W (Proc.devRef .tc main_arg1))) := by
  unfold wd
  after_results
  rfl

/-- The neighbourhood average of the network's input. -/
theorem s0_agg :
    fl (S := S50000x128) (StableHlo.after (hostOps0 (F := Ideal)) W (Proc.devRef .tc main_v21))
      = Cert.Gnn.agg (wd (S := S2x800000) (W (Proc.devRef .tc main_arg1))) (fl (S := S50000x128) (W (Proc.devRef .tc main_arg0))) := by
  unfold fl wd
  after_results_simp
  rfl

/-- Round 1's first weight matrix, transposed: entry `(k, j)` is the matrix at `(j, k)`. -/
theorem s0_wl (k j : Fin 128) :
    fl (S := S128x128) (StableHlo.after (hostOps0 (F := Ideal)) W (Proc.devRef .tc main_v22)) (ix2 k j)
      = fl (S := S128x128) (W (Proc.devRef .tc main_arg2)) (ix2 j k) := by
  unfold fl
  after_results
  exact transpose_ix2_apply _ _ k j

/-- Round 1's second weight matrix, transposed: entry `(k, j)` is the matrix at `(j, k)`. -/
theorem s0_wr (k j : Fin 128) :
    fl (S := S128x128) (StableHlo.after (hostOps0 (F := Ideal)) W (Proc.devRef .tc main_v23)) (ix2 k j)
      = fl (S := S128x128) (W (Proc.devRef .tc main_arg4)) (ix2 j k) := by
  unfold fl
  after_results
  exact transpose_ix2_apply _ _ k j

/-- Round 1's bias as a row. -/
theorem s0_bl (j : Fin 128) :
    fl (S := S1x128) (StableHlo.after (hostOps0 (F := Ideal)) W (Proc.devRef .tc main_v24)) (ix2 0 j)
      = fl (S := S128) (W (Proc.devRef .tc main_arg3)) (ix1 j) := by
  unfold fl
  after_results
  exact shapeCast_a_1a_apply _ _ 0 j

/-! ## Stretch 2 -/

/-- The neighbourhood average of the round's input, from the edge list's two index rows as stretch 0 left them. -/
theorem s2_agg (ei : S2x800000.Idx → BitVec 32)
    (h1 : wd (S := S800000) (W (Proc.devRef .tc main_v1)) = Cert.Gnn.edgeSrc0 ei)
    (h3 : wd (S := S800000) (W (Proc.devRef .tc main_v3)) = Cert.Gnn.edgeDst ei) :
    fl (S := S50000x128) (StableHlo.after (hostOps2 (F := Ideal)) W (Proc.devRef .tc main_v52))
      = Cert.Gnn.agg ei (fl (S := S50000x128) (W (Proc.devRef .tc main_v34))) := by
  unfold wd at h1 h3
  unfold fl
  after_results_simp
  rw [h1, h3]
  rfl

/-- Round 2's first weight matrix, transposed: entry `(k, j)` is the matrix at `(j, k)`. -/
theorem s2_wl (k j : Fin 128) :
    fl (S := S128x128) (StableHlo.after (hostOps2 (F := Ideal)) W (Proc.devRef .tc main_v53)) (ix2 k j)
      = fl (S := S128x128) (W (Proc.devRef .tc main_arg7)) (ix2 j k) := by
  unfold fl
  after_results
  exact transpose_ix2_apply _ _ k j

/-- Round 2's second weight matrix, transposed: entry `(k, j)` is the matrix at `(j, k)`. -/
theorem s2_wr (k j : Fin 128) :
    fl (S := S128x128) (StableHlo.after (hostOps2 (F := Ideal)) W (Proc.devRef .tc main_v54)) (ix2 k j)
      = fl (S := S128x128) (W (Proc.devRef .tc main_arg9)) (ix2 j k) := by
  unfold fl
  after_results
  exact transpose_ix2_apply _ _ k j

/-- Round 2's bias as a row. -/
theorem s2_bl (j : Fin 128) :
    fl (S := S1x128) (StableHlo.after (hostOps2 (F := Ideal)) W (Proc.devRef .tc main_v55)) (ix2 0 j)
      = fl (S := S128) (W (Proc.devRef .tc main_arg8)) (ix1 j) := by
  unfold fl
  after_results
  exact shapeCast_a_1a_apply _ _ 0 j

/-! ## Stretch 4 -/

/-- The neighbourhood average of the round's input, from the edge list's two index rows as stretch 0 left them. -/
theorem s4_agg (ei : S2x800000.Idx → BitVec 32)
    (h1 : wd (S := S800000) (W (Proc.devRef .tc main_v1)) = Cert.Gnn.edgeSrc0 ei)
    (h3 : wd (S := S800000) (W (Proc.devRef .tc main_v3)) = Cert.Gnn.edgeDst ei) :
    fl (S := S50000x128) (StableHlo.after (hostOps4 (F := Ideal)) W (Proc.devRef .tc main_v83))
      = Cert.Gnn.agg ei (fl (S := S50000x128) (W (Proc.devRef .tc main_v65))) := by
  unfold wd at h1 h3
  unfold fl
  after_results_simp
  rw [h1, h3]
  rfl

/-- Round 3's first weight matrix, transposed: entry `(k, j)` is the matrix at `(j, k)`. -/
theorem s4_wl (k j : Fin 128) :
    fl (S := S128x128) (StableHlo.after (hostOps4 (F := Ideal)) W (Proc.devRef .tc main_v84)) (ix2 k j)
      = fl (S := S128x128) (W (Proc.devRef .tc main_arg12)) (ix2 j k) := by
  unfold fl
  after_results
  exact transpose_ix2_apply _ _ k j

/-- Round 3's second weight matrix, transposed: entry `(k, j)` is the matrix at `(j, k)`. -/
theorem s4_wr (k j : Fin 128) :
    fl (S := S128x128) (StableHlo.after (hostOps4 (F := Ideal)) W (Proc.devRef .tc main_v85)) (ix2 k j)
      = fl (S := S128x128) (W (Proc.devRef .tc main_arg14)) (ix2 j k) := by
  unfold fl
  after_results
  exact transpose_ix2_apply _ _ k j

/-- Round 3's bias as a row. -/
theorem s4_bl (j : Fin 128) :
    fl (S := S1x128) (StableHlo.after (hostOps4 (F := Ideal)) W (Proc.devRef .tc main_v86)) (ix2 0 j)
      = fl (S := S128) (W (Proc.devRef .tc main_arg13)) (ix1 j) := by
  unfold fl
  after_results
  exact shapeCast_a_1a_apply _ _ 0 j

end Cert.KernelIdeal.KStretch

end
-- ==== Proof.KStretchB.lean ====
/-
  The last stretch of host operations read as values: the three column blocks of the last weight matrix, each
  transposed, and the last bias as a row.
-/
import proofs.«147097_j73383811219611_1_alg».proof.Proof.KStretch

noncomputable section

namespace Cert.KernelIdeal.KStretch

open Idealize.ShloMosaic Idealize.ShloMosaic.TcCoe Idealize.SL.Sem Idealize.ShloMosaic.ValueIdx
open Cert.KernelIdeal Cert.KernelIdeal.Gen Cert.Gnn

variable (W : Valuation τ sig (Elt Ideal))

/-! ## Stretch 6 -/

/-- Block 0 of the last weight matrix, transposed: entry `(k, j)` is the matrix at `(j, 0 + k)`. -/
theorem s6_w1 (k j : Fin 128) :
    fl (S := S128x128) (StableHlo.after (hostOps6 (F := Ideal)) W (Proc.devRef .tc main_v98)) (ix2 k j)
      = fl (S := S128x384) (W (Proc.devRef .tc main_arg17)) (ix2 j (Cert.Gnn.col3 0 k)) := by
  unfold fl
  after_results
  refine (transpose_ix2_apply _ _ k j).trans ?_
  exact slice2_axis1_apply 0 _ _ j k (Cert.Gnn.col3 0 k) (by simp [Cert.Gnn.col3] <;> omega)

/-- Block 1 of the last weight matrix, transposed: entry `(k, j)` is the matrix at `(j, 128 + k)`. -/
theorem s6_w2 (k j : Fin 128) :
    fl (S := S128x128) (StableHlo.after (hostOps6 (F := Ideal)) W (Proc.devRef .tc main_v100)) (ix2 k j)
      = fl (S := S128x384) (W (Proc.devRef .tc main_arg17)) (ix2 j (Cert.Gnn.col3 1 k)) := by
  unfold fl
  after_results
  refine (transpose_ix2_apply _ _ k j).trans ?_
  exact slice2_axis1_apply 128 _ _ j k (Cert.Gnn.col3 1 k) (by simp [Cert.Gnn.col3] <;> omega)

/-- Block 2 of the last weight matrix, transposed: entry `(k, j)` is the matrix at `(j, 256 + k)`. -/
theorem s6_w3 (k j : Fin 128) :
    fl (S := S128x128) (StableHlo.after (hostOps6 (F := Ideal)) W (Proc.devRef .tc main_v102)) (ix2 k j)
      = fl (S := S128x384) (W (Proc.devRef .tc main_arg17)) (ix2 j (Cert.Gnn.col3 2 k)) := by
  unfold fl
  after_results
  refine (transpose_ix2_apply _ _ k j).trans ?_
  exact slice2_axis1_apply 256 _ _ j k (Cert.Gnn.col3 2 k) (by simp [Cert.Gnn.col3] <;> omega)

/-- The last bias as a row. -/
theorem s6_b (j : Fin 128) :
    fl (S := S1x128) (StableHlo.after (hostOps6 (F := Ideal)) W (Proc.devRef .tc main_v103)) (ix2 0 j)
      = fl (S := S128) (W (Proc.devRef .tc main_arg18)) (ix1 j) := by
  unfold fl
  after_results
  exact shapeCast_a_1a_apply _ _ 0 j

end Cert.KernelIdeal.KStretch

end
-- ==== Proof.AlgebraFinal.lean ====
/-
  The last linear map: one sum over 384 channels is the three sums over 128 channels added left to right.
  The extended reals are a commutative additive monoid, so nothing here needs the data to be finite.
-/
import proofs.«147097_j73383811219611_1_alg».proof.Proof.Spec

noncomputable section

namespace Cert.Gnn

open Idealize.ShloMosaic Idealize.ShloMosaic.ValueIdx

/-- A sum over `384 = 128 + 128 + 128` indices, cut into its three blocks. -/
theorem sum_384 {M : Type} [AddCommMonoid M] (f : Fin 384 → M) :
    ∑ k : Fin 384, f k
      = (∑ k : Fin 128, f (col3 0 k) + ∑ k : Fin 128, f (col3 1 k)) + ∑ k : Fin 128, f (col3 2 k) := by
  have e0 : ∀ k : Fin 128, (Fin.castAdd 128 (Fin.castAdd 128 k) : Fin (128 + 128 + 128)) = col3 0 k := fun k =>
    Fin.ext (by simp [col3])
  have e1 : ∀ k : Fin 128, (Fin.castAdd 128 (Fin.natAdd 128 k) : Fin (128 + 128 + 128)) = col3 1 k := fun k =>
    Fin.ext (by simp [col3] <;> omega)
  have e2 : ∀ k : Fin 128, (Fin.natAdd (128 + 128) k : Fin (128 + 128 + 128)) = col3 2 k := fun k =>
    Fin.ext (by simp [col3] <;> omega)
  have h := Fin.sum_univ_add (a := 128 + 128) (b := 128) f
  have h' := Fin.sum_univ_add (a := 128) (b := 128) (fun i : Fin (128 + 128) => f (Fin.castAdd 128 i))
  simp only [e0, e1] at h'
  simp only [e2] at h
  exact h.trans (congrArg (· + ∑ k : Fin 128, f (col3 2 k)) h')

/-- Block 0 of the side-by-side table is the first round's result. -/
theorem cat3_0 (X1 X2 X3 : SN.Idx → EReal) (r : Fin 50000) (k : Fin 128) :
    cat3 X1 X2 X3 r (col3 0 k) = X1 (ix2 r k) := by
  have h : (col3 0 k).val < 128 := by simp [col3]
  rw [cat3, dif_pos h]
  congr 2
  exact Fin.ext (by simp [col3])

/-- Block 1 of the side-by-side table is the second round's result. -/
theorem cat3_1 (X1 X2 X3 : SN.Idx → EReal) (r : Fin 50000) (k : Fin 128) :
    cat3 X1 X2 X3 r (col3 1 k) = X2 (ix2 r k) := by
  have h1 : ¬ (col3 1 k).val < 128 := by simp [col3]
  have h2 : (col3 1 k).val < 256 := by simp [col3]; omega
  rw [cat3, dif_neg h1, dif_pos h2]
  congr 2
  exact Fin.ext (by simp [col3])

/-- Block 2 of the side-by-side table is the third round's result. -/
theorem cat3_2 (X1 X2 X3 : SN.Idx → EReal) (r : Fin 50000) (k : Fin 128) :
    cat3 X1 X2 X3 r (col3 2 k) = X3 (ix2 r k) := by
  have h1 : ¬ (col3 2 k).val < 128 := by simp [col3]; omega
  have h2 : ¬ (col3 2 k).val < 256 := by simp [col3]
  rw [cat3, dif_neg h1, dif_neg h2]
  congr 2
  exact Fin.ext (by simp [col3])

/-- The single-product spelling at node `a`, channel `b`. -/
theorem finR_apply (X1 X2 X3 : SN.Idx → EReal) (Wlin : SL.Idx → EReal) (blin : SV.Idx → EReal) (a : Fin 50000) (b : Fin 128) :
    finR X1 X2 X3 Wlin blin (ix2 a b)
      = max ((∑ k : Fin 384, cat3 X1 X2 X3 a k * Wlin (ix2 b k)) + blin (ix1 b)) cZ := rfl

/-- The three-products spelling at node `a`, channel `b`. -/
theorem finK_apply (X1 X2 X3 : SN.Idx → EReal) (Wlin : SL.Idx → EReal) (blin : SV.Idx → EReal) (a : Fin 50000) (b : Fin 128) :
    finK X1 X2 X3 Wlin blin (ix2 a b)
      = max (((∑ k : Fin 128, X1 (ix2 a k) * Wlin (ix2 b (col3 0 k)) + ∑ k : Fin 128, X2 (ix2 a k) * Wlin (ix2 b (col3 1 k)))
          + ∑ k : Fin 128, X3 (ix2 a k) * Wlin (ix2 b (col3 2 k))) + blin (ix1 b)) cZ := rfl

/-- The last layer: the single 384-wide product is the three 128-wide products added left to right. -/
theorem finR_eq_finK (X1 X2 X3 : SN.Idx → EReal) (Wlin : SL.Idx → EReal) (blin : SV.Idx → EReal) :
    finR X1 X2 X3 Wlin blin = finK X1 X2 X3 Wlin blin := by
  funext i
  obtain ⟨a, b, rfl⟩ : ∃ (a : Fin 50000) (b : Fin 128), i = ix2 a b := ⟨i 0, i 1, eq_ix2 i⟩
  rw [finR_apply, finK_apply, sum_384 (fun k => cat3 X1 X2 X3 a k * Wlin (ix2 b k))]
  simp only [cat3_0, cat3_1, cat3_2]

end Cert.Gnn

end
-- ==== Proof.KBridge.lean ====
/-
  The array-shaped pieces (weights transposed, per-channel vectors as one-row tables) are the pieces of the
  specification, re-spelled: the same sums over the same terms.  Nothing here needs the data to be finite.
-/
import proofs.«147097_j73383811219611_1_alg».proof.Proof.Spec
import proofs.«147097_j73383811219611_1_alg».proof.Proof.KSpec
import proofs.«147097_j73383811219611_1_alg».proof.Proof.AlgebraFinal

noncomputable section

namespace Cert.Gnn

open Idealize.ShloMosaic Idealize.ShloMosaic.ValueIdx

/-- The pre-normalisation table with transposed weights and a bias row is `actK`, entry by entry. -/
theorem yArr_eq (A X : SN.Idx → EReal) (Wl Wr : SW.Idx → EReal) (bl : SV.Idx → EReal) (WlT WrT : SW.Idx → EReal)
    (blR : SR.Idx → EReal) (hWl : ∀ k j : Fin 128, WlT (ix2 k j) = Wl (ix2 j k))
    (hWr : ∀ k j : Fin 128, WrT (ix2 k j) = Wr (ix2 j k)) (hbl : ∀ j : Fin 128, blR (ix2 0 j) = bl (ix1 j))
    (r : Fin 50000) (j : Fin 128) : yArr A X WlT blR WrT (ix2 r j) = actK A X Wl Wr bl r j := by
  show max ((∑ k : Fin 128, A (ix2 r k) * WlT (ix2 k j) + ∑ k : Fin 128, X (ix2 r k) * WrT (ix2 k j)) + blR (ix2 0 j)) cZ = _
  simp only [actK, hWl, hWr, hbl]

/-- Normalisation with the mean and variance held in rows, computed from the rows of column sums and column sums of
    squares, is `bn` with `mean` and `varK`. -/
theorem bnArr_eq (Yarr : SN.Idx → EReal) (Y : Fin 50000 → Fin 128 → EReal) (hY : ∀ r j, Yarr (ix2 r j) = Y r j)
    (mu var gR bR : SR.Idx → EReal) (g b : SV.Idx → EReal)
    (hg : ∀ j : Fin 128, gR (ix2 0 j) = g (ix1 j)) (hb : ∀ j : Fin 128, bR (ix2 0 j) = b (ix1 j))
    (hmu : ∀ i, mu i = Ideal.div (sArr Yarr i) cN)
    (hvar : ∀ i, var i = Ideal.div (ssArr Yarr i) cN - mu i * mu i) :
    bnArr Yarr mu var gR bR = tab (bn Y (mean Y) (varK Y) g b) := by
  have hs : ∀ j : Fin 128, sArr Yarr (ix2 0 j) = colSum Y j := fun j => by
    show ∑ r : Fin 50000, Yarr (ix2 r j) = ∑ r : Fin 50000, Y r j
    simp only [hY]
  have hss : ∀ j : Fin 128, ssArr Yarr (ix2 0 j) = colSum (fun r j => Y r j * Y r j) j := fun j => by
    show ∑ r : Fin 50000, Yarr (ix2 r j) * Yarr (ix2 r j) = ∑ r : Fin 50000, Y r j * Y r j
    simp only [hY]
  have hm : ∀ j : Fin 128, mu (ix2 0 j) = mean Y j := fun j => by rw [hmu, hs]; rfl
  have hv : ∀ j : Fin 128, var (ix2 0 j) = varK Y j := fun j => by rw [hvar, hss, hm]; rfl
  funext i
  obtain ⟨r, j, rfl⟩ : ∃ (r : Fin 50000) (j : Fin 128), i = ix2 r j := ⟨i 0, i 1, eq_ix2 i⟩
  show gR (ix2 0 j) * (Yarr (ix2 r j) - mu (ix2 0 j)) * Ideal.rsqrt (var (ix2 0 j) + cEps) + bR (ix2 0 j)
    = g (ix1 j) * (Y r j - mean Y j) * Ideal.rsqrt (varK Y j + cEps) + b (ix1 j)
  rw [hg, hY, hm, hv, hb]

/-- One round in array form is one round of the specification (sums-of-squares spelling). -/
theorem layer_bridge (agg : (SN.Idx → EReal) → SN.Idx → EReal) (X : SN.Idx → EReal) (Wl : SW.Idx → EReal)
    (bl : SV.Idx → EReal) (Wr : SW.Idx → EReal) (g b : SV.Idx → EReal)
    (A : SN.Idx → EReal) (hA : A = agg X) (WlT WrT : SW.Idx → EReal)
    (hWl : ∀ k j : Fin 128, WlT (ix2 k j) = Wl (ix2 j k)) (hWr : ∀ k j : Fin 128, WrT (ix2 k j) = Wr (ix2 j k))
    (blR gR bR : SR.Idx → EReal) (hbl : ∀ j : Fin 128, blR (ix2 0 j) = bl (ix1 j))
    (hg : ∀ j : Fin 128, gR (ix2 0 j) = g (ix1 j)) (hb : ∀ j : Fin 128, bR (ix2 0 j) = b (ix1 j))
    (mu var : SR.Idx → EReal) (hmu : ∀ i, mu i = Ideal.div (sArr (yArr A X WlT blR WrT) i) cN)
    (hvar : ∀ i, var i = Ideal.div (ssArr (yArr A X WlT blR WrT) i) cN - mu i * mu i) :
    bnArr (yArr A X WlT blR WrT) mu var gR bR = layerK agg X Wl bl Wr g b := by
  subst hA
  unfold layerK
  exact bnArr_eq _ _ (yArr_eq (agg X) X Wl Wr bl WlT WrT blR hWl hWr hbl) mu var gR bR g b hg hb hmu hvar

/-- The last linear map in array form (three transposed blocks, a bias row) is `finK`. -/
theorem fin_bridge (X1 X2 X3 : SN.Idx → EReal) (Wlin : SL.Idx → EReal) (blin : SV.Idx → EReal)
    (W1 W2 W3 : SW.Idx → EReal) (bR : SR.Idx → EReal)
    (hW1 : ∀ k j : Fin 128, W1 (ix2 k j) = Wlin (ix2 j (col3 0 k)))
    (hW2 : ∀ k j : Fin 128, W2 (ix2 k j) = Wlin (ix2 j (col3 1 k)))
    (hW3 : ∀ k j : Fin 128, W3 (ix2 k j) = Wlin (ix2 j (col3 2 k)))
    (hb : ∀ j : Fin 128, bR (ix2 0 j) = blin (ix1 j)) : finArr X1 X2 X3 W1 W2 W3 bR = finK X1 X2 X3 Wlin blin := by
  funext i
  obtain ⟨a, c, rfl⟩ : ∃ (a : Fin 50000) (c : Fin 128), i = ix2 a c := ⟨i 0, i 1, eq_ix2 i⟩
  rw [finK_apply]
  show max (((∑ k : Fin 128, X1 (ix2 a k) * W1 (ix2 k c) + ∑ k : Fin 128, X2 (ix2 a k) * W2 (ix2 k c))
      + ∑ k : Fin 128, X3 (ix2 a k) * W3 (ix2 k c)) + bR (ix2 0 c)) cZ = _
  simp only [hW1, hW2, hW3, hb]

end Cert.Gnn

end
-- ==== Proof.KChainL1.lean ====
/-
  The whole run of the kernel as values: the contents of each round's result buffer at the boundary after the round's
  second region, and of the network's result buffer at the last boundary, as the specification's terms of the launch
  memory.  Every step is one of: a boundary's definition, a region's value, a stretch of host operations read as
  values, or a buffer carried unchanged across segments.
-/
import proofs.«147097_j73383811219611_1_alg».proof.Proof.Gen.KernelIdeal.Frame
import proofs.«147097_j73383811219611_1_alg».proof.Proof.KCarry
import proofs.«147097_j73383811219611_1_alg».proof.Proof.KReg0
import proofs.«147097_j73383811219611_1_alg».proof.Proof.KReg1
import proofs.«147097_j73383811219611_1_alg».proof.Proof.KStretch
import proofs.«147097_j73383811219611_1_alg».proof.Proof.KStretchA
import proofs.«147097_j73383811219611_1_alg».proof.Proof.KStretchB
import proofs.«147097_j73383811219611_1_alg».proof.Proof.KBridge

set_option maxRecDepth 16384

noncomputable section

namespace Cert.KernelIdeal.KChain

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.KCarry Cert.KernelIdeal.KStretch Cert.Gnn

/-- One round from its boundary facts: the neighbourhood average, the transposed weights and the bias row at the first
    region's entry, that region's three results, the mean and variance rows and the scale and shift rows at the second
    region's entry, and the second region's result. -/
theorem layer_of (aggf : (SN.Idx → EReal) → SN.Idx → EReal) (X : SN.Idx → EReal) (Wl : SW.Idx → EReal) (bl : SV.Idx → EReal)
    (Wr : SW.Idx → EReal) (g b : SV.Idx → EReal)
    (A Xa : SN.Idx → EReal) (WlT WrT : SW.Idx → EReal) (blR : SR.Idx → EReal)
    (Y : SN.Idx → EReal) (S1 S2 mu var gR bR : SR.Idx → EReal) (out : SN.Idx → EReal)
    (hA : A = aggf X) (hXa : Xa = X)
    (hWl : ∀ k j : Fin 128, WlT (ix2 k j) = Wl (ix2 j k)) (hWr : ∀ k j : Fin 128, WrT (ix2 k j) = Wr (ix2 j k))
    (hbl : ∀ j : Fin 128, blR (ix2 0 j) = bl (ix1 j))
    (hY : Y = yArr A Xa WlT blR WrT) (hS1 : S1 = sArr (yArr A Xa WlT blR WrT)) (hS2 : S2 = ssArr (yArr A Xa WlT blR WrT))
    (hmu : ∀ i, mu i = Ideal.div (S1 i) cN) (hvar : ∀ i, var i = Ideal.div (S2 i) cN - mu i * mu i)
    (hg : ∀ j : Fin 128, gR (ix2 0 j) = g (ix1 j)) (hb : ∀ j : Fin 128, bR (ix2 0 j) = b (ix1 j))
    (hout : out = bnArr Y mu var gR bR) : out = layerK aggf X Wl bl Wr g b := by
  subst hXa hY hS1 hS2 hout
  exact layer_bridge aggf Xa Wl bl Wr g b A hA WlT WrT hWl hWr blR gR bR hbl hg hb mu var hmu hvar

/-- The last linear map from its boundary facts: the three rounds' results as the last region reads them, the three
    transposed column blocks of the last weight matrix, the last bias row, and the region's result. -/
theorem fin_of (X1 X2 X3 : SN.Idx → EReal) (Wlin : SL.Idx → EReal) (blin : SV.Idx → EReal)
    (X1a X2a X3a : SN.Idx → EReal) (W1 W2 W3 : SW.Idx → EReal) (bR : SR.Idx → EReal) (out : SN.Idx → EReal)
    (h1 : X1a = X1) (h2 : X2a = X2) (h3 : X3a = X3)
    (hW1 : ∀ k j : Fin 128, W1 (ix2 k j) = Wlin (ix2 j (col3 0 k))) (hW2 : ∀ k j : Fin 128, W2 (ix2 k j) = Wlin (ix2 j (col3 1 k)))
    (hW3 : ∀ k j : Fin 128, W3 (ix2 k j) = Wlin (ix2 j (col3 2 k))) (hb : ∀ j : Fin 128, bR (ix2 0 j) = blin (ix1 j))
    (hout : out = finArr X1a X2a X3a W1 W2 W3 bR) : out = finK X1 X2 X3 Wlin blin := by
  subst h1 h2 h3 hout
  exact fin_bridge X1a X2a X3a Wlin blin W1 W2 W3 bR hW1 hW2 hW3 hb

variable (m : (ℓ : Loc nD τ sig) → Buf (Elt Ideal) ℓ) (ρ : Dev nD → PrngReg)

/-- Round 1: the buffer the second region writes holds the specification's first round of the launch memory. -/
theorem layer1 (c : Dev nD) :
    fl (S := S50000x128) (W4 m ρ c (Proc.devRef .tc main_v34))
      = layerK (agg (m ((c : Thread nD τ).loc main_arg1))) (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) :=
  layer_of (agg (m ((c : Thread nD τ).loc main_arg1))) (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
    (fl (S := S50000x128) (W1 m ρ c (Proc.devRef .tc main_v21))) (fl (S := S50000x128) (W1 m ρ c (Proc.devRef .tc main_arg0)))
    (fl (S := S128x128) (W1 m ρ c (Proc.devRef .tc main_v22))) (fl (S := S128x128) (W1 m ρ c (Proc.devRef .tc main_v23))) (fl (S := S1x128) (W1 m ρ c (Proc.devRef .tc main_v24)))
    (fl (S := S50000x128) (W3 m ρ c (Proc.devRef .tc main_v25_0))) (fl (S := S1x128) (W2 m ρ c (Proc.devRef .tc main_v25_1))) (fl (S := S1x128) (W2 m ρ c (Proc.devRef .tc main_v25_2)))
    (fl (S := S1x128) (W3 m ρ c (Proc.devRef .tc main_v27))) (fl (S := S1x128) (W3 m ρ c (Proc.devRef .tc main_v31))) (fl (S := S1x128) (W3 m ρ c (Proc.devRef .tc main_v32))) (fl (S := S1x128) (W3 m ρ c (Proc.devRef .tc main_v33)))
    (fl (S := S50000x128) (W4 m ρ c (Proc.devRef .tc main_v34)))
    (s0_agg (W0 m ρ c)) (c_main_arg0_0_1 m ρ c)
    (s0_wl (W0 m ρ c)) (s0_wr (W0 m ρ c)) (s0_bl (W0 m ρ c))
    ((c_main_v25_0_2_3 m ρ c).trans ((W2_arr m ρ c 5).trans (KReg0.y_val (V1 m ρ) c)))
    ((W2_arr m ρ c 6).trans (KReg0.s_val (V1 m ρ) c))
    ((W2_arr m ρ c 7).trans (KReg0.ss_val (V1 m ρ) c))
    (s1_mu (W2 m ρ c)) (s1_var (W2 m ρ c))
    (fun j => (s1_g (W2 m ρ c) j).trans (congrArg (fun f : S128.Idx → EReal => f (ix1 j)) (c_main_arg5_0_2 m ρ c)))
    (fun j => (s1_b (W2 m ρ c) j).trans (congrArg (fun f : S128.Idx → EReal => f (ix1 j)) (c_main_arg6_0_2 m ρ c)))
    ((W4_arr m ρ c 5).trans (KReg1.out_val (V3 m ρ) c))

end Cert.KernelIdeal.KChain

end
-- ==== Proof.KReg2.lean ====
import proofs.«147097_j73383811219611_1_alg».proof.Proof.Gen.KernelIdeal.Frame
import proofs.«147097_j73383811219611_1_alg».proof.Proof.KRegLib
import Idealize.ShloMosaic.Lib.Pipeline.Value
import Idealize.ShloMosaic.Lib.Tactic

set_option pp.maxSteps 5000
set_option pp.deepTerms false

noncomputable section

namespace Cert.KernelIdeal.KReg2

open Idealize.ShloMosaic Idealize.ShloMosaic.TcCoe Idealize.SL.Sem Idealize.ShloMosaic.ValueIdx
open Idealize.ShloMosaic.Pipeline (Dat)
open Cert.KernelIdeal Cert.KernelIdeal.Gen Cert.Gnn

variable {F : FTy → Type} [FloatOps F]

theorem hz : (![0, 0] : Fin 2 → Nat) = fun _ => 0 := funext fun a => by fin_cases a <;> rfl

/-! ## What each control case leaves in the three output blocks, as the payloads of the blocks read -/

theorem out_A_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_5 c i a1 h1 a2 h2 a3 h3 a4 h4 a5 h5 a6 h6 a7 h7 a8 h8 hc x0 x1 x2 x3 x4 = k2_pay4 x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_6 c i a1 h1 a2 h2 a3 h3 a4 h4 a5 h5 a6 h6 a7 h7 a8 h8 hc x0 x1 x2 x3 x4 = k2_pay5 x0 x1 x2 x4 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_7 c i a1 h1 a2 h2 a3 h3 a4 h4 a5 h5 a6 h6 a7 h7 a8 h8 hc x0 x1 x2 x3 x4 = k2_pay1 (k2_pay4 x0 x1 x2 x4 x3) (k2_pay3 (F := F)) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_5 c i a1 h1 a2 h2 a3 h3 a4 h4 a5 h5 a6 h6 a7 h7 a8 h8 hc x0 x1 x2 x3 x4 xo6 xo7 = k2_pay4 x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_6 c i a1 h1 a2 h2 a3 h3 a4 h4 a5 h5 a6 h6 a7 h7 a8 h8 hc x0 x1 x2 x3 x4 xo6 xo7 = k2_pay5 x0 x1 x2 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out2_B_7 c i a1 h1 a2 h2 a3 h3 a4 h4 a5 h5 a6 h6 a7 h7 a8 h8 hc x0 x1 x2 x3 x4 xo6 xo7 = k2_pay1 (k2_pay4 x0 x1 x2 x4 x3) xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

section Vals
variable (V : (c : Dev nD) → (b : Ref sig .tc) → Buf (Elt Ideal) ((c : Thread nD τ).loc b))

/-- The printed index maps, decided over the ten points: the two row-blocked inputs and the row-blocked output sit at block
    row `t`; the weights, the bias row and the two running rows sit at block 0 throughout. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## The input blocks read where the arrays hold them -/

theorem blk0_apply (c : Dev nD) (t : Fin cfg2.N) (r : Fin 5000) (k : Fin 128) (h : 5000 * t.val + r.val < 50000) :
    (iblk2 V c 0 t : Vec Ideal S5000x128 .f32) (ix2 r k)
      = (V c (Pipeline.arrRef spec2 0) : S50000x128.Idx → EReal) (ix2 ⟨5000 * t.val + r.val, h⟩ k) := by
  unfold iblk2
  rw [View.read_apply]
  show V c (Pipeline.arrRef spec2 0) (((cfg2.win 0).blk t).view.emb (ix2 r k)) = _
  refine congrArg (V c (Pipeline.arrRef spec2 0)) ?_
  obtain ⟨e00, e01, e10, e11, -⟩ := idx_facts t
  funext a
  apply Fin.ext
  match a with
  | ⟨0, _⟩ => show win2_0.index t (0 : Fin 2) * 5000 + 1 * r.val = 5000 * t.val + r.val; omega
  | ⟨1, _⟩ => show win2_0.index t (1 : Fin 2) * 128 + 1 * k.val = k.val; omega

theorem blk1_apply (c : Dev nD) (t : Fin cfg2.N) (r : Fin 5000) (k : Fin 128) (h : 5000 * t.val + r.val < 50000) :
    (iblk2 V c 1 t : Vec Ideal S5000x128 .f32) (ix2 r k)
      = (V c (Pipeline.arrRef spec2 1) : S50000x128.Idx → EReal) (ix2 ⟨5000 * t.val + r.val, h⟩ k) := by
  unfold iblk2
  rw [View.read_apply]
  show V c (Pipeline.arrRef spec2 1) (((cfg2.win 1).blk t).view.emb (ix2 r k)) = _
  refine congrArg (V c (Pipeline.arrRef spec2 1)) ?_
  obtain ⟨-, -, e10, e11, -⟩ := idx_facts t
  funext a
  apply Fin.ext
  match a with
  | ⟨0, _⟩ => show win2_1.index t (0 : Fin 2) * 5000 + 1 * r.val = 5000 * t.val + r.val; omega
  | ⟨1, _⟩ => show win2_1.index t (1 : Fin 2) * 128 + 1 * k.val = k.val; omega

theorem blk2_apply (c : Dev nD) (t : Fin cfg2.N) (a : Fin 128) (b : Fin 128) :
    (iblk2 V c 2 t : Vec Ideal S128x128 .f32) (ix2 a b) = (V c (Pipeline.arrRef spec2 2) : S128x128.Idx → EReal) (ix2 a b) := by
  unfold iblk2
  rw [View.read_apply]
  show V c (Pipeline.arrRef spec2 2) (((cfg2.win 2).blk t).view.emb (ix2 a b)) = _
  refine congrArg (V c (Pipeline.arrRef spec2 2)) ?_
  obtain ⟨-, -, -, -, e20, e21, e30, e31, e40, e41, -⟩ := idx_facts t
  funext ax
  apply Fin.ext
  match ax with
  | ⟨0, _⟩ => show win2_2.index t (0 : Fin 2) * 128 + 1 * a.val = a.val; omega
  | ⟨1, _⟩ => show win2_2.index t (1 : Fin 2) * 128 + 1 * b.val = b.val; omega

theorem blk3_apply (c : Dev nD) (t : Fin cfg2.N) (a : Fin 1) (b : Fin 128) :
    (iblk2 V c 3 t : Vec Ideal S1x128 .f32) (ix2 a b) = (V c (Pipeline.arrRef spec2 3) : S1x128.Idx → EReal) (ix2 a b) := by
  unfold iblk2
  rw [View.read_apply]
  show V c (Pipeline.arrRef spec2 3) (((cfg2.win 3).blk t).view.emb (ix2 a b)) = _
  refine congrArg (V c (Pipeline.arrRef spec2 3)) ?_
  obtain ⟨-, -, -, -, e20, e21, e30, e31, e40, e41, -⟩ := idx_facts t
  funext ax
  apply Fin.ext
  match ax with
  | ⟨0, _⟩ => show win2_3.index t (0 : Fin 2) * 1 + 1 * a.val = a.val; omega
  | ⟨1, _⟩ => show win2_3.index t (1 : Fin 2) * 128 + 1 * b.val = b.val; omega

theorem blk4_apply (c : Dev nD) (t : Fin cfg2.N) (a : Fin 128) (b : Fin 128) :
    (iblk2 V c 4 t : Vec Ideal S128x128 .f32) (ix2 a b) = (V c (Pipeline.arrRef spec2 4) : S128x128.Idx → EReal) (ix2 a b) := by
  unfold iblk2
  rw [View.read_apply]
  show V c (Pipeline.arrRef spec2 4) (((cfg2.win 4).blk t).view.emb (ix2 a b)) = _
  refine congrArg (V c (Pipeline.arrRef spec2 4)) ?_
  obtain ⟨-, -, -, -, e20, e21, e30, e31, e40, e41, -⟩ := idx_facts t
  funext ax
  apply Fin.ext
  match ax with
  | ⟨0, _⟩ => show win2_4.index t (0 : Fin 2) * 128 + 1 * a.val = a.val; omega
  | ⟨1, _⟩ => show win2_4.index t (1 : Fin 2) * 128 + 1 * b.val = b.val; omega

/-- the whole table of `y` the region computes -/
abbrev Yc (c : Dev nD) : SN.Idx → EReal :=
  yArr (V c (Pipeline.arrRef spec2 0)) (V c (Pipeline.arrRef spec2 1)) (V c (Pipeline.arrRef spec2 2)) (V c (Pipeline.arrRef spec2 3)) (V c (Pipeline.arrRef spec2 4))

/-- Point `t`'s block of `y` is rows `5000 t …` of the table. -/
theorem yblk_apply (c : Dev nD) (t : Fin cfg2.N) (r : Fin 5000) (j : Fin 128) (h : 5000 * t.val + r.val < 50000) :
    k2_pay4 (F := Ideal) (iblk2 V c 0 t) (iblk2 V c 1 t) (iblk2 V c 2 t) (iblk2 V c 4 t) (iblk2 V c 3 t) (ix2 r j) = Yc V c (ix2 ⟨5000 * t.val + r.val, h⟩ j) := by
  refine (KRegLib.pay4_2_apply (iblk2 V c 0 t) (iblk2 V c 1 t) (iblk2 V c 2 t) (iblk2 V c 4 t) (iblk2 V c 3 t) r j).trans ?_
  refine congrArg₂ max (congrArg₂ (· + ·) (congrArg₂ (· + ·) ?_ ?_) ?_) rfl
  · exact Finset.sum_congr rfl fun k _ => congrArg₂ (· * ·) (blk0_apply V c t r k h) (blk2_apply V c t k j)
  · exact Finset.sum_congr rfl fun k _ => congrArg₂ (· * ·) (blk1_apply V c t r k h) (blk4_apply V c t k j)
  · exact blk3_apply V c t 0 j

/-! ## The running contents of the three output blocks, by induction on the point -/

theorem outs_eq (c : Dev nD) : ∀ (n : ℕ) (h : n < cfg2.N),
    (outsAt2 V c n h).1 = k2_pay4 (F := Ideal) (iblk2 V c 0 ⟨n, h⟩) (iblk2 V c 1 ⟨n, h⟩) (iblk2 V c 2 ⟨n, h⟩) (iblk2 V c 4 ⟨n, h⟩) (iblk2 V c 3 ⟨n, h⟩)
    ∧ (∀ (u : Fin 1) (j : Fin 128), (outsAt2 V c n h).2.1 (ix2 u j)
        = ∑ i ∈ Finset.range (5000 * (n + 1)), KRegLib.ext (fun i => Yc V c (ix2 i j)) i)
    ∧ (∀ (u : Fin 1) (j : Fin 128), (outsAt2 V c n h).2.2 (ix2 u j)
        = ∑ i ∈ Finset.range (5000 * (n + 1)), KRegLib.ext (fun i => Yc V c (ix2 i j) * Yc V c (ix2 i j)) i)
  | 0, h => by
    have hN : cfg2.N = 10 := N_2
    let t : Fin cfg2.N := ⟨0, h⟩
    have hlt : ∀ r : Fin 5000, 5000 * t.val + r.val < 50000 := fun r => by have := r.isLt; show 5000 * 0 + r.val < 50000; omega
    rw [outsAt2_A V c t rfl]
    dsimp only
    refine ⟨out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr rfl) (iblk2 V c 0 t) (iblk2 V c 1 t) (iblk2 V c 2 t) (iblk2 V c 3 t) (iblk2 V c 4 t), fun u j => ?_, fun u j => ?_⟩
    · rw [out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr rfl) (iblk2 V c 0 t) (iblk2 V c 1 t) (iblk2 V c 2 t) (iblk2 V c 3 t) (iblk2 V c 4 t)]
      refine (KRegLib.pay5_2_apply (iblk2 V c 0 t) (iblk2 V c 1 t) (iblk2 V c 2 t) (iblk2 V c 4 t) (iblk2 V c 3 t) _ u j).trans ?_
      rw [KRegLib.pay2_2_apply]
      exact KRegLib.ext_base _ _ fun r => (yblk_apply V c t r j (hlt r)).trans (KRegLib.ext_of_lt (fun i => Yc V c (ix2 i j)) _ (hlt r)).symm
    · rw [out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr rfl) (iblk2 V c 0 t) (iblk2 V c 1 t) (iblk2 V c 2 t) (iblk2 V c 3 t) (iblk2 V c 4 t)]
      refine (KRegLib.pay1_2_apply _ _ u j).trans ?_
      rw [KRegLib.pay3_2_apply]
      exact KRegLib.ext_base _ _ fun r => (congrArg₂ (· * ·) (yblk_apply V c t r j (hlt r)) (yblk_apply V c t r j (hlt r))).trans (KRegLib.ext_of_lt (fun i => Yc V c (ix2 i j) * Yc V c (ix2 i j)) _ (hlt r)).symm
  | n + 1, h => by
    have hN : cfg2.N = 10 := N_2
    let t : Fin cfg2.N := ⟨n + 1, h⟩
    have hB : ¬t.val % 10 = 0 := by show ¬(n + 1) % 10 = 0; omega
    have hlt : ∀ r : Fin 5000, 5000 * t.val + r.val < 50000 := fun r => by have := r.isLt; show 5000 * (n + 1) + r.val < 50000; omega
    obtain ⟨-, ih6, ih7⟩ := outs_eq c n (by omega)
    rw [outsAt2_B V c t hB]
    dsimp only
    refine ⟨out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hh => hB ((hcond2_0 t).mp hh)) (iblk2 V c 0 t) (iblk2 V c 1 t) (iblk2 V c 2 t) (iblk2 V c 3 t) (iblk2 V c 4 t) _ _, fun u j => ?_, fun u j => ?_⟩
    · rw [out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hh => hB ((hcond2_0 t).mp hh)) (iblk2 V c 0 t) (iblk2 V c 1 t) (iblk2 V c 2 t) (iblk2 V c 3 t) (iblk2 V c 4 t) _ _]
      refine (KRegLib.pay5_2_apply (iblk2 V c 0 t) (iblk2 V c 1 t) (iblk2 V c 2 t) (iblk2 V c 4 t) (iblk2 V c 3 t) _ u j).trans ?_
      refine (congrArg₂ (· + ·) (ih6 u j) rfl).trans ?_
      exact KRegLib.ext_step _ (n + 1) _ fun r => (yblk_apply V c t r j (hlt r)).trans (KRegLib.ext_of_lt (fun i => Yc V c (ix2 i j)) _ (hlt r)).symm
    · rw [out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hh => hB ((hcond2_0 t).mp hh)) (iblk2 V c 0 t) (iblk2 V c 1 t) (iblk2 V c 2 t) (iblk2 V c 3 t) (iblk2 V c 4 t) _ _]
      refine (KRegLib.pay1_2_apply _ _ u j).trans ?_
      refine (congrArg₂ (· + ·) (ih7 u j) rfl).trans ?_
      exact KRegLib.ext_step _ (n + 1) _ fun r => (congrArg₂ (· * ·) (yblk_apply V c t r j (hlt r)) (yblk_apply V c t r j (hlt r))).trans (KRegLib.ext_of_lt (fun i => Yc V c (ix2 i j) * Yc V c (ix2 i j)) _ (hlt r)).symm

end Vals

section Final
variable (V : (c : Dev nD) → (b : Ref sig .tc) → Buf (Elt Ideal) ((c : Thread nD τ).loc b))

/-! ## From the blocks to the arrays -/

/-- What point `t` writes back of `y` is block `t` of the table. -/
theorem flushed5_eq (c : Dev nD) (t : Fin cfg2.N) :
    (dat2 V c).flushed 5 t = ((cfg2.win 5).blk t).view.read (Elt Ideal) (Yc V c) := by
  show (cfg2.win 5).cut (grid2.coords t) ((dat2 V c).after 5 t) = _
  rw [after2_5, (outs_eq V c t.val t.isLt).1]
  refine funext fun (y : S5000x128.Idx) => ?_
  obtain ⟨r, j, rfl⟩ : ∃ (r : Fin 5000) (j : Fin 128), y = ix2 r j := ⟨y 0, y 1, eq_ix2 y⟩
  have hN : cfg2.N = 10 := N_2
  have hlt : 5000 * t.val + r.val < 50000 := by have := t.isLt; have := r.isLt; omega
  refine (yblk_apply V c t r j hlt).trans ?_
  rw [View.read_apply]
  show Yc V c _ = Yc V c (((cfg2.win 5).blk t).view.emb (ix2 r j))
  refine congrArg (Yc V c) ?_
  obtain ⟨-, -, -, -, -, -, -, -, -, -, e50, e51, -⟩ := idx_facts t
  funext a
  apply Fin.ext
  match a with
  | ⟨0, _⟩ => show 5000 * t.val + r.val = win2_5.index t (0 : Fin 2) * 5000 + 1 * r.val; omega
  | ⟨1, _⟩ => show j.val = win2_5.index t (1 : Fin 2) * 128 + 1 * j.val; omega

/-- An index of the table is in point `t`'s block iff each coordinate is in the block's range. -/
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56_0).slice (win2_5.rect t)).set ↔ _
  rw [View.set_slice_whole, Rect.mem_set_unit]
  exact Iff.rfl

/-- THE TABLE `y`: the ten row blocks tile it. -/
theorem y_val (c : Dev nD) : (dat2 (F := Ideal) V c).arrAt 5 cfg2.N = yArr (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (Yc V c) (fun t _ => flushed5_eq V c t) fun i => by
    have hN : cfg2.N = 10 := N_2
    have hi0 : (i 0).val < 50000 := (i 0).isLt
    have hi1 : (i 1).val < 128 := (i 1).isLt
    let t : Fin cfg2.N := ⟨(i 0).val / 5000, by rw [hN]; omega⟩
    obtain ⟨-, -, -, -, -, -, -, -, -, -, e50, e51, -⟩ := idx_facts t
    have ht : t.val = (i 0).val / 5000 := rfl
    refine ⟨t, flush2_5 t, ?_⟩
    rw [mem_blk5]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 128 ≤ (i 1).val ∧ (i 1).val < win2_5.index t (1 : Fin 2) * 128 + 128; omega

/-- The one write-back of running row 6 (after the last point) writes the whole column sums. -/
theorem flushed6_eq (c : Dev nD) (t : Fin cfg2.N) (hf : (cfg2.win 6).flush t = true) :
    (dat2 V c).flushed 6 t = ((cfg2.win 6).blk t).view.read (Elt Ideal) (sArr (Yc V c)) := by
  have hN : cfg2.N = 10 := N_2
  have h9 : t.val = 9 := by have := (flush2_6 t).mp hf; have := t.isLt; omega
  show (cfg2.win 6).cut (grid2.coords t) ((dat2 V c).after 6 t) = _
  rw [after2_6]
  refine funext fun (y : S1x128.Idx) => ?_
  obtain ⟨u, j, rfl⟩ : ∃ (u : Fin 1) (j : Fin 128), y = ix2 u j := ⟨y 0, y 1, eq_ix2 y⟩
  refine ((outs_eq V c t.val t.isLt).2.1 u j).trans ?_
  rw [View.read_apply]
  obtain ⟨-, -, -, -, -, -, -, -, -, -, -, -, e60, e61, e70, e71⟩ := idx_facts t
  have he : (((cfg2.win 6).blk t).view.emb (ix2 u j)) (1 : Fin 2) = j := by
    apply Fin.ext
    show win2_6.index t (1 : Fin 2) * 128 + 1 * j.val = j.val
    omega
  refine Eq.trans ?_ (cast_eq _ _).symm
  unfold sArr
  dsimp only
  rw [he, h9]
  exact KRegLib.ext_total _

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v56_1).slice (win2_6.rect t)).set ↔ _
  rw [View.set_slice_whole, Rect.mem_set_unit]
  exact Iff.rfl

/-- THE COLUMN SUMS of `y` over all rows. -/
theorem s_val (c : Dev nD) : (dat2 (F := Ideal) V c).arrAt 6 cfg2.N = sArr (yArr (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 6 (sArr (Yc V c)) (flushed6_eq V c) fun i => by
    have hN : cfg2.N = 10 := N_2
    have hi0 : (i 0).val < 1 := (i 0).isLt
    have hi1 : (i 1).val < 128 := (i 1).isLt
    let t : Fin cfg2.N := ⟨9, by rw [hN]; omega⟩
    obtain ⟨-, -, -, -, -, -, -, -, -, -, -, -, e60, e61, e70, e71⟩ := idx_facts t
    refine ⟨t, (flush2_6 t).mpr rfl, ?_⟩
    rw [mem_blk6]
    intro a
    match a with
    | ⟨0, _⟩ => show win2_6.index t (0 : Fin 2) * 1 ≤ (i 0).val ∧ (i 0).val < win2_6.index t (0 : Fin 2) * 1 + 1; omega
    | ⟨1, _⟩ => show win2_6.index t (1 : Fin 2) * 128 ≤ (i 1).val ∧ (i 1).val < win2_6.index t (1 : Fin 2) * 128 + 128; omega

/-- The one write-back of running row 7 (after the last point) writes the whole column sums of squares. -/
theorem flushed7_eq (c : Dev nD) (t : Fin cfg2.N) (hf : (cfg2.win 7).flush t = true) :
    (dat2 V c).flushed 7 t = ((cfg2.win 7).blk t).view.read (Elt Ideal) (ssArr (Yc V c)) := by
  have hN : cfg2.N = 10 := N_2
  have h9 : t.val = 9 := by have := (flush2_7 t).mp hf; have := t.isLt; omega
  show (cfg2.win 7).cut (grid2.coords t) ((dat2 V c).after 7 t) = _
  rw [after2_7]
  refine funext fun (y : S1x128.Idx) => ?_
  obtain ⟨u, j, rfl⟩ : ∃ (u : Fin 1) (j : Fin 128), y = ix2 u j := ⟨y 0, y 1, eq_ix2 y⟩
  refine ((outs_eq V c t.val t.isLt).2.2 u j).trans ?_
  rw [View.read_apply]
  obtain ⟨-, -, -, -, -, -, -, -, -, -, -, -, e60, e61, e70, e71⟩ := idx_facts t
  have he : (((cfg2.win 7).blk t).view.emb (ix2 u j)) (1 : Fin 2) = j := by
    apply Fin.ext
    show win2_7.index t (1 : Fin 2) * 128 + 1 * j.val = j.val
    omega
  refine Eq.trans ?_ (cast_eq _ _).symm
  unfold ssArr
  dsimp only
  rw [he, h9]
  exact KRegLib.ext_total _

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v56_2).slice (win2_7.rect t)).set ↔ _
  rw [View.set_slice_whole, Rect.mem_set_unit]
  exact Iff.rfl

/-- THE COLUMN SUMS OF SQUARES of `y` over all rows. -/
theorem ss_val (c : Dev nD) : (dat2 (F := Ideal) V c).arrAt 7 cfg2.N = ssArr (yArr (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 7 (ssArr (Yc V c)) (flushed7_eq V c) fun i => by
    have hN : cfg2.N = 10 := N_2
    have hi0 : (i 0).val < 1 := (i 0).isLt
    have hi1 : (i 1).val < 128 := (i 1).isLt
    let t : Fin cfg2.N := ⟨9, by rw [hN]; omega⟩
    obtain ⟨-, -, -, -, -, -, -, -, -, -, -, -, e60, e61, e70, e71⟩ := idx_facts t
    refine ⟨t, (flush2_7 t).mpr rfl, ?_⟩
    rw [mem_blk7]
    intro a
    match a with
    | ⟨0, _⟩ => show win2_7.index t (0 : Fin 2) * 1 ≤ (i 0).val ∧ (i 0).val < win2_7.index t (0 : Fin 2) * 1 + 1; omega
    | ⟨1, _⟩ => show win2_7.index t (1 : Fin 2) * 128 ≤ (i 1).val ∧ (i 1).val < win2_7.index t (1 : Fin 2) * 128 + 128; omega

end Final

end Cert.KernelIdeal.KReg2
end
-- ==== Proof.KReg3.lean ====
/-
  Region 3 of the idealized kernel (normalise, scale and shift, one 5000-row block per grid point) read as a
  value: after the region its output array is `(g · (y − μ)) · (σ² + ε)^(-1/2) + b` of the arrays the region finds,
  index by index — every point writes back exactly its block of that function, and the ten blocks cover the array.
-/
import proofs.«147097_j73383811219611_1_alg».proof.Proof.Gen.KernelIdeal.Frame
import proofs.«147097_j73383811219611_1_alg».proof.Proof.KSpec
import Idealize.ShloMosaic.Lib.Pipeline.Value
import Idealize.ShloMosaic.Lib.ValueLayout

set_option maxRecDepth 16384

noncomputable section

namespace Cert.KernelIdeal.KReg3

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Gnn

theorem hz : (![0, 0] : Fin 2 → Nat) = fun _ => 0 := funext fun a => by fin_cases a <;> rfl

/-- The body's arithmetic at row `p`, channel `q` of its block: the rows μ, σ², g, b are read at channel `q`. -/
theorem pay_apply (v0 v5 : Vec Ideal S1x128 .f32) (v7 : Vec Ideal S5000x128 .f32) (v9 v17 : Vec Ideal S1x128 .f32)
    (p : Fin 5000) (q : Fin 128) :
    k3_pay1 (F := Ideal) v0 v5 v7 v9 v17 (ix2 p q)
      = v5 (ix2 0 q) * (v7 (ix2 p q) - v9 (ix2 0 q)) * Ideal.rsqrt (v0 (ix2 0 q) + cEps) + v17 (ix2 0 q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The index maps over the grid: point `t` takes row block `t` of the data and of the output, the one block of each row table. -/
theorem idx_facts : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val :=
  (by decide +kernel : ∀ t : Fin grid3.N, _)

/-- the arrays the region finds: the data, then the rows μ, σ², g, b -/
abbrev arrY (V : (c : Dev nD) → (b : Ref sig .tc) → Buf (Elt Ideal) ((c : Thread nD τ).loc b)) (c : Dev nD) : S50000x128.Idx → EReal := V c (Pipeline.arrRef spec3 0)
abbrev arrR (V : (c : Dev nD) → (b : Ref sig .tc) → Buf (Elt Ideal) ((c : Thread nD τ).loc b)) (c : Dev nD) (w : Fin 4) : S1x128.Idx → EReal :=
  match w with
  | 0 => V c (Pipeline.arrRef spec3 1)
  | 1 => V c (Pipeline.arrRef spec3 2)
  | 2 => V c (Pipeline.arrRef spec3 3)
  | 3 => V c (Pipeline.arrRef spec3 4)

/-- What point `t` writes back is block `t` of the normalised array. -/
theorem flushed_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal)
      (bnArr (arrY V c) (arrR V c 0) (arrR V c 1) (arrR V c 2) (arrR V c 3)) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext (j : S5000x128.Idx)
  obtain ⟨p, q, rfl⟩ : ∃ (p : Fin 5000) (q : Fin 128), j = ix2 p q := ⟨j 0, j 1, eq_ix2 j⟩
  refine (pay_apply _ _ _ _ _ p q).trans ?_
  have hp : p.val < 5000 := p.isLt
  have hq : q.val < 128 := q.isLt
  have h0 : ((cfg3.win 0).blk t).view.emb (ix2 p q) = ((cfg3.win 5).blk t).view.emb (ix2 p q) := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * q.val = win3_5.index t (1 : Fin 2) * 128 + 1 * q.val; omega
  have h1 : ((cfg3.win 1).blk t).view.emb (ix2 (0 : Fin 1) q) = ix2 (0 : Fin 1) ((((cfg3.win 5).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  have h2 : ((cfg3.win 2).blk t).view.emb (ix2 (0 : Fin 1) q) = ix2 (0 : Fin 1) ((((cfg3.win 5).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  have h3 : ((cfg3.win 3).blk t).view.emb (ix2 (0 : Fin 1) q) = ix2 (0 : Fin 1) ((((cfg3.win 5).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  have h4 : ((cfg3.win 4).blk t).view.emb (ix2 (0 : Fin 1) q) = ix2 (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  show arrR V c 2 (((cfg3.win 3).blk t).view.emb (ix2 (0 : Fin 1) q))
      * (arrY V c (((cfg3.win 0).blk t).view.emb (ix2 p q)) - arrR V c 0 (((cfg3.win 1).blk t).view.emb (ix2 (0 : Fin 1) q)))
      * Ideal.rsqrt (arrR V c 1 (((cfg3.win 2).blk t).view.emb (ix2 (0 : Fin 1) q)) + cEps)
      + arrR V c 3 (((cfg3.win 4).blk t).view.emb (ix2 (0 : Fin 1) q))
    = bnArr (arrY V c) (arrR V c 0) (arrR V c 1) (arrR V c 2) (arrR V c 3) (((cfg3.win 5).blk t).view.emb (ix2 p q))
  rw [h0, h1, h2, h3, h4]
  rfl

/-- An index of the output array is in point `t`'s block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v65).slice (win3_5.rect t)).set ↔ _
  rw [View.set_slice_whole, Rect.mem_set_unit]
  exact Iff.rfl

theorem idx_onto : ∀ q0 : Fin 10, ∃ t : Fin cfg3.N, win3_5.index t = ![q0.val, 0] :=
  (by decide +kernel : ∀ q0 : Fin 10, ∃ t : Fin grid3.N, win3_5.index t = ![q0.val, 0])

/-- Every index of the output array is in the block of the point that takes its row's block. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE OUTPUT ARRAY after the region: the normalised, scaled and shifted array of what the region finds. -/
theorem out_val (V : (c : Dev nD) → (b : Ref sig .tc) → Buf (Elt Ideal) ((c : Thread nD τ).loc b)) (c : Dev nD) :
    (dat3 (F := Ideal) V c).arrAt 5 cfg3.N
      = bnArr (arrY V c) (arrR V c 0) (arrR V c 1) (arrR V c 2) (arrR V c 3) :=
  (dat3 (F := Ideal) V c).arrAt_eq_of_cover 5 _ (fun t _ => flushed_eq V c t) cover

end Cert.KernelIdeal.KReg3

end
-- ==== Proof.KChainL2.lean ====
/-
  The second round of the kernel's run as values.
-/
import proofs.«147097_j73383811219611_1_alg».proof.Proof.KChainL1
import proofs.«147097_j73383811219611_1_alg».proof.Proof.KReg2
import proofs.«147097_j73383811219611_1_alg».proof.Proof.KReg3

set_option maxRecDepth 16384

noncomputable section

namespace Cert.KernelIdeal.KChain

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.KCarry Cert.KernelIdeal.KStretch Cert.Gnn

variable (m : (ℓ : Loc nD τ sig) → Buf (Elt Ideal) ℓ) (ρ : Dev nD → PrngReg)

/-- The source-index row of the edge list, still in place at round 2's first stretch. -/
theorem src_2 (c : Dev nD) : wd (S := S800000) (W4 m ρ c (Proc.devRef .tc main_v1)) = edgeSrc0 (m ((c : Thread nD τ).loc main_arg1)) :=
  (c_main_v1_1_4 m ρ c).trans (s0_src (W0 m ρ c))

/-- The target-index row of the edge list, still in place at round 2's first stretch. -/
theorem dst_2 (c : Dev nD) : wd (S := S800000) (W4 m ρ c (Proc.devRef .tc main_v3)) = edgeDst (m ((c : Thread nD τ).loc main_arg1)) :=
  (c_main_v3_1_4 m ρ c).trans (s0_dst (W0 m ρ c))

/-- Round 2: the buffer its second region writes holds the specification's round of the previous round's result. -/
theorem layer2 (c : Dev nD) :
    fl (S := S50000x128) (W8 m ρ c (Proc.devRef .tc main_v65))
      = layerK (agg (m ((c : Thread nD τ).loc main_arg1))) (fl (S := S50000x128) (W4 m ρ c (Proc.devRef .tc main_v34))) (m ((c : Thread nD τ).loc main_arg7)) (m ((c : Thread nD τ).loc main_arg8))
          (m ((c : Thread nD τ).loc main_arg9)) (m ((c : Thread nD τ).loc main_arg10)) (m ((c : Thread nD τ).loc main_arg11)) :=
  layer_of (agg (m ((c : Thread nD τ).loc main_arg1))) (fl (S := S50000x128) (W4 m ρ c (Proc.devRef .tc main_v34))) (m ((c : Thread nD τ).loc main_arg7)) (m ((c : Thread nD τ).loc main_arg8))
      (m ((c : Thread nD τ).loc main_arg9)) (m ((c : Thread nD τ).loc main_arg10)) (m ((c : Thread nD τ).loc main_arg11))
    (fl (S := S50000x128) (W5 m ρ c (Proc.devRef .tc main_v52))) (fl (S := S50000x128) (W5 m ρ c (Proc.devRef .tc main_v34)))
    (fl (S := S128x128) (W5 m ρ c (Proc.devRef .tc main_v53))) (fl (S := S128x128) (W5 m ρ c (Proc.devRef .tc main_v54))) (fl (S := S1x128) (W5 m ρ c (Proc.devRef .tc main_v55)))
    (fl (S := S50000x128) (W7 m ρ c (Proc.devRef .tc main_v56_0))) (fl (S := S1x128) (W6 m ρ c (Proc.devRef .tc main_v56_1))) (fl (S := S1x128) (W6 m ρ c (Proc.devRef .tc main_v56_2)))
    (fl (S := S1x128) (W7 m ρ c (Proc.devRef .tc main_v58))) (fl (S := S1x128) (W7 m ρ c (Proc.devRef .tc main_v62))) (fl (S := S1x128) (W7 m ρ c (Proc.devRef .tc main_v63))) (fl (S := S1x128) (W7 m ρ c (Proc.devRef .tc main_v64)))
    (fl (S := S50000x128) (W8 m ρ c (Proc.devRef .tc main_v65)))
    (s2_agg (W4 m ρ c) (m ((c : Thread nD τ).loc main_arg1)) (src_2 m ρ c) (dst_2 m ρ c)) (c_main_v34_4_5 m ρ c)
    (fun k j => (s2_wl (W4 m ρ c) k j).trans (congrArg (fun f : S128x128.Idx → EReal => f (ix2 j k)) (c_main_arg7_0_4 m ρ c)))
    (fun k j => (s2_wr (W4 m ρ c) k j).trans (congrArg (fun f : S128x128.Idx → EReal => f (ix2 j k)) (c_main_arg9_0_4 m ρ c)))
    (fun j => (s2_bl (W4 m ρ c) j).trans (congrArg (fun f : S128.Idx → EReal => f (ix1 j)) (c_main_arg8_0_4 m ρ c)))
    ((c_main_v56_0_6_7 m ρ c).trans ((W6_arr m ρ c 5).trans (KReg2.y_val (V5 m ρ) c)))
    ((W6_arr m ρ c 6).trans (KReg2.s_val (V5 m ρ) c))
    ((W6_arr m ρ c 7).trans (KReg2.ss_val (V5 m ρ) c))
    (s3_mu (W6 m ρ c)) (s3_var (W6 m ρ c))
    (fun j => (s3_g (W6 m ρ c) j).trans (congrArg (fun f : S128.Idx → EReal => f (ix1 j)) (c_main_arg10_0_6 m ρ c)))
    (fun j => (s3_b (W6 m ρ c) j).trans (congrArg (fun f : S128.Idx → EReal => f (ix1 j)) (c_main_arg11_0_6 m ρ c)))
    ((W8_arr m ρ c 5).trans (KReg3.out_val (V7 m ρ) c))

end Cert.KernelIdeal.KChain

end
-- ==== Proof.KReg4.lean ====
import proofs.«147097_j73383811219611_1_alg».proof.Proof.Gen.KernelIdeal.Frame
import proofs.«147097_j73383811219611_1_alg».proof.Proof.KRegLib
import Idealize.ShloMosaic.Lib.Pipeline.Value
import Idealize.ShloMosaic.Lib.Tactic

set_option pp.maxSteps 5000
set_option pp.deepTerms false

noncomputable section

namespace Cert.KernelIdeal.KReg4

open Idealize.ShloMosaic Idealize.ShloMosaic.TcCoe Idealize.SL.Sem Idealize.ShloMosaic.ValueIdx
open Idealize.ShloMosaic.Pipeline (Dat)
open Cert.KernelIdeal Cert.KernelIdeal.Gen Cert.Gnn

variable {F : FTy → Type} [FloatOps F]

theorem hz : (![0, 0] : Fin 2 → Nat) = fun _ => 0 := funext fun a => by fin_cases a <;> rfl

/-! ## What each control case leaves in the three output blocks, as the payloads of the blocks read -/

theorem out_A_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S5000x128 .f32) (x2 : Vec F S128x128 .f32) (x3 : Vec F S1x128 .f32) (x4 : Vec F S128x128 .f32) :
    out4_A_5 c i a1 h1 a2 h2 a3 h3 a4 h4 a5 h5 a6 h6 a7 h7 a8 h8 hc x0 x1 x2 x3 x4 = k4_pay4 x0 x1 x2 x4 x3 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S5000x128 .f32) (x2 : Vec F S128x128 .f32) (x3 : Vec F S1x128 .f32) (x4 : Vec F S128x128 .f32) :
    out4_A_6 c i a1 h1 a2 h2 a3 h3 a4 h4 a5 h5 a6 h6 a7 h7 a8 h8 hc x0 x1 x2 x3 x4 = k4_pay5 x0 x1 x2 x4 x3 (k4_pay2 (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_A_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond4_0 i) (x0 : Vec F S5000x128 .f32) (x1 : Vec F S5000x128 .f32) (x2 : Vec F S128x128 .f32) (x3 : Vec F S1x128 .f32) (x4 : Vec F S128x128 .f32) :
    out4_A_7 c i a1 h1 a2 h2 a3 h3 a4 h4 a5 h5 a6 h6 a7 h7 a8 h8 hc x0 x1 x2 x3 x4 = k4_pay1 (k4_pay4 x0 x1 x2 x4 x3) (k4_pay3 (F := F)) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out4_B_5 c i a1 h1 a2 h2 a3 h3 a4 h4 a5 h5 a6 h6 a7 h7 a8 h8 hc x0 x1 x2 x3 x4 xo6 xo7 = k4_pay4 x0 x1 x2 x4 x3 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out4_B_6 c i a1 h1 a2 h2 a3 h3 a4 h4 a5 h5 a6 h6 a7 h7 a8 h8 hc x0 x1 x2 x3 x4 xo6 xo7 = k4_pay5 x0 x1 x2 x4 x3 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

theorem out_B_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out4_B_7 c i a1 h1 a2 h2 a3 h3 a4 h4 a5 h5 a6 h6 a7 h7 a8 h8 hc x0 x1 x2 x3 x4 xo6 xo7 = k4_pay1 (k4_pay4 x0 x1 x2 x4 x3) xo7 := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

section Vals
variable (V : (c : Dev nD) → (b : Ref sig .tc) → Buf (Elt Ideal) ((c : Thread nD τ).loc b))

/-- The printed index maps, decided over the ten points: the two row-blocked inputs and the row-blocked output sit at block
    row `t`; the weights, the bias row and the two running rows sit at block 0 throughout. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-! ## The input blocks read where the arrays hold them -/

theorem blk0_apply (c : Dev nD) (t : Fin cfg4.N) (r : Fin 5000) (k : Fin 128) (h : 5000 * t.val + r.val < 50000) :
    (iblk4 V c 0 t : Vec Ideal S5000x128 .f32) (ix2 r k)
      = (V c (Pipeline.arrRef spec4 0) : S50000x128.Idx → EReal) (ix2 ⟨5000 * t.val + r.val, h⟩ k) := by
  unfold iblk4
  rw [View.read_apply]
  show V c (Pipeline.arrRef spec4 0) (((cfg4.win 0).blk t).view.emb (ix2 r k)) = _
  refine congrArg (V c (Pipeline.arrRef spec4 0)) ?_
  obtain ⟨e00, e01, e10, e11, -⟩ := idx_facts t
  funext a
  apply Fin.ext
  match a with
  | ⟨0, _⟩ => show win4_0.index t (0 : Fin 2) * 5000 + 1 * r.val = 5000 * t.val + r.val; omega
  | ⟨1, _⟩ => show win4_0.index t (1 : Fin 2) * 128 + 1 * k.val = k.val; omega

theorem blk1_apply (c : Dev nD) (t : Fin cfg4.N) (r : Fin 5000) (k : Fin 128) (h : 5000 * t.val + r.val < 50000) :
    (iblk4 V c 1 t : Vec Ideal S5000x128 .f32) (ix2 r k)
      = (V c (Pipeline.arrRef spec4 1) : S50000x128.Idx → EReal) (ix2 ⟨5000 * t.val + r.val, h⟩ k) := by
  unfold iblk4
  rw [View.read_apply]
  show V c (Pipeline.arrRef spec4 1) (((cfg4.win 1).blk t).view.emb (ix2 r k)) = _
  refine congrArg (V c (Pipeline.arrRef spec4 1)) ?_
  obtain ⟨-, -, e10, e11, -⟩ := idx_facts t
  funext a
  apply Fin.ext
  match a with
  | ⟨0, _⟩ => show win4_1.index t (0 : Fin 2) * 5000 + 1 * r.val = 5000 * t.val + r.val; omega
  | ⟨1, _⟩ => show win4_1.index t (1 : Fin 2) * 128 + 1 * k.val = k.val; omega

theorem blk2_apply (c : Dev nD) (t : Fin cfg4.N) (a : Fin 128) (b : Fin 128) :
    (iblk4 V c 2 t : Vec Ideal S128x128 .f32) (ix2 a b) = (V c (Pipeline.arrRef spec4 2) : S128x128.Idx → EReal) (ix2 a b) := by
  unfold iblk4
  rw [View.read_apply]
  show V c (Pipeline.arrRef spec4 2) (((cfg4.win 2).blk t).view.emb (ix2 a b)) = _
  refine congrArg (V c (Pipeline.arrRef spec4 2)) ?_
  obtain ⟨-, -, -, -, e20, e21, e30, e31, e40, e41, -⟩ := idx_facts t
  funext ax
  apply Fin.ext
  match ax with
  | ⟨0, _⟩ => show win4_2.index t (0 : Fin 2) * 128 + 1 * a.val = a.val; omega
  | ⟨1, _⟩ => show win4_2.index t (1 : Fin 2) * 128 + 1 * b.val = b.val; omega

theorem blk3_apply (c : Dev nD) (t : Fin cfg4.N) (a : Fin 1) (b : Fin 128) :
    (iblk4 V c 3 t : Vec Ideal S1x128 .f32) (ix2 a b) = (V c (Pipeline.arrRef spec4 3) : S1x128.Idx → EReal) (ix2 a b) := by
  unfold iblk4
  rw [View.read_apply]
  show V c (Pipeline.arrRef spec4 3) (((cfg4.win 3).blk t).view.emb (ix2 a b)) = _
  refine congrArg (V c (Pipeline.arrRef spec4 3)) ?_
  obtain ⟨-, -, -, -, e20, e21, e30, e31, e40, e41, -⟩ := idx_facts t
  funext ax
  apply Fin.ext
  match ax with
  | ⟨0, _⟩ => show win4_3.index t (0 : Fin 2) * 1 + 1 * a.val = a.val; omega
  | ⟨1, _⟩ => show win4_3.index t (1 : Fin 2) * 128 + 1 * b.val = b.val; omega

theorem blk4_apply (c : Dev nD) (t : Fin cfg4.N) (a : Fin 128) (b : Fin 128) :
    (iblk4 V c 4 t : Vec Ideal S128x128 .f32) (ix2 a b) = (V c (Pipeline.arrRef spec4 4) : S128x128.Idx → EReal) (ix2 a b) := by
  unfold iblk4
  rw [View.read_apply]
  show V c (Pipeline.arrRef spec4 4) (((cfg4.win 4).blk t).view.emb (ix2 a b)) = _
  refine congrArg (V c (Pipeline.arrRef spec4 4)) ?_
  obtain ⟨-, -, -, -, e20, e21, e30, e31, e40, e41, -⟩ := idx_facts t
  funext ax
  apply Fin.ext
  match ax with
  | ⟨0, _⟩ => show win4_4.index t (0 : Fin 2) * 128 + 1 * a.val = a.val; omega
  | ⟨1, _⟩ => show win4_4.index t (1 : Fin 2) * 128 + 1 * b.val = b.val; omega

/-- the whole table of `y` the region computes -/
abbrev Yc (c : Dev nD) : SN.Idx → EReal :=
  yArr (V c (Pipeline.arrRef spec4 0)) (V c (Pipeline.arrRef spec4 1)) (V c (Pipeline.arrRef spec4 2)) (V c (Pipeline.arrRef spec4 3)) (V c (Pipeline.arrRef spec4 4))

/-- Point `t`'s block of `y` is rows `5000 t …` of the table. -/
theorem yblk_apply (c : Dev nD) (t : Fin cfg4.N) (r : Fin 5000) (j : Fin 128) (h : 5000 * t.val + r.val < 50000) :
    k4_pay4 (F := Ideal) (iblk4 V c 0 t) (iblk4 V c 1 t) (iblk4 V c 2 t) (iblk4 V c 4 t) (iblk4 V c 3 t) (ix2 r j) = Yc V c (ix2 ⟨5000 * t.val + r.val, h⟩ j) := by
  refine (KRegLib.pay4_4_apply (iblk4 V c 0 t) (iblk4 V c 1 t) (iblk4 V c 2 t) (iblk4 V c 4 t) (iblk4 V c 3 t) r j).trans ?_
  refine congrArg₂ max (congrArg₂ (· + ·) (congrArg₂ (· + ·) ?_ ?_) ?_) rfl
  · exact Finset.sum_congr rfl fun k _ => congrArg₂ (· * ·) (blk0_apply V c t r k h) (blk2_apply V c t k j)
  · exact Finset.sum_congr rfl fun k _ => congrArg₂ (· * ·) (blk1_apply V c t r k h) (blk4_apply V c t k j)
  · exact blk3_apply V c t 0 j

/-! ## The running contents of the three output blocks, by induction on the point -/

theorem outs_eq (c : Dev nD) : ∀ (n : ℕ) (h : n < cfg4.N),
    (outsAt4 V c n h).1 = k4_pay4 (F := Ideal) (iblk4 V c 0 ⟨n, h⟩) (iblk4 V c 1 ⟨n, h⟩) (iblk4 V c 2 ⟨n, h⟩) (iblk4 V c 4 ⟨n, h⟩) (iblk4 V c 3 ⟨n, h⟩)
    ∧ (∀ (u : Fin 1) (j : Fin 128), (outsAt4 V c n h).2.1 (ix2 u j)
        = ∑ i ∈ Finset.range (5000 * (n + 1)), KRegLib.ext (fun i => Yc V c (ix2 i j)) i)
    ∧ (∀ (u : Fin 1) (j : Fin 128), (outsAt4 V c n h).2.2 (ix2 u j)
        = ∑ i ∈ Finset.range (5000 * (n + 1)), KRegLib.ext (fun i => Yc V c (ix2 i j) * Yc V c (ix2 i j)) i)
  | 0, h => by
    have hN : cfg4.N = 10 := N_4
    let t : Fin cfg4.N := ⟨0, h⟩
    have hlt : ∀ r : Fin 5000, 5000 * t.val + r.val < 50000 := fun r => by have := r.isLt; show 5000 * 0 + r.val < 50000; omega
    rw [outsAt4_A V c t rfl]
    dsimp only
    refine ⟨out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr rfl) (iblk4 V c 0 t) (iblk4 V c 1 t) (iblk4 V c 2 t) (iblk4 V c 3 t) (iblk4 V c 4 t), fun u j => ?_, fun u j => ?_⟩
    · rw [out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr rfl) (iblk4 V c 0 t) (iblk4 V c 1 t) (iblk4 V c 2 t) (iblk4 V c 3 t) (iblk4 V c 4 t)]
      refine (KRegLib.pay5_4_apply (iblk4 V c 0 t) (iblk4 V c 1 t) (iblk4 V c 2 t) (iblk4 V c 4 t) (iblk4 V c 3 t) _ u j).trans ?_
      rw [KRegLib.pay2_4_apply]
      exact KRegLib.ext_base _ _ fun r => (yblk_apply V c t r j (hlt r)).trans (KRegLib.ext_of_lt (fun i => Yc V c (ix2 i j)) _ (hlt r)).symm
    · rw [out_A_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr rfl) (iblk4 V c 0 t) (iblk4 V c 1 t) (iblk4 V c 2 t) (iblk4 V c 3 t) (iblk4 V c 4 t)]
      refine (KRegLib.pay1_4_apply _ _ u j).trans ?_
      rw [KRegLib.pay3_4_apply]
      exact KRegLib.ext_base _ _ fun r => (congrArg₂ (· * ·) (yblk_apply V c t r j (hlt r)) (yblk_apply V c t r j (hlt r))).trans (KRegLib.ext_of_lt (fun i => Yc V c (ix2 i j) * Yc V c (ix2 i j)) _ (hlt r)).symm
  | n + 1, h => by
    have hN : cfg4.N = 10 := N_4
    let t : Fin cfg4.N := ⟨n + 1, h⟩
    have hB : ¬t.val % 10 = 0 := by show ¬(n + 1) % 10 = 0; omega
    have hlt : ∀ r : Fin 5000, 5000 * t.val + r.val < 50000 := fun r => by have := r.isLt; show 5000 * (n + 1) + r.val < 50000; omega
    obtain ⟨-, ih6, ih7⟩ := outs_eq c n (by omega)
    rw [outsAt4_B V c t hB]
    dsimp only
    refine ⟨out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun hh => hB ((hcond4_0 t).mp hh)) (iblk4 V c 0 t) (iblk4 V c 1 t) (iblk4 V c 2 t) (iblk4 V c 3 t) (iblk4 V c 4 t) _ _, fun u j => ?_, fun u j => ?_⟩
    · rw [out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun hh => hB ((hcond4_0 t).mp hh)) (iblk4 V c 0 t) (iblk4 V c 1 t) (iblk4 V c 2 t) (iblk4 V c 3 t) (iblk4 V c 4 t) _ _]
      refine (KRegLib.pay5_4_apply (iblk4 V c 0 t) (iblk4 V c 1 t) (iblk4 V c 2 t) (iblk4 V c 4 t) (iblk4 V c 3 t) _ u j).trans ?_
      refine (congrArg₂ (· + ·) (ih6 u j) rfl).trans ?_
      exact KRegLib.ext_step _ (n + 1) _ fun r => (yblk_apply V c t r j (hlt r)).trans (KRegLib.ext_of_lt (fun i => Yc V c (ix2 i j)) _ (hlt r)).symm
    · rw [out_B_7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun hh => hB ((hcond4_0 t).mp hh)) (iblk4 V c 0 t) (iblk4 V c 1 t) (iblk4 V c 2 t) (iblk4 V c 3 t) (iblk4 V c 4 t) _ _]
      refine (KRegLib.pay1_4_apply _ _ u j).trans ?_
      refine (congrArg₂ (· + ·) (ih7 u j) rfl).trans ?_
      exact KRegLib.ext_step _ (n + 1) _ fun r => (congrArg₂ (· * ·) (yblk_apply V c t r j (hlt r)) (yblk_apply V c t r j (hlt r))).trans (KRegLib.ext_of_lt (fun i => Yc V c (ix2 i j) * Yc V c (ix2 i j)) _ (hlt r)).symm

end Vals

section Final
variable (V : (c : Dev nD) → (b : Ref sig .tc) → Buf (Elt Ideal) ((c : Thread nD τ).loc b))

/-! ## From the blocks to the arrays -/

/-- What point `t` writes back of `y` is block `t` of the table. -/
theorem flushed5_eq (c : Dev nD) (t : Fin cfg4.N) :
    (dat4 V c).flushed 5 t = ((cfg4.win 5).blk t).view.read (Elt Ideal) (Yc V c) := by
  show (cfg4.win 5).cut (grid4.coords t) ((dat4 V c).after 5 t) = _
  rw [after4_5, (outs_eq V c t.val t.isLt).1]
  refine funext fun (y : S5000x128.Idx) => ?_
  obtain ⟨r, j, rfl⟩ : ∃ (r : Fin 5000) (j : Fin 128), y = ix2 r j := ⟨y 0, y 1, eq_ix2 y⟩
  have hN : cfg4.N = 10 := N_4
  have hlt : 5000 * t.val + r.val < 50000 := by have := t.isLt; have := r.isLt; omega
  refine (yblk_apply V c t r j hlt).trans ?_
  rw [View.read_apply]
  show Yc V c _ = Yc V c (((cfg4.win 5).blk t).view.emb (ix2 r j))
  refine congrArg (Yc V c) ?_
  obtain ⟨-, -, -, -, -, -, -, -, -, -, e50, e51, -⟩ := idx_facts t
  funext a
  apply Fin.ext
  match a with
  | ⟨0, _⟩ => show 5000 * t.val + r.val = win4_5.index t (0 : Fin 2) * 5000 + 1 * r.val; omega
  | ⟨1, _⟩ => show j.val = win4_5.index t (1 : Fin 2) * 128 + 1 * j.val; omega

/-- An index of the table is in point `t`'s block iff each coordinate is in the block's range. -/
theorem mem_blk5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v87_0).slice (win4_5.rect t)).set ↔ _
  rw [View.set_slice_whole, Rect.mem_set_unit]
  exact Iff.rfl

/-- THE TABLE `y`: the ten row blocks tile it. -/
theorem y_val (c : Dev nD) : (dat4 (F := Ideal) V c).arrAt 5 cfg4.N = yArr (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 (Yc V c) (fun t _ => flushed5_eq V c t) fun i => by
    have hN : cfg4.N = 10 := N_4
    have hi0 : (i 0).val < 50000 := (i 0).isLt
    have hi1 : (i 1).val < 128 := (i 1).isLt
    let t : Fin cfg4.N := ⟨(i 0).val / 5000, by rw [hN]; omega⟩
    obtain ⟨-, -, -, -, -, -, -, -, -, -, e50, e51, -⟩ := idx_facts t
    have ht : t.val = (i 0).val / 5000 := rfl
    refine ⟨t, flush4_5 t, ?_⟩
    rw [mem_blk5]
    intro a
    match a with
    | ⟨0, _⟩ => show win4_5.index t (0 : Fin 2) * 5000 ≤ (i 0).val ∧ (i 0).val < win4_5.index t (0 : Fin 2) * 5000 + 5000; omega
    | ⟨1, _⟩ => show win4_5.index t (1 : Fin 2) * 128 ≤ (i 1).val ∧ (i 1).val < win4_5.index t (1 : Fin 2) * 128 + 128; omega

/-- The one write-back of running row 6 (after the last point) writes the whole column sums. -/
theorem flushed6_eq (c : Dev nD) (t : Fin cfg4.N) (hf : (cfg4.win 6).flush t = true) :
    (dat4 V c).flushed 6 t = ((cfg4.win 6).blk t).view.read (Elt Ideal) (sArr (Yc V c)) := by
  have hN : cfg4.N = 10 := N_4
  have h9 : t.val = 9 := by have := (flush4_6 t).mp hf; have := t.isLt; omega
  show (cfg4.win 6).cut (grid4.coords t) ((dat4 V c).after 6 t) = _
  rw [after4_6]
  refine funext fun (y : S1x128.Idx) => ?_
  obtain ⟨u, j, rfl⟩ : ∃ (u : Fin 1) (j : Fin 128), y = ix2 u j := ⟨y 0, y 1, eq_ix2 y⟩
  refine ((outs_eq V c t.val t.isLt).2.1 u j).trans ?_
  rw [View.read_apply]
  obtain ⟨-, -, -, -, -, -, -, -, -, -, -, -, e60, e61, e70, e71⟩ := idx_facts t
  have he : (((cfg4.win 6).blk t).view.emb (ix2 u j)) (1 : Fin 2) = j := by
    apply Fin.ext
    show win4_6.index t (1 : Fin 2) * 128 + 1 * j.val = j.val
    omega
  refine Eq.trans ?_ (cast_eq _ _).symm
  unfold sArr
  dsimp only
  rw [he, h9]
  exact KRegLib.ext_total _

theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v87_1).slice (win4_6.rect t)).set ↔ _
  rw [View.set_slice_whole, Rect.mem_set_unit]
  exact Iff.rfl

/-- THE COLUMN SUMS of `y` over all rows. -/
theorem s_val (c : Dev nD) : (dat4 (F := Ideal) V c).arrAt 6 cfg4.N = sArr (yArr (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 6 (sArr (Yc V c)) (flushed6_eq V c) fun i => by
    have hN : cfg4.N = 10 := N_4
    have hi0 : (i 0).val < 1 := (i 0).isLt
    have hi1 : (i 1).val < 128 := (i 1).isLt
    let t : Fin cfg4.N := ⟨9, by rw [hN]; omega⟩
    obtain ⟨-, -, -, -, -, -, -, -, -, -, -, -, e60, e61, e70, e71⟩ := idx_facts t
    refine ⟨t, (flush4_6 t).mpr rfl, ?_⟩
    rw [mem_blk6]
    intro a
    match a with
    | ⟨0, _⟩ => show win4_6.index t (0 : Fin 2) * 1 ≤ (i 0).val ∧ (i 0).val < win4_6.index t (0 : Fin 2) * 1 + 1; omega
    | ⟨1, _⟩ => show win4_6.index t (1 : Fin 2) * 128 ≤ (i 1).val ∧ (i 1).val < win4_6.index t (1 : Fin 2) * 128 + 128; omega

/-- The one write-back of running row 7 (after the last point) writes the whole column sums of squares. -/
theorem flushed7_eq (c : Dev nD) (t : Fin cfg4.N) (hf : (cfg4.win 7).flush t = true) :
    (dat4 V c).flushed 7 t = ((cfg4.win 7).blk t).view.read (Elt Ideal) (ssArr (Yc V c)) := by
  have hN : cfg4.N = 10 := N_4
  have h9 : t.val = 9 := by have := (flush4_7 t).mp hf; have := t.isLt; omega
  show (cfg4.win 7).cut (grid4.coords t) ((dat4 V c).after 7 t) = _
  rw [after4_7]
  refine funext fun (y : S1x128.Idx) => ?_
  obtain ⟨u, j, rfl⟩ : ∃ (u : Fin 1) (j : Fin 128), y = ix2 u j := ⟨y 0, y 1, eq_ix2 y⟩
  refine ((outs_eq V c t.val t.isLt).2.2 u j).trans ?_
  rw [View.read_apply]
  obtain ⟨-, -, -, -, -, -, -, -, -, -, -, -, e60, e61, e70, e71⟩ := idx_facts t
  have he : (((cfg4.win 7).blk t).view.emb (ix2 u j)) (1 : Fin 2) = j := by
    apply Fin.ext
    show win4_7.index t (1 : Fin 2) * 128 + 1 * j.val = j.val
    omega
  refine Eq.trans ?_ (cast_eq _ _).symm
  unfold ssArr
  dsimp only
  rw [he, h9]
  exact KRegLib.ext_total _

theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v87_2).slice (win4_7.rect t)).set ↔ _
  rw [View.set_slice_whole, Rect.mem_set_unit]
  exact Iff.rfl

/-- THE COLUMN SUMS OF SQUARES of `y` over all rows. -/
theorem ss_val (c : Dev nD) : (dat4 (F := Ideal) V c).arrAt 7 cfg4.N = ssArr (yArr (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 7 (ssArr (Yc V c)) (flushed7_eq V c) fun i => by
    have hN : cfg4.N = 10 := N_4
    have hi0 : (i 0).val < 1 := (i 0).isLt
    have hi1 : (i 1).val < 128 := (i 1).isLt
    let t : Fin cfg4.N := ⟨9, by rw [hN]; omega⟩
    obtain ⟨-, -, -, -, -, -, -, -, -, -, -, -, e60, e61, e70, e71⟩ := idx_facts t
    refine ⟨t, (flush4_7 t).mpr rfl, ?_⟩
    rw [mem_blk7]
    intro a
    match a with
    | ⟨0, _⟩ => show win4_7.index t (0 : Fin 2) * 1 ≤ (i 0).val ∧ (i 0).val < win4_7.index t (0 : Fin 2) * 1 + 1; omega
    | ⟨1, _⟩ => show win4_7.index t (1 : Fin 2) * 128 ≤ (i 1).val ∧ (i 1).val < win4_7.index t (1 : Fin 2) * 128 + 128; omega

end Final

end Cert.KernelIdeal.KReg4
end
-- ==== Proof.KReg5.lean ====
/-
  Region 5 of the idealized kernel (normalise, scale and shift, one 5000-row block per grid point) read as a
  value: after the region its output array is `(g · (y − μ)) · (σ² + ε)^(-1/2) + b` of the arrays the region finds,
  index by index — every point writes back exactly its block of that function, and the ten blocks cover the array.
-/
import proofs.«147097_j73383811219611_1_alg».proof.Proof.Gen.KernelIdeal.Frame
import proofs.«147097_j73383811219611_1_alg».proof.Proof.KSpec
import Idealize.ShloMosaic.Lib.Pipeline.Value
import Idealize.ShloMosaic.Lib.ValueLayout

set_option maxRecDepth 16384

noncomputable section

namespace Cert.KernelIdeal.KReg5

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.Gnn

theorem hz : (![0, 0] : Fin 2 → Nat) = fun _ => 0 := funext fun a => by fin_cases a <;> rfl

/-- The body's arithmetic at row `p`, channel `q` of its block: the rows μ, σ², g, b are read at channel `q`. -/
theorem pay_apply (v0 v5 : Vec Ideal S1x128 .f32) (v7 : Vec Ideal S5000x128 .f32) (v9 v17 : Vec Ideal S1x128 .f32)
    (p : Fin 5000) (q : Fin 128) :
    k5_pay1 (F := Ideal) v0 v5 v7 v9 v17 (ix2 p q)
      = v5 (ix2 0 q) * (v7 (ix2 p q) - v9 (ix2 0 q)) * Ideal.rsqrt (v0 (ix2 0 q) + cEps) + v17 (ix2 0 q) := by
  unfold k5_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The index maps over the grid: point `t` takes row block `t` of the data and of the output, the one block of each row table. -/
theorem idx_facts : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val :=
  (by decide +kernel : ∀ t : Fin grid5.N, _)

/-- the arrays the region finds: the data, then the rows μ, σ², g, b -/
abbrev arrY (V : (c : Dev nD) → (b : Ref sig .tc) → Buf (Elt Ideal) ((c : Thread nD τ).loc b)) (c : Dev nD) : S50000x128.Idx → EReal := V c (Pipeline.arrRef spec5 0)
abbrev arrR (V : (c : Dev nD) → (b : Ref sig .tc) → Buf (Elt Ideal) ((c : Thread nD τ).loc b)) (c : Dev nD) (w : Fin 4) : S1x128.Idx → EReal :=
  match w with
  | 0 => V c (Pipeline.arrRef spec5 1)
  | 1 => V c (Pipeline.arrRef spec5 2)
  | 2 => V c (Pipeline.arrRef spec5 3)
  | 3 => V c (Pipeline.arrRef spec5 4)

/-- What point `t` writes back is block `t` of the normalised array. -/
theorem flushed_eq (V : (c : Dev nD) → (b : Ref sig .tc) → Buf (Elt Ideal) ((c : Thread nD τ).loc b)) (c : Dev nD) (t : Fin cfg5.N) :
    (dat5 (F := Ideal) V c).flushed 5 t = ((cfg5.win 5).blk t).view.read (Elt Ideal)
      (bnArr (arrY V c) (arrR V c 0) (arrR V c 1) (arrR V c 2) (arrR V c 3)) := by
  show (cfg5.win 5).cut (grid5.coords t) ((dat5 (F := Ideal) V c).after 5 t) = _
  rw [after5_5]
  unfold out5_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext (j : S5000x128.Idx)
  obtain ⟨p, q, rfl⟩ : ∃ (p : Fin 5000) (q : Fin 128), j = ix2 p q := ⟨j 0, j 1, eq_ix2 j⟩
  refine (pay_apply _ _ _ _ _ p q).trans ?_
  have hp : p.val < 5000 := p.isLt
  have hq : q.val < 128 := q.isLt
  have h0 : ((cfg5.win 0).blk t).view.emb (ix2 p q) = ((cfg5.win 5).blk t).view.emb (ix2 p q) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  have h1 : ((cfg5.win 1).blk t).view.emb (ix2 (0 : Fin 1) q) = ix2 (0 : Fin 1) ((((cfg5.win 5).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  have h2 : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  have h3 : ((cfg5.win 3).blk t).view.emb (ix2 (0 : Fin 1) q) = ix2 (0 : Fin 1) ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  have h4 : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 128 + 1 * q.val = win5_5.index t (1 : Fin 2) * 128 + 1 * q.val; omega
  show arrR V c 2 (((cfg5.win 3).blk t).view.emb (ix2 (0 : Fin 1) q))
      * (arrY V c (((cfg5.win 0).blk t).view.emb (ix2 p q)) - arrR V c 0 (((cfg5.win 1).blk t).view.emb (ix2 (0 : Fin 1) q)))
      * Ideal.rsqrt (arrR V c 1 (((cfg5.win 2).blk t).view.emb (ix2 (0 : Fin 1) q)) + cEps)
      + arrR V c 3 (((cfg5.win 4).blk t).view.emb (ix2 (0 : Fin 1) q))
    = bnArr (arrY V c) (arrR V c 0) (arrR V c 1) (arrR V c 2) (arrR V c 3) (((cfg5.win 5).blk t).view.emb (ix2 p q))
  rw [h0, h1, h2, h3, h4]
  rfl

/-- An index of the output array is in point `t`'s block iff each coordinate is in the block's range. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v96).slice (win5_5.rect t)).set ↔ _
  rw [View.set_slice_whole, Rect.mem_set_unit]
  exact Iff.rfl

theorem idx_onto : ∀ q0 : Fin 10, ∃ t : Fin cfg5.N, win5_5.index t = ![q0.val, 0] :=
  (by decide +kernel : ∀ q0 : Fin 10, ∃ t : Fin grid5.N, win5_5.index t = ![q0.val, 0])

/-- Every index of the output array is in the block of the point that takes its row's block. -/
theorem cover (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := idx_onto ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE OUTPUT ARRAY after the region: the normalised, scaled and shifted array of what the region finds. -/
theorem out_val (V : (c : Dev nD) → (b : Ref sig .tc) → Buf (Elt Ideal) ((c : Thread nD τ).loc b)) (c : Dev nD) :
    (dat5 (F := Ideal) V c).arrAt 5 cfg5.N
      = bnArr (arrY V c) (arrR V c 0) (arrR V c 1) (arrR V c 2) (arrR V c 3) :=
  (dat5 (F := Ideal) V c).arrAt_eq_of_cover 5 _ (fun t _ => flushed_eq V c t) cover

end Cert.KernelIdeal.KReg5

end
-- ==== Proof.KChainL3.lean ====
/-
  The third round of the kernel's run as values.
-/
import proofs.«147097_j73383811219611_1_alg».proof.Proof.KChainL1
import proofs.«147097_j73383811219611_1_alg».proof.Proof.KReg4
import proofs.«147097_j73383811219611_1_alg».proof.Proof.KReg5

set_option maxRecDepth 16384

noncomputable section

namespace Cert.KernelIdeal.KChain

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.KCarry Cert.KernelIdeal.KStretch Cert.Gnn

variable (m : (ℓ : Loc nD τ sig) → Buf (Elt Ideal) ℓ) (ρ : Dev nD → PrngReg)

/-- The source-index row of the edge list, still in place at round 3's first stretch. -/
theorem src_3 (c : Dev nD) : wd (S := S800000) (W8 m ρ c (Proc.devRef .tc main_v1)) = edgeSrc0 (m ((c : Thread nD τ).loc main_arg1)) :=
  (c_main_v1_1_8 m ρ c).trans (s0_src (W0 m ρ c))

/-- The target-index row of the edge list, still in place at round 3's first stretch. -/
theorem dst_3 (c : Dev nD) : wd (S := S800000) (W8 m ρ c (Proc.devRef .tc main_v3)) = edgeDst (m ((c : Thread nD τ).loc main_arg1)) :=
  (c_main_v3_1_8 m ρ c).trans (s0_dst (W0 m ρ c))

/-- Round 3: the buffer its second region writes holds the specification's round of the previous round's result. -/
theorem layer3 (c : Dev nD) :
    fl (S := S50000x128) (W12 m ρ c (Proc.devRef .tc main_v96))
      = layerK (agg (m ((c : Thread nD τ).loc main_arg1))) (fl (S := S50000x128) (W8 m ρ c (Proc.devRef .tc main_v65))) (m ((c : Thread nD τ).loc main_arg12)) (m ((c : Thread nD τ).loc main_arg13))
          (m ((c : Thread nD τ).loc main_arg14)) (m ((c : Thread nD τ).loc main_arg15)) (m ((c : Thread nD τ).loc main_arg16)) :=
  layer_of (agg (m ((c : Thread nD τ).loc main_arg1))) (fl (S := S50000x128) (W8 m ρ c (Proc.devRef .tc main_v65))) (m ((c : Thread nD τ).loc main_arg12)) (m ((c : Thread nD τ).loc main_arg13))
      (m ((c : Thread nD τ).loc main_arg14)) (m ((c : Thread nD τ).loc main_arg15)) (m ((c : Thread nD τ).loc main_arg16))
    (fl (S := S50000x128) (W9 m ρ c (Proc.devRef .tc main_v83))) (fl (S := S50000x128) (W9 m ρ c (Proc.devRef .tc main_v65)))
    (fl (S := S128x128) (W9 m ρ c (Proc.devRef .tc main_v84))) (fl (S := S128x128) (W9 m ρ c (Proc.devRef .tc main_v85))) (fl (S := S1x128) (W9 m ρ c (Proc.devRef .tc main_v86)))
    (fl (S := S50000x128) (W11 m ρ c (Proc.devRef .tc main_v87_0))) (fl (S := S1x128) (W10 m ρ c (Proc.devRef .tc main_v87_1))) (fl (S := S1x128) (W10 m ρ c (Proc.devRef .tc main_v87_2)))
    (fl (S := S1x128) (W11 m ρ c (Proc.devRef .tc main_v89))) (fl (S := S1x128) (W11 m ρ c (Proc.devRef .tc main_v93))) (fl (S := S1x128) (W11 m ρ c (Proc.devRef .tc main_v94))) (fl (S := S1x128) (W11 m ρ c (Proc.devRef .tc main_v95)))
    (fl (S := S50000x128) (W12 m ρ c (Proc.devRef .tc main_v96)))
    (s4_agg (W8 m ρ c) (m ((c : Thread nD τ).loc main_arg1)) (src_3 m ρ c) (dst_3 m ρ c)) (c_main_v65_8_9 m ρ c)
    (fun k j => (s4_wl (W8 m ρ c) k j).trans (congrArg (fun f : S128x128.Idx → EReal => f (ix2 j k)) (c_main_arg12_0_8 m ρ c)))
    (fun k j => (s4_wr (W8 m ρ c) k j).trans (congrArg (fun f : S128x128.Idx → EReal => f (ix2 j k)) (c_main_arg14_0_8 m ρ c)))
    (fun j => (s4_bl (W8 m ρ c) j).trans (congrArg (fun f : S128.Idx → EReal => f (ix1 j)) (c_main_arg13_0_8 m ρ c)))
    ((c_main_v87_0_10_11 m ρ c).trans ((W10_arr m ρ c 5).trans (KReg4.y_val (V9 m ρ) c)))
    ((W10_arr m ρ c 6).trans (KReg4.s_val (V9 m ρ) c))
    ((W10_arr m ρ c 7).trans (KReg4.ss_val (V9 m ρ) c))
    (s5_mu (W10 m ρ c)) (s5_var (W10 m ρ c))
    (fun j => (s5_g (W10 m ρ c) j).trans (congrArg (fun f : S128.Idx → EReal => f (ix1 j)) (c_main_arg15_0_10 m ρ c)))
    (fun j => (s5_b (W10 m ρ c) j).trans (congrArg (fun f : S128.Idx → EReal => f (ix1 j)) (c_main_arg16_0_10 m ρ c)))
    ((W12_arr m ρ c 5).trans (KReg5.out_val (V11 m ρ) c))

end Cert.KernelIdeal.KChain

end
-- ==== Proof.KReg6.lean ====
import proofs.«147097_j73383811219611_1_alg».proof.Proof.Gen.KernelIdeal.Frame
import proofs.«147097_j73383811219611_1_alg».proof.Proof.KRegLib
import Idealize.ShloMosaic.Lib.Pipeline.Value
import Idealize.ShloMosaic.Lib.Tactic

set_option pp.maxSteps 5000
set_option pp.deepTerms false

noncomputable section

namespace Cert.KernelIdeal.KReg6

open Idealize.ShloMosaic Idealize.ShloMosaic.TcCoe Idealize.SL.Sem Idealize.ShloMosaic.ValueIdx
open Idealize.ShloMosaic.Pipeline (Dat)
open Cert.KernelIdeal Cert.KernelIdeal.Gen Cert.Gnn

variable {F : FTy → Type} [FloatOps F]

theorem hz : (![0, 0] : Fin 2 → Nat) = fun _ => 0 := funext fun a => by fin_cases a <;> rfl

section Vals
variable (V : (c : Dev nD) → (b : Ref sig .tc) → Buf (Elt Ideal) ((c : Thread nD τ).loc b))

/-- The printed index maps, decided over the ten points: the three row-blocked inputs and the row-blocked output sit at
    block row `t`; the three weight matrices and the bias row sit at block 0 throughout. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-! ## The input blocks read where the arrays hold them -/

theorem blk0_apply (c : Dev nD) (t : Fin cfg6.N) (r : Fin 5000) (k : Fin 128) (h : 5000 * t.val + r.val < 50000) :
    (iblk6 V c 0 t : Vec Ideal S5000x128 .f32) (ix2 r k)
      = (V c (Pipeline.arrRef spec6 0) : S50000x128.Idx → EReal) (ix2 ⟨5000 * t.val + r.val, h⟩ k) := by
  unfold iblk6
  rw [View.read_apply]
  show V c (Pipeline.arrRef spec6 0) (((cfg6.win 0).blk t).view.emb (ix2 r k)) = _
  refine congrArg (V c (Pipeline.arrRef spec6 0)) ?_
  obtain ⟨e00, e01, e10, e11, e20, e21, -⟩ := idx_facts t
  funext a
  apply Fin.ext
  match a with
  | ⟨0, _⟩ => show win6_0.index t (0 : Fin 2) * 5000 + 1 * r.val = 5000 * t.val + r.val; omega
  | ⟨1, _⟩ => show win6_0.index t (1 : Fin 2) * 128 + 1 * k.val = k.val; omega

theorem blk1_apply (c : Dev nD) (t : Fin cfg6.N) (r : Fin 5000) (k : Fin 128) (h : 5000 * t.val + r.val < 50000) :
    (iblk6 V c 1 t : Vec Ideal S5000x128 .f32) (ix2 r k)
      = (V c (Pipeline.arrRef spec6 1) : S50000x128.Idx → EReal) (ix2 ⟨5000 * t.val + r.val, h⟩ k) := by
  unfold iblk6
  rw [View.read_apply]
  show V c (Pipeline.arrRef spec6 1) (((cfg6.win 1).blk t).view.emb (ix2 r k)) = _
  refine congrArg (V c (Pipeline.arrRef spec6 1)) ?_
  obtain ⟨e00, e01, e10, e11, e20, e21, -⟩ := idx_facts t
  funext a
  apply Fin.ext
  match a with
  | ⟨0, _⟩ => show win6_1.index t (0 : Fin 2) * 5000 + 1 * r.val = 5000 * t.val + r.val; omega
  | ⟨1, _⟩ => show win6_1.index t (1 : Fin 2) * 128 + 1 * k.val = k.val; omega

theorem blk2_apply (c : Dev nD) (t : Fin cfg6.N) (r : Fin 5000) (k : Fin 128) (h : 5000 * t.val + r.val < 50000) :
    (iblk6 V c 2 t : Vec Ideal S5000x128 .f32) (ix2 r k)
      = (V c (Pipeline.arrRef spec6 2) : S50000x128.Idx → EReal) (ix2 ⟨5000 * t.val + r.val, h⟩ k) := by
  unfold iblk6
  rw [View.read_apply]
  show V c (Pipeline.arrRef spec6 2) (((cfg6.win 2).blk t).view.emb (ix2 r k)) = _
  refine congrArg (V c (Pipeline.arrRef spec6 2)) ?_
  obtain ⟨e00, e01, e10, e11, e20, e21, -⟩ := idx_facts t
  funext a
  apply Fin.ext
  match a with
  | ⟨0, _⟩ => show win6_2.index t (0 : Fin 2) * 5000 + 1 * r.val = 5000 * t.val + r.val; omega
  | ⟨1, _⟩ => show win6_2.index t (1 : Fin 2) * 128 + 1 * k.val = k.val; omega

theorem blk3_apply (c : Dev nD) (t : Fin cfg6.N) (a : Fin 128) (b : Fin 128) :
    (iblk6 V c 3 t : Vec Ideal S128x128 .f32) (ix2 a b) = (V c (Pipeline.arrRef spec6 3) : S128x128.Idx → EReal) (ix2 a b) := by
  unfold iblk6
  rw [View.read_apply]
  show V c (Pipeline.arrRef spec6 3) (((cfg6.win 3).blk t).view.emb (ix2 a b)) = _
  refine congrArg (V c (Pipeline.arrRef spec6 3)) ?_
  obtain ⟨-, -, -, -, -, -, e30, e31, e40, e41, e50, e51, e60, e61, -⟩ := idx_facts t
  funext ax
  apply Fin.ext
  match ax with
  | ⟨0, _⟩ => show win6_3.index t (0 : Fin 2) * 128 + 1 * a.val = a.val; omega
  | ⟨1, _⟩ => show win6_3.index t (1 : Fin 2) * 128 + 1 * b.val = b.val; omega

theorem blk4_apply (c : Dev nD) (t : Fin cfg6.N) (a : Fin 128) (b : Fin 128) :
    (iblk6 V c 4 t : Vec Ideal S128x128 .f32) (ix2 a b) = (V c (Pipeline.arrRef spec6 4) : S128x128.Idx → EReal) (ix2 a b) := by
  unfold iblk6
  rw [View.read_apply]
  show V c (Pipeline.arrRef spec6 4) (((cfg6.win 4).blk t).view.emb (ix2 a b)) = _
  refine congrArg (V c (Pipeline.arrRef spec6 4)) ?_
  obtain ⟨-, -, -, -, -, -, e30, e31, e40, e41, e50, e51, e60, e61, -⟩ := idx_facts t
  funext ax
  apply Fin.ext
  match ax with
  | ⟨0, _⟩ => show win6_4.index t (0 : Fin 2) * 128 + 1 * a.val = a.val; omega
  | ⟨1, _⟩ => show win6_4.index t (1 : Fin 2) * 128 + 1 * b.val = b.val; omega

theorem blk5_apply (c : Dev nD) (t : Fin cfg6.N) (a : Fin 128) (b : Fin 128) :
    (iblk6 V c 5 t : Vec Ideal S128x128 .f32) (ix2 a b) = (V c (Pipeline.arrRef spec6 5) : S128x128.Idx → EReal) (ix2 a b) := by
  unfold iblk6
  rw [View.read_apply]
  show V c (Pipeline.arrRef spec6 5) (((cfg6.win 5).blk t).view.emb (ix2 a b)) = _
  refine congrArg (V c (Pipeline.arrRef spec6 5)) ?_
  obtain ⟨-, -, -, -, -, -, e30, e31, e40, e41, e50, e51, e60, e61, -⟩ := idx_facts t
  funext ax
  apply Fin.ext
  match ax with
  | ⟨0, _⟩ => show win6_5.index t (0 : Fin 2) * 128 + 1 * a.val = a.val; omega
  | ⟨1, _⟩ => show win6_5.index t (1 : Fin 2) * 128 + 1 * b.val = b.val; omega

theorem blk6_apply (c : Dev nD) (t : Fin cfg6.N) (a : Fin 1) (b : Fin 128) :
    (iblk6 V c 6 t : Vec Ideal S1x128 .f32) (ix2 a b) = (V c (Pipeline.arrRef spec6 6) : S1x128.Idx → EReal) (ix2 a b) := by
  unfold iblk6
  rw [View.read_apply]
  show V c (Pipeline.arrRef spec6 6) (((cfg6.win 6).blk t).view.emb (ix2 a b)) = _
  refine congrArg (V c (Pipeline.arrRef spec6 6)) ?_
  obtain ⟨-, -, -, -, -, -, e30, e31, e40, e41, e50, e51, e60, e61, -⟩ := idx_facts t
  funext ax
  apply Fin.ext
  match ax with
  | ⟨0, _⟩ => show win6_6.index t (0 : Fin 2) * 1 + 1 * a.val = a.val; omega
  | ⟨1, _⟩ => show win6_6.index t (1 : Fin 2) * 128 + 1 * b.val = b.val; omega

/-- the whole output table -/
abbrev Oc (c : Dev nD) : SN.Idx → EReal :=
  finArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))

/-- Point `t`'s output block is rows `5000 t …` of the table. -/
theorem oblk_apply (c : Dev nD) (t : Fin cfg6.N) (r : Fin 5000) (j : Fin 128) (h : 5000 * t.val + r.val < 50000) :
    k6_pay1 (F := Ideal) (iblk6 V c 0 t) (iblk6 V c 1 t) (iblk6 V c 2 t) (iblk6 V c 3 t) (iblk6 V c 4 t) (iblk6 V c 5 t) (iblk6 V c 6 t) (ix2 r j)
      = Oc V c (ix2 ⟨5000 * t.val + r.val, h⟩ j) := by
  refine (KRegLib.pay1_6_apply (iblk6 V c 0 t) (iblk6 V c 1 t) (iblk6 V c 2 t) (iblk6 V c 3 t) (iblk6 V c 4 t) (iblk6 V c 5 t) (iblk6 V c 6 t) r j).trans ?_
  refine congrArg₂ max (congrArg₂ (· + ·) (congrArg₂ (· + ·) (congrArg₂ (· + ·) ?_ ?_) ?_) ?_) rfl
  · exact Finset.sum_congr rfl fun k _ => congrArg₂ (· * ·) (blk0_apply V c t r k h) (blk3_apply V c t k j)
  · exact Finset.sum_congr rfl fun k _ => congrArg₂ (· * ·) (blk1_apply V c t r k h) (blk4_apply V c t k j)
  · exact Finset.sum_congr rfl fun k _ => congrArg₂ (· * ·) (blk2_apply V c t r k h) (blk5_apply V c t k j)
  · exact blk6_apply V c t 0 j

/-! ## From the blocks to the array -/

/-- What point `t` writes back is block `t` of the table. -/
theorem flushed7_eq (c : Dev nD) (t : Fin cfg6.N) :
    (dat6 V c).flushed 7 t = ((cfg6.win 7).blk t).view.read (Elt Ideal) (Oc V c) := by
  show (cfg6.win 7).cut (grid6.coords t) ((dat6 V c).after 7 t) = _
  rw [after6_7]
  unfold out6_7
  rw [View.canon_unit_zero hz]
  simp only [View.ld_unit_zero (S := S5000x128) hz, View.ld_unit_zero (S := S128x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  have hN : cfg6.N = 10 := N_6
  have hlt : 5000 * t.val + r.val < 50000 := by have := t.isLt; have := r.isLt; omega
  refine (oblk_apply V c t r j hlt).trans ?_
  rw [View.read_apply]
  refine Eq.trans ?_ (cast_eq _ _).symm
  refine congrArg (Oc V c) ?_
  obtain ⟨-, -, -, -, -, -, -, -, -, -, -, -, -, -, e70, e71⟩ := idx_facts t
  funext a
  apply Fin.ext
  match a with
  | ⟨0, _⟩ => show 5000 * t.val + r.val = win6_7.index t (0 : Fin 2) * 5000 + 1 * r.val; omega
  | ⟨1, _⟩ => show j.val = win6_7.index t (1 : Fin 2) * 128 + 1 * j.val; omega

/-- An index of the table is in point `t`'s block iff each coordinate is in the block's range. -/
theorem mem_blk7 (t : Fin cfg6.N) (i : S50000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole main_v104).slice (win6_7.rect t)).set ↔ _
  rw [View.set_slice_whole, Rect.mem_set_unit]
  exact Iff.rfl

/-- THE OUTPUT TABLE: the ten row blocks tile it. -/
theorem out_val (c : Dev nD) : (dat6 (F := Ideal) V c).arrAt 7 cfg6.N = finArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 7 (Oc V c) (fun t _ => flushed7_eq V c t) fun i => by
    have hN : cfg6.N = 10 := N_6
    have hi0 : (i 0).val < 50000 := (i 0).isLt
    have hi1 : (i 1).val < 128 := (i 1).isLt
    let t : Fin cfg6.N := ⟨(i 0).val / 5000, by rw [hN]; omega⟩
    obtain ⟨-, -, -, -, -, -, -, -, -, -, -, -, -, -, e70, e71⟩ := idx_facts t
    have ht : t.val = (i 0).val / 5000 := rfl
    refine ⟨t, flush6_7 t, ?_⟩
    rw [mem_blk7]
    intro a
    match a with
    | ⟨0, _⟩ => show win6_7.index t (0 : Fin 2) * 5000 ≤ (i 0).val ∧ (i 0).val < win6_7.index t (0 : Fin 2) * 5000 + 5000; omega
    | ⟨1, _⟩ => show win6_7.index t (1 : Fin 2) * 128 ≤ (i 1).val ∧ (i 1).val < win6_7.index t (1 : Fin 2) * 128 + 128; omega

end Vals

end Cert.KernelIdeal.KReg6
end
-- ==== Proof.KChain.lean ====
/-
  The kernel's whole run as values: the three rounds composed with the last linear map.
-/
import proofs.«147097_j73383811219611_1_alg».proof.Proof.KChainL1
import proofs.«147097_j73383811219611_1_alg».proof.Proof.KChainL2
import proofs.«147097_j73383811219611_1_alg».proof.Proof.KChainL3
import proofs.«147097_j73383811219611_1_alg».proof.Proof.KReg6

set_option maxRecDepth 16384

noncomputable section

namespace Cert.KernelIdeal.KChain

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.KCarry Cert.KernelIdeal.KStretch Cert.Gnn

variable (m : (ℓ : Loc nD τ sig) → Buf (Elt Ideal) ℓ) (ρ : Dev nD → PrngReg)

/-- The last region's result: the last linear map of the three rounds' results. -/
theorem final (c : Dev nD) :
    fl (S := S50000x128) (W14 m ρ c (Proc.devRef .tc main_v104))
      = finK (fl (S := S50000x128) (W4 m ρ c (Proc.devRef .tc main_v34))) (fl (S := S50000x128) (W8 m ρ c (Proc.devRef .tc main_v65))) (fl (S := S50000x128) (W12 m ρ c (Proc.devRef .tc main_v96)))
          (m ((c : Thread nD τ).loc main_arg17)) (m ((c : Thread nD τ).loc main_arg18)) :=
  fin_of (fl (S := S50000x128) (W4 m ρ c (Proc.devRef .tc main_v34))) (fl (S := S50000x128) (W8 m ρ c (Proc.devRef .tc main_v65))) (fl (S := S50000x128) (W12 m ρ c (Proc.devRef .tc main_v96)))
      (m ((c : Thread nD τ).loc main_arg17)) (m ((c : Thread nD τ).loc main_arg18))
    (fl (S := S50000x128) (W13 m ρ c (Proc.devRef .tc main_v34))) (fl (S := S50000x128) (W13 m ρ c (Proc.devRef .tc main_v65))) (fl (S := S50000x128) (W13 m ρ c (Proc.devRef .tc main_v96)))
    (fl (S := S128x128) (W13 m ρ c (Proc.devRef .tc main_v98))) (fl (S := S128x128) (W13 m ρ c (Proc.devRef .tc main_v100))) (fl (S := S128x128) (W13 m ρ c (Proc.devRef .tc main_v102)))
    (fl (S := S1x128) (W13 m ρ c (Proc.devRef .tc main_v103)))
    (fl (S := S50000x128) (W14 m ρ c (Proc.devRef .tc main_v104)))
    (c_main_v34_4_13 m ρ c) (c_main_v65_8_13 m ρ c) (c_main_v96_12_13 m ρ c)
    (fun k j => (s6_w1 (W12 m ρ c) k j).trans (congrArg (fun f : S128x384.Idx → EReal => f (ix2 j (col3 0 k))) (c_main_arg17_0_12 m ρ c)))
    (fun k j => (s6_w2 (W12 m ρ c) k j).trans (congrArg (fun f : S128x384.Idx → EReal => f (ix2 j (col3 1 k))) (c_main_arg17_0_12 m ρ c)))
    (fun k j => (s6_w3 (W12 m ρ c) k j).trans (congrArg (fun f : S128x384.Idx → EReal => f (ix2 j (col3 2 k))) (c_main_arg17_0_12 m ρ c)))
    (fun j => (s6_b (W12 m ρ c) j).trans (congrArg (fun f : S128.Idx → EReal => f (ix1 j)) (c_main_arg18_0_12 m ρ c)))
    ((W14_arr m ρ c 7).trans (KReg6.out_val (V13 m ρ) c))

/-- The network's result buffer at the last boundary holds the specification's network (sums-of-squares spelling) of
    the launch memory. -/
theorem result_val (c : Dev nD) :
    fl (S := S50000x128) (W14 m ρ c (Proc.devRef .tc main_v104))
      = outK (agg (m ((c : Thread nD τ).loc main_arg1))) (m ((c : Thread nD τ).loc main_arg0))
          (m ((c : Thread nD τ).loc main_arg2)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) (m ((c : Thread nD τ).loc main_arg16))
          (m ((c : Thread nD τ).loc main_arg17)) (m ((c : Thread nD τ).loc main_arg18)) := by
  have h := final m ρ c
  rw [layer3 m ρ c, layer2 m ρ c, layer1 m ρ c] at h
  exact h

end Cert.KernelIdeal.KChain

end
-- ==== Proof.KerSide.lean ====
/-
  The idealized kernel's run with its result as the network's function of the arguments: the last boundary's
  contents of the result buffer, read back through the seven regions and the stretches of host operations between them.
-/
import proofs.«147097_j73383811219611_1_alg».proof.Proof.KerRun
import proofs.«147097_j73383811219611_1_alg».proof.Proof.KChain

noncomputable section

namespace Cert.KernelIdeal.KerSide

open Idealize.ShloMosaic Idealize.ShloMosaic.TcCoe Idealize.SL.Sem
open Cert.KernelIdeal Cert.Gnn

/-- Every weakly fair execution of the idealized kernel terminates without a fault, its result buffer holding the
    network's value of the argument arrays (sums-of-squares spelling), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v104)
        = outK (agg (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun r h c => ⟨(h c).1.trans (KChain.result_val m ρ c), (h c).2⟩)
    (KerRun.run_val (F := Ideal) m ρ)

end Cert.KernelIdeal.KerSide

end
-- ==== Proof.RefRun.lean ====
/- The reference program's @main as LISTS of its host operations, the calls of its outlined functions unfolded at
   their call sites over each call's own buffers, and its run read back: every weakly fair execution terminates
   with each buffer at the fold of the operations' results over the launch contents.  The lists follow the program's
   own order; they are cut where one round of the network ends and the next begins. -/
import proofs.«147097_j73383811219611_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Round one: the edge list's two rows, the neighbourhood average of the input, the two linear maps, the clip, the column statistics, the normalisation (statements 1 … 60, the calls unfolded). -/
abbrev L1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v15 (broadcastInDim S50000x1 ![] bcast_S_S50000x1 : (⟨S_, .f32⟩ : BufTy).Contents (Elt F) → (⟨S50000x1, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x3F800000#32),
    StableHlo.unary main_cst_3 main_v18 (broadcastInDim S50000x1 ![] bcast_S_S50000x1 : (⟨S_, .f32⟩ : BufTy).Contents (Elt F) → (⟨S50000x1, .f32⟩ : BufTy).Contents (Elt F)),
    StableHlo.binary main_v17 main_v18 main_v19 (maximumf : (⟨S50000x1, .f32⟩ : BufTy).Contents (Elt F) → (⟨S50000x1, .f32⟩ : BufTy).Contents (Elt F) → (⟨S50000x1, .f32⟩ : BufTy).Contents (Elt F)),
    StableHlo.unary main_v19 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v22 ((transpose S128x128 [1, 0] · transposes_S128x128_S128x128_1_0) : (⟨S128x128, .f32⟩ : BufTy).Contents (Elt F) → (⟨S128x128, .f32⟩ : BufTy).Contents (Elt F)),
    StableHlo.binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)),
    StableHlo.nullary main_call0_cst (constant S_ .f32 0x00000000#32),
    StableHlo.unary main_call0_cst main_call0_v0 ((broadcastInDim S50000x128 ![] bcast_S_S50000x128) : (⟨S_, .f32⟩ : BufTy).Contents (Elt F) → (⟨S50000x128, .f32⟩ : BufTy).Contents (Elt F)),
    StableHlo.binary main_v29 main_call0_v0 main_v30 (maximumf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.nullary main_call1_cst (constant S_ .f32 0x00000000#32),
    StableHlo.binary main_v30 main_call1_cst main_call1_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v0 main_call1_v1 ((broadcastInDim S1x128 ![1] bcast_S128_S1x128_1) : (⟨S128, .f32⟩ : BufTy).Contents (Elt F) → (⟨S1x128, .f32⟩ : BufTy).Contents (Elt F)),
    StableHlo.nullary main_call1_cst_0 (constant S_ .f32 0x47435000#32),
    StableHlo.unary main_call1_cst_0 main_call1_v2 ((broadcastInDim S1x128 ![] bcast_S_S1x128) : (⟨S_, .f32⟩ : BufTy).Contents (Elt F) → (⟨S1x128, .f32⟩ : BufTy).Contents (Elt F)),
    StableHlo.binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    StableHlo.unary main_call1_v3 main_call1_v4 ((broadcastInDim S50000x128 ![0, 1] bcast_S1x128_S50000x128_0_1) : (⟨S1x128, .f32⟩ : BufTy).Contents (Elt F) → (⟨S50000x128, .f32⟩ : BufTy).Contents (Elt F)),
    StableHlo.binary main_v30 main_call1_v4 main_call1_v5 (subf : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 (mulf : (⟨S50000x128, .f32⟩ : BufTy).Contents (Elt F) → (⟨S50000x128, .f32⟩ : BufTy).Contents (Elt F) → (⟨S50000x128, .f32⟩ : BufTy).Contents (Elt F)),
    StableHlo.unary main_c_6 main_call1_v7 ((sitofp .f32) : (⟨S_, .i32⟩ : BufTy).Contents (Elt F) → (⟨S_, .f32⟩ : BufTy).Contents (Elt F)),
    StableHlo.nullary main_call1_cst_1 (constant S_ .f32 0x47435000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v8 main_call1_v10 ((broadcastInDim S128 ![] bcast_S_S128) : (⟨S_, .f32⟩ : BufTy).Contents (Elt F) → (⟨S128, .f32⟩ : BufTy).Contents (Elt F)),
    StableHlo.binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    StableHlo.nullary main_call1_cst_3 (constant S_ .f32 0x00000000#32),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 ((broadcastInDim S128 ![] bcast_S_S128) : (⟨S_, .f32⟩ : BufTy).Contents (Elt F) → (⟨S128, .f32⟩ : BufTy).Contents (Elt F)),
    StableHlo.ternary main_call1_v12 main_call1_v11 main_call1_call0_v1 main_v34 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v36 main_v37 (subf : (⟨S50000x128, .f32⟩ : BufTy).Contents (Elt F) → (⟨S50000x128, .f32⟩ : BufTy).Contents (Elt F) → (⟨S50000x128, .f32⟩ : BufTy).Contents (Elt F)),
    StableHlo.unary main_arg5 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v37 main_v40 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v41 (broadcastInDim S128 ![] bcast_S_S128 : (⟨S_, .f32⟩ : BufTy).Contents (Elt F) → (⟨S128, .f32⟩ : BufTy).Contents (Elt F)),
    StableHlo.binary main_v34 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Round two, on round one's result (statements 61 … 116). -/
abbrev L2 : List (HloOp τ sig (Elt F)) :=
  [ StableHlo.nullary main_c_8 (constantI S_ 32 0#32),
    StableHlo.unary main_c_8 main_v50 (broadcastInDim S800000 ![] bcast_S_S800000 : (⟨S_, .i32⟩ : BufTy).Contents (Elt F) → (⟨S800000, .i32⟩ : BufTy).Contents (Elt F)),
    StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v49 main_v55 main_v56 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v57 (broadcastInDim S50000x128 ![] bcast_S_S50000x128 : (⟨S_, .f32⟩ : BufTy).Contents (Elt F) → (⟨S50000x128, .f32⟩ : BufTy).Contents (Elt F)),
    StableHlo.unary main_v3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v60 (broadcastInDim S800000x1 ![] bcast_S_S800000x1 : (⟨S_, .f32⟩ : BufTy).Contents (Elt F) → (⟨S800000x1, .f32⟩ : BufTy).Contents (Elt F)),
    StableHlo.nullary main_cst_12 (constant S_ .f32 0x00000000#32),
    StableHlo.unary main_cst_12 main_v61 (broadcastInDim S50000x1 ![] bcast_S_S50000x1 : (⟨S_, .f32⟩ : BufTy).Contents (Elt F) → (⟨S50000x1, .f32⟩ : BufTy).Contents (Elt F)),
    StableHlo.unary main_v3 main_v62 (broadcastInDim S800000x1 ![0] bcast_S800000_S800000x1_0 : (⟨S800000, .i32⟩ : BufTy).Contents (Elt F) → (⟨S800000x1, .i32⟩ : BufTy).Contents (Elt F)),
    StableHlo.ternary main_v61 main_v62 main_v60 main_v63 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_13 (constant S_ .f32 0x3F800000#32),
    StableHlo.unary main_cst_13 main_v64 (broadcastInDim S50000x1 ![] bcast_S_S50000x1 : (⟨S_, .f32⟩ : BufTy).Contents (Elt F) → (⟨S50000x1, .f32⟩ : BufTy).Contents (Elt F)),
    StableHlo.binary main_v63 main_v64 main_v65 (maximumf : (⟨S50000x1, .f32⟩ : BufTy).Contents (Elt F) → (⟨S50000x1, .f32⟩ : BufTy).Contents (Elt F) → (⟨S50000x1, .f32⟩ : BufTy).Contents (Elt F)),
    StableHlo.unary main_v65 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v66 main_v67 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v68 ((transpose S128x128 [1, 0] · transposes_S128x128_S128x128_1_0) : (⟨S128x128, .f32⟩ : BufTy).Contents (Elt F) → (⟨S128x128, .f32⟩ : BufTy).Contents (Elt F)),
    StableHlo.binary main_v67 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.unary main_arg9 main_v73 ((transpose S128x128 [1, 0] · transposes_S128x128_S128x128_1_0) : (⟨S128x128, .f32⟩ : BufTy).Contents (Elt F) → (⟨S128x128, .f32⟩ : BufTy).Contents (Elt F)),
    StableHlo.binary main_v49 main_v73 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v72 main_v74 main_v75 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 ((broadcastInDim S50000x128 ![] bcast_S_S50000x128) : (⟨S_, .f32⟩ : BufTy).Contents (Elt F) → (⟨S50000x128, .f32⟩ : BufTy).Contents (Elt F)),
    StableHlo.binary main_v75 main_call2_v0 main_v76 (maximumf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v76 main_cst_14 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v78 (broadcastInDim S128 ![] bcast_S_S128 : (⟨S_, .f32⟩ : BufTy).Contents (Elt F) → (⟨S128, .f32⟩ : BufTy).Contents (Elt F)),
    StableHlo.binary main_v77 main_v78 main_v79 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.nullary main_call3_cst (constant S_ .f32 0x00000000#32),
    StableHlo.binary main_v76 main_call3_cst main_call3_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v0 main_call3_v1 ((broadcastInDim S1x128 ![1] bcast_S128_S1x128_1) : (⟨S128, .f32⟩ : BufTy).Contents (Elt F) → (⟨S1x128, .f32⟩ : BufTy).Contents (Elt F)),
    StableHlo.nullary main_call3_cst_0 (constant S_ .f32 0x47435000#32),
    StableHlo.unary main_call3_cst_0 main_call3_v2 ((broadcastInDim S1x128 ![] bcast_S_S1x128) : (⟨S_, .f32⟩ : BufTy).Contents (Elt F) → (⟨S1x128, .f32⟩ : BufTy).Contents (Elt F)),
    StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    StableHlo.unary main_call3_v3 main_call3_v4 ((broadcastInDim S50000x128 ![0, 1] bcast_S1x128_S50000x128_0_1) : (⟨S1x128, .f32⟩ : BufTy).Contents (Elt F) → (⟨S50000x128, .f32⟩ : BufTy).Contents (Elt F)),
    StableHlo.binary main_v76 main_call3_v4 main_call3_v5 (subf : (⟨S50000x128, .f32⟩ : BufTy).Contents (Elt F) → (⟨S50000x128, .f32⟩ : BufTy).Contents (Elt F) → (⟨S50000x128, .f32⟩ : BufTy).Contents (Elt F)),
    StableHlo.binary main_call3_v5 main_call3_v5 main_call3_v6 (mulf : (⟨S50000x128, .f32⟩ : BufTy).Contents (Elt F) → (⟨S50000x128, .f32⟩ : BufTy).Contents (Elt F) → (⟨S50000x128, .f32⟩ : BufTy).Contents (Elt F)),
    StableHlo.unary main_c_16 main_call3_v7 ((sitofp .f32) : (⟨S_, .i32⟩ : BufTy).Contents (Elt F) → (⟨S_, .f32⟩ : BufTy).Contents (Elt F)),
    StableHlo.nullary main_call3_cst_1 (constant S_ .f32 0x47435000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v8 main_call3_v10 ((broadcastInDim S128 ![] bcast_S_S128) : (⟨S_, .f32⟩ : BufTy).Contents (Elt F) → (⟨S128, .f32⟩ : BufTy).Contents (Elt F)),
    StableHlo.binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    StableHlo.nullary main_call3_cst_3 (constant S_ .f32 0x00000000#32),
    StableHlo.binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 ((broadcastInDim S128 ![] bcast_S_S128) : (⟨S_, .f32⟩ : BufTy).Contents (Elt F) → (⟨S128, .f32⟩ : BufTy).Contents (Elt F)),
    StableHlo.ternary main_call3_v12 main_call3_v11 main_call3_call0_v1 main_v80 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v79 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v82 main_v83 (subf : (⟨S50000x128, .f32⟩ : BufTy).Contents (Elt F) → (⟨S50000x128, .f32⟩ : BufTy).Contents (Elt F) → (⟨S50000x128, .f32⟩ : BufTy).Contents (Elt F)),
    StableHlo.unary main_arg10 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v83 main_v86 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v87 (broadcastInDim S128 ![] bcast_S_S128 : (⟨S_, .f32⟩ : BufTy).Contents (Elt F) → (⟨S128, .f32⟩ : BufTy).Contents (Elt F)),
    StableHlo.binary main_v80 main_v87 main_v88 (addf : (⟨S128, .f32⟩ : BufTy).Contents (Elt F) → (⟨S128, .f32⟩ : BufTy).Contents (Elt F) → (⟨S128, .f32⟩ : BufTy).Contents (Elt F)),
    StableHlo.unary main_v88 main_v89 (Host.rsqrt : (⟨S128, .f32⟩ : BufTy).Contents (Elt F) → (⟨S128, .f32⟩ : BufTy).Contents (Elt F)),
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_arg11 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Round three's first four statements (117 … 120). -/
abbrev L3a : List (HloOp τ sig (Elt F)) :=
  [ StableHlo.nullary main_c_18 (constantI S_ 32 0#32),
    StableHlo.unary main_c_18 main_v96 (broadcastInDim S800000 ![] bcast_S_S800000 : (⟨S_, .i32⟩ : BufTy).Contents (Elt F) → (⟨S800000, .i32⟩ : BufTy).Contents (Elt F)),
    StableHlo.binary main_v1 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32) ]

set_option maxHeartbeats 4000000 in
/-- The rest of round three (statements 121 … 173). -/
abbrev L3b : List (HloOp τ sig (Elt F)) :=
  [ StableHlo.unary main_c_19 main_v98 (broadcastInDim S800000 ![] bcast_S_S800000 : (⟨S_, .i32⟩ : BufTy).Contents (Elt F) → (⟨S800000, .i32⟩ : BufTy).Contents (Elt F)),
    StableHlo.binary main_v1 main_v98 main_v99 (addi : (⟨S800000, .i32⟩ : BufTy).Contents (Elt F) → (⟨S800000, .i32⟩ : BufTy).Contents (Elt F) → (⟨S800000, .i32⟩ : BufTy).Contents (Elt F)),
    StableHlo.ternary main_v97 main_v99 main_v1 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v95 main_v101 main_v102 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v103 (broadcastInDim S50000x128 ![] bcast_S_S50000x128 : (⟨S_, .f32⟩ : BufTy).Contents (Elt F) → (⟨S50000x128, .f32⟩ : BufTy).Contents (Elt F)),
    StableHlo.unary main_v3 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v106 (broadcastInDim S800000x1 ![] bcast_S_S800000x1 : (⟨S_, .f32⟩ : BufTy).Contents (Elt F) → (⟨S800000x1, .f32⟩ : BufTy).Contents (Elt F)),
    StableHlo.nullary main_cst_22 (constant S_ .f32 0x00000000#32),
    StableHlo.unary main_cst_22 main_v107 (broadcastInDim S50000x1 ![] bcast_S_S50000x1 : (⟨S_, .f32⟩ : BufTy).Contents (Elt F) → (⟨S50000x1, .f32⟩ : BufTy).Contents (Elt F)),
    StableHlo.unary main_v3 main_v108 (broadcastInDim S800000x1 ![0] bcast_S800000_S800000x1_0 : (⟨S800000, .i32⟩ : BufTy).Contents (Elt F) → (⟨S800000x1, .i32⟩ : BufTy).Contents (Elt F)),
    StableHlo.ternary main_v107 main_v108 main_v106 main_v109 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_23 (constant S_ .f32 0x3F800000#32),
    StableHlo.unary main_cst_23 main_v110 (broadcastInDim S50000x1 ![] bcast_S_S50000x1 : (⟨S_, .f32⟩ : BufTy).Contents (Elt F) → (⟨S50000x1, .f32⟩ : BufTy).Contents (Elt F)),
    StableHlo.binary main_v109 main_v110 main_v111 (maximumf : (⟨S50000x1, .f32⟩ : BufTy).Contents (Elt F) → (⟨S50000x1, .f32⟩ : BufTy).Contents (Elt F) → (⟨S50000x1, .f32⟩ : BufTy).Contents (Elt F)),
    StableHlo.unary main_v111 main_v112 (broadcastInDim S50000x128 ![0, 1] bcast_S50000x1_S50000x128_0_1 : (⟨S50000x1, .f32⟩ : BufTy).Contents (Elt F) → (⟨S50000x128, .f32⟩ : BufTy).Contents (Elt F)),
    StableHlo.binary main_v105 main_v112 main_v113 (Host.divf : (⟨S50000x128, .f32⟩ : BufTy).Contents (Elt F) → (⟨S50000x128, .f32⟩ : BufTy).Contents (Elt F) → (⟨S50000x128, .f32⟩ : BufTy).Contents (Elt F)),
    StableHlo.unary main_arg12 main_v114 ((transpose S128x128 [1, 0] · transposes_S128x128_S128x128_1_0) : (⟨S128x128, .f32⟩ : BufTy).Contents (Elt F) → (⟨S128x128, .f32⟩ : BufTy).Contents (Elt F)),
    StableHlo.binary main_v113 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v117 main_v118 (addf : (⟨S50000x128, .f32⟩ : BufTy).Contents (Elt F) → (⟨S50000x128, .f32⟩ : BufTy).Contents (Elt F) → (⟨S50000x128, .f32⟩ : BufTy).Contents (Elt F)),
    StableHlo.unary main_arg14 main_v119 ((transpose S128x128 [1, 0] · transposes_S128x128_S128x128_1_0) : (⟨S128x128, .f32⟩ : BufTy).Contents (Elt F) → (⟨S128x128, .f32⟩ : BufTy).Contents (Elt F)),
    StableHlo.binary main_v95 main_v119 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v118 main_v120 main_v121 (addf : (⟨S50000x128, .f32⟩ : BufTy).Contents (Elt F) → (⟨S50000x128, .f32⟩ : BufTy).Contents (Elt F) → (⟨S50000x128, .f32⟩ : BufTy).Contents (Elt F)),
    StableHlo.nullary main_call4_cst (constant S_ .f32 0x00000000#32),
    StableHlo.unary main_call4_cst main_call4_v0 ((broadcastInDim S50000x128 ![] bcast_S_S50000x128) : (⟨S_, .f32⟩ : BufTy).Contents (Elt F) → (⟨S50000x128, .f32⟩ : BufTy).Contents (Elt F)),
    StableHlo.binary main_v121 main_call4_v0 main_v122 (maximumf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.binary main_v122 main_cst_24 main_v123 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v124 (broadcastInDim S128 ![] bcast_S_S128 : (⟨S_, .f32⟩ : BufTy).Contents (Elt F) → (⟨S128, .f32⟩ : BufTy).Contents (Elt F)),
    StableHlo.binary main_v123 main_v124 main_v125 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.nullary main_call5_cst (constant S_ .f32 0x00000000#32),
    StableHlo.binary main_v122 main_call5_cst main_call5_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call5_v0 main_call5_v1 ((broadcastInDim S1x128 ![1] bcast_S128_S1x128_1) : (⟨S128, .f32⟩ : BufTy).Contents (Elt F) → (⟨S1x128, .f32⟩ : BufTy).Contents (Elt F)),
    StableHlo.nullary main_call5_cst_0 (constant S_ .f32 0x47435000#32),
    StableHlo.unary main_call5_cst_0 main_call5_v2 ((broadcastInDim S1x128 ![] bcast_S_S1x128) : (⟨S_, .f32⟩ : BufTy).Contents (Elt F) → (⟨S1x128, .f32⟩ : BufTy).Contents (Elt F)),
    StableHlo.binary main_call5_v1 main_call5_v2 main_call5_v3 (Host.divf : (⟨S1x128, .f32⟩ : BufTy).Contents (Elt F) → (⟨S1x128, .f32⟩ : BufTy).Contents (Elt F) → (⟨S1x128, .f32⟩ : BufTy).Contents (Elt F)),
    StableHlo.unary main_call5_v3 main_call5_v4 ((broadcastInDim S50000x128 ![0, 1] bcast_S1x128_S50000x128_0_1) : (⟨S1x128, .f32⟩ : BufTy).Contents (Elt F) → (⟨S50000x128, .f32⟩ : BufTy).Contents (Elt F)),
    StableHlo.binary main_v122 main_call5_v4 main_call5_v5 (subf : (⟨S50000x128, .f32⟩ : BufTy).Contents (Elt F) → (⟨S50000x128, .f32⟩ : BufTy).Contents (Elt F) → (⟨S50000x128, .f32⟩ : BufTy).Contents (Elt F)),
    StableHlo.binary main_call5_v5 main_call5_v5 main_call5_v6 (mulf : (⟨S50000x128, .f32⟩ : BufTy).Contents (Elt F) → (⟨S50000x128, .f32⟩ : BufTy).Contents (Elt F) → (⟨S50000x128, .f32⟩ : BufTy).Contents (Elt F)),
    StableHlo.unary main_c_26 main_call5_v7 ((sitofp .f32) : (⟨S_, .i32⟩ : BufTy).Contents (Elt F) → (⟨S_, .f32⟩ : BufTy).Contents (Elt F)),
    StableHlo.nullary main_call5_cst_1 (constant S_ .f32 0x47435000#32),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call5_v8 main_call5_v10 ((broadcastInDim S128 ![] bcast_S_S128) : (⟨S_, .f32⟩ : BufTy).Contents (Elt F) → (⟨S128, .f32⟩ : BufTy).Contents (Elt F)),
    StableHlo.binary main_call5_v9 main_call5_v10 main_call5_v11 (Host.divf : (⟨S128, .f32⟩ : BufTy).Contents (Elt F) → (⟨S128, .f32⟩ : BufTy).Contents (Elt F) → (⟨S128, .f32⟩ : BufTy).Contents (Elt F)),
    StableHlo.nullary main_call5_cst_3 (constant S_ .f32 0x00000000#32),
    StableHlo.binary main_call5_v8 main_call5_cst_3 main_call5_v12 ((cmpf .ogt) : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 ((broadcastInDim S128 ![] bcast_S_S128) : (⟨S_, .f32⟩ : BufTy).Contents (Elt F) → (⟨S128, .f32⟩ : BufTy).Contents (Elt F)),
    StableHlo.ternary main_call5_v12 main_call5_v11 main_call5_call0_v1 main_v126 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v125 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v128 main_v129 (subf : (⟨S50000x128, .f32⟩ : BufTy).Contents (Elt F) → (⟨S50000x128, .f32⟩ : BufTy).Contents (Elt F) → (⟨S50000x128, .f32⟩ : BufTy).Contents (Elt F)),
    StableHlo.unary main_arg15 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v129 main_v132 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v133 (broadcastInDim S128 ![] bcast_S_S128 : (⟨S_, .f32⟩ : BufTy).Contents (Elt F) → (⟨S128, .f32⟩ : BufTy).Contents (Elt F)),
    StableHlo.binary main_v126 main_v133 main_v134 (addf : (⟨S128, .f32⟩ : BufTy).Contents (Elt F) → (⟨S128, .f32⟩ : BufTy).Contents (Elt F) → (⟨S128, .f32⟩ : BufTy).Contents (Elt F)),
    StableHlo.unary main_v134 main_v135 (Host.rsqrt : (⟨S128, .f32⟩ : BufTy).Contents (Elt F) → (⟨S128, .f32⟩ : BufTy).Contents (Elt F)),
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_arg16 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v140 main_v141 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- The last linear map over the three rounds' results side by side, and the clip (statements 174 … 180). -/
abbrev LF : List (HloOp τ sig (Elt F)) :=
  [ StableHlo.nary ![main_v49, main_v95, main_v141] main_v142 (fun u => concatenate S50000x384 1 [⟨S50000x128, u 0⟩, ⟨S50000x128, u 1⟩, ⟨S50000x128, u 2⟩] concatenates_S50000x128_S50000x128_S50000x128_S50000x384_d1),
    StableHlo.unary main_arg17 main_v143 ((transpose S384x128 [1, 0] · transposes_S128x384_S384x128_1_0) : (⟨S128x384, .f32⟩ : BufTy).Contents (Elt F) → (⟨S384x128, .f32⟩ : BufTy).Contents (Elt F)),
    StableHlo.binary main_v142 main_v143 main_v144 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg18 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v146 main_v147 (addf : (⟨S50000x128, .f32⟩ : BufTy).Contents (Elt F) → (⟨S50000x128, .f32⟩ : BufTy).Contents (Elt F) → (⟨S50000x128, .f32⟩ : BufTy).Contents (Elt F)),
    StableHlo.nullary main_call6_cst (constant S_ .f32 0x00000000#32),
    StableHlo.unary main_call6_cst main_call6_v0 ((broadcastInDim S50000x128 ![] bcast_S_S50000x128) : (⟨S_, .f32⟩ : BufTy).Contents (Elt F) → (⟨S50000x128, .f32⟩ : BufTy).Contents (Elt F)),
    StableHlo.binary main_v147 main_call6_v0 main_v148 (maximumf : (⟨S50000x128, .f32⟩ : BufTy).Contents (Elt F) → (⟨S50000x128, .f32⟩ : BufTy).Contents (Elt F) → (⟨S50000x128, .f32⟩ : BufTy).Contents (Elt F)) ]

/-- @main's operations, in order. -/
abbrev ops : List (HloOp τ sig (Elt F)) := L1 ++ (L2 ++ (L3a ++ (L3b ++ LF)))

set_option maxRecDepth 8192 in
set_option maxHeartbeats 4000000 in
theorem part0_eq (c : Dev nD) : main_part0 (F := F) c = seq L1 := by
  simp only [main_part0, fn_relu.body, fn_var.body, fn_where.body, seq, bind_assoc, pure_bind]
  rfl

set_option maxRecDepth 8192 in
set_option maxHeartbeats 4000000 in
theorem part1_eq (c : Dev nD) : main_part1 (F := F) c = seq (L2 ++ L3a) := by
  simp only [main_part1, fn_relu.body, fn_var.body, fn_where.body, seq, bind_assoc, pure_bind, List.cons_append, List.nil_append]
  try rfl

set_option maxRecDepth 8192 in
set_option maxHeartbeats 4000000 in
theorem part2_eq (c : Dev nD) : main_part2 (F := F) c = seq (L3b ++ LF) := by
  simp only [main_part2, fn_relu.body, fn_var.body, fn_where.body, seq, bind_assoc, pure_bind, List.cons_append, List.nil_append]
  try rfl

/-- @main is that straight line: its three windows one after the other. -/
theorem main_eq (c : Dev nD) : main (F := F) c = seq ops := by
  rw [show (ops (F := F)) = L1 ++ ((L2 ++ L3a) ++ (L3b ++ LF)) by simp only [ops, List.append_assoc], seq_append, seq_append,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem L1_sub : (L1 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub ..⟩

theorem L2_sub : (L2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    unary_bufs_sub .., binary_bufs_sub .., unary_bufs_sub .., unary_bufs_sub .., binary_bufs_sub .., unary_bufs_sub ..,
    binary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub ..⟩

theorem L3a_sub : (L3a : List (HloOp τ sig (Elt F))).Forall fun op => op.bufs ⊆ tcRefs τ sig :=
  ⟨nullary_bufs_sub .., unary_bufs_sub .., binary_bufs_sub .., nullary_bufs_sub ..⟩

theorem L3b_sub : (L3b : List (HloOp τ sig (Elt F))).Forall fun op => op.bufs ⊆ tcRefs τ sig :=
  ⟨unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., unary_bufs_sub .., binary_bufs_sub .., unary_bufs_sub .., unary_bufs_sub ..,
    binary_bufs_sub .., unary_bufs_sub .., binary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub ..⟩

theorem LF_sub : (LF : List (HloOp τ sig (Elt F))).Forall fun op => op.bufs ⊆ tcRefs τ sig :=
  ⟨nary_bufs_sub .., unary_bufs_sub .., binary_bufs_sub .., unary_bufs_sub .., unary_bufs_sub .., binary_bufs_sub ..,
    nullary_bufs_sub .., unary_bufs_sub .., binary_bufs_sub ..⟩

theorem L1_fresh : (L1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem L2_fresh : (L2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem L3a_fresh : (L3a : List (HloOp τ sig (Elt F))).Forall fun op => op.fresh = ∅ :=
  ⟨rfl, rfl, rfl, rfl⟩

theorem L3b_fresh : (L3b : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem LF_fresh : (LF : List (HloOp τ sig (Elt F))).Forall fun op => op.fresh = ∅ :=
  ⟨rfl, rfl, rfl, rfl, rfl, rfl, rfl, rfl, rfl⟩

theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.1 L1_sub op h
  · exact List.forall_iff_forall_mem.1 L2_sub op h
  · exact List.forall_iff_forall_mem.1 L3a_sub op h
  · exact List.forall_iff_forall_mem.1 L3b_sub op h
  · exact List.forall_iff_forall_mem.1 LF_sub op h

theorem ops_fresh : ∀ op ∈ (ops : List (HloOp τ sig (Elt F))), op.fresh = ∅ := by
  intro op h
  simp only [ops, List.mem_append] at h
  rcases h with h | h | h | h | h
  · exact List.forall_iff_forall_mem.1 L1_fresh op h
  · exact List.forall_iff_forall_mem.1 L2_fresh op h
  · exact List.forall_iff_forall_mem.1 L3a_fresh op h
  · exact List.forall_iff_forall_mem.1 L3b_fresh op h
  · exact List.forall_iff_forall_mem.1 LF_fresh op h

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over @main's operations, round by round. -/
theorem after_ops (V : Valuation τ sig (Elt F)) :
    after ops V = after LF (after L3b (after L3a (after L2 (after L1 V)))) := by
  simp only [ops, after_append]

/-- On every device, for any float values, from any memory with zero counters: every weakly fair execution of
    @main terminates with each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefSide

end
-- ==== Proof.RefMath.lean ====
/- The reference's host operations as whole-array terms over VARIABLES — the neighbourhood average, one round after
   it (two linear maps, bias, clip, column statistics, normalisation), the last linear map — and each read index by
   index as the program-free specification's sums (Spec.lean). -/
import proofs.«147097_j73383811219611_1_alg».proof.Proof.Spec
import proofs.«147097_j73383811219611_1_alg».proof.Proof.Gen.ReferenceIdeal
import Idealize.ShloMosaic.Lib.StackMember
import Idealize.ShloMosaic.Lib.Pipeline.Value
import Idealize.ShloMosaic.Lib.ValueLayout
import Idealize.ShloMosaic.PureOps.Ideal.Laws

noncomputable section

namespace Cert.RefSide

open Cert.ReferenceIdeal Cert.ReferenceIdeal.Gen Idealize.ShloMosaic Idealize.ShloMosaic.ValueIdx Idealize.ShloMosaic.StackMember Cert.Gnn

/-! ## The whole-array terms -/

/-- the edge list's first row: the source node of every edge -/
def srcT (ei : IVec S2x800000 32) : IVec S800000 32 :=
  shapeCast S800000 (extractStridedSlice S1x800000 ![0, 0] ei slices_S2x800000_S1x800000_0_0) shapeCasts_S1x800000_S800000

/-- the edge list's second row: the target node of every edge -/
def dstT (ei : IVec S2x800000 32) : IVec S800000 32 :=
  shapeCast S800000 (extractStridedSlice S1x800000 ![1, 0] ei slices_S2x800000_S1x800000_1_0) shapeCasts_S1x800000_S800000

/-- The neighbourhood average over given source and target rows: gather the sources' features (a negative index
    wrapped once), add them up at the targets, divide by the number of edges arriving there (at least one). -/
def aggT (v1 v3 : IVec S800000 32) (X : FVec Ideal S50000x128 .f32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 v3)
      (Host.gather gather_S50000x128_S800000x1_S800000x128_1_0_n_n_0_1_1128 X
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))))
    (broadcastInDim S50000x128 ![0, 1] bcast_S50000x1_S50000x128_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 v3)
          (broadcastInDim S800000x1 ![] bcast_S_S800000x1 (constant S_ .f32 0x3F800000#32)))
        (broadcastInDim S50000x1 ![] bcast_S_S50000x1 (constant S_ .f32 0x3F800000#32))))

/-- The reference's neighbourhood average of `X` along the edge list `ei`. -/
def aggR (ei : S2x800000.Idx → BitVec 32) (X : SN.Idx → EReal) : SN.Idx → EReal :=
  aggT (srcT ei) (dstT ei) X

/-- a per-channel vector laid along every node's row (two broadcasts) -/
abbrev rowsT (v : FVec Ideal S128 .f32) : FVec Ideal S50000x128 .f32 :=
  broadcastInDim S50000x128 ![0, 1] bcast_S1x128_S50000x128_0_1 (broadcastInDim S1x128 ![1] bcast_S128_S1x128_1 v)

/-- the two linear maps, the bias after the first, the clip -/
def yT (A X : FVec Ideal S50000x128 .f32) (Wl : FVec Ideal S128x128 .f32) (bl : FVec Ideal S128 .f32) (Wr : FVec Ideal S128x128 .f32) :
    FVec Ideal S50000x128 .f32 :=
  maximumf
    (addf
      (addf (Host.dotGeneral dot_S50000x128_S128x128_S50000x128_1_0_0_1_n_n none A (transpose S128x128 [1, 0] Wl transposes_S128x128_S128x128_1_0))
        (rowsT bl))
      (Host.dotGeneral dot_S50000x128_S128x128_S50000x128_1_0_0_1_n_n none X (transpose S128x128 [1, 0] Wr transposes_S128x128_S128x128_1_0)))
    (broadcastInDim S50000x128 ![] bcast_S_S50000x128 (constant S_ .f32 0x00000000#32))

/-- the column sums -/
def sumT (y : FVec Ideal S50000x128 .f32) : FVec Ideal S128 .f32 :=
  Host.reduceAdd y (constant S_ .f32 0x00000000#32) reducesTo_S50000x128_S128_d0 h_S_

/-- the column means -/
def meanT (y : FVec Ideal S50000x128 .f32) : FVec Ideal S128 .f32 :=
  Host.divf (sumT y) (broadcastInDim S128 ![] bcast_S_S128 (constant S_ .f32 0x47435000#32))

/-- every entry less its column's mean, as the variance computes it -/
def devT (y : FVec Ideal S50000x128 .f32) : FVec Ideal S50000x128 .f32 :=
  subf y (broadcastInDim S50000x128 ![0, 1] bcast_S1x128_S50000x128_0_1
    (Host.divf (broadcastInDim S1x128 ![1] bcast_S128_S1x128_1 (sumT y))
      (broadcastInDim S1x128 ![] bcast_S_S1x128 (constant S_ .f32 0x47435000#32))))

/-- the variance's divisor: the number of nodes less the correction zero -/
def cntT : FVec Ideal S_ .f32 :=
  subf (constant S_ .f32 0x47435000#32) (sitofp .f32 (constantI S_ 32 0#32))

/-- the column variances: the mean of the squared deviations where the divisor is positive -/
def varT (y : FVec Ideal S50000x128 .f32) : FVec Ideal S128 .f32 :=
  select (broadcastInDim S128 ![] bcast_S_S128 (cmpf .ogt cntT (constant S_ .f32 0x00000000#32)))
    (Host.divf (sumT (mulf (devT y) (devT y))) (broadcastInDim S128 ![] bcast_S_S128 cntT))
    (broadcastInDim S128 ![] bcast_S_S128 (id (constant S_ .f32 0x7FC00000#32)))

/-- normalise, scale, shift -/
def bnT (y : FVec Ideal S50000x128 .f32) (g b : FVec Ideal S128 .f32) : FVec Ideal S50000x128 .f32 :=
  addf
    (mulf (mulf (rowsT g) (subf y (rowsT (meanT y))))
      (rowsT (Host.rsqrt (addf (varT y) (broadcastInDim S128 ![] bcast_S_S128 (constant S_ .f32 0x3727C5AC#32))))))
    (rowsT b)

/-- one round after the neighbourhood average `A` of `X` -/
def roundT (A X : FVec Ideal S50000x128 .f32) (Wl : FVec Ideal S128x128 .f32) (bl : FVec Ideal S128 .f32) (Wr : FVec Ideal S128x128 .f32)
    (g b : FVec Ideal S128 .f32) : FVec Ideal S50000x128 .f32 :=
  bnT (yT A X Wl bl Wr) g b

/-- the last linear map over the three rounds' results side by side, the bias, the clip -/
def finT (X1 X2 X3 : FVec Ideal S50000x128 .f32) (Wlin : FVec Ideal S128x384 .f32) (blin : FVec Ideal S128 .f32) :
    FVec Ideal S50000x128 .f32 :=
  maximumf
    (addf
      (Host.dotGeneral dot_S50000x384_S384x128_S50000x128_1_0_0_1_n_n none
        (concatenate S50000x384 1 [⟨S50000x128, X1⟩, ⟨S50000x128, X2⟩, ⟨S50000x128, X3⟩] concatenates_S50000x128_S50000x128_S50000x128_S50000x384_d1)
        (transpose S384x128 [1, 0] Wlin transposes_S128x384_S384x128_1_0))
      (rowsT blin))
    (broadcastInDim S50000x128 ![] bcast_S_S50000x128 (constant S_ .f32 0x00000000#32))

/-! ## Read at an index -/

theorem rowsT_apply (v : FVec Ideal S128 .f32) (p : Fin 50000) (q : Fin 128) : rowsT v (ix2 p q) = v (ix1 q) := by
  show broadcastInDim S50000x128 ![0, 1] bcast_S1x128_S50000x128_0_1 (broadcastInDim S1x128 ![1] bcast_S128_S1x128_1 v) (ix2 p q) = _
  rw [broadcastInDim_apply ![0, 1] bcast_S1x128_S50000x128_0_1 _ (ix2 p q) (ix2 (0 : Fin 1) q)
    (fun a => match a with | ⟨0, _⟩ => rfl | ⟨1, _⟩ => rfl)]
  exact broadcastInDim_apply ![1] bcast_S128_S1x128_1 v (ix2 (0 : Fin 1) q) (ix1 q) (fun a => match a with | ⟨0, _⟩ => rfl)

/-- the matrix product of node features by a transposed weight matrix: a sum over the 128 input channels -/
theorem dotT_apply (A : FVec Ideal S50000x128 .f32) (W : FVec Ideal S128x128 .f32) (p : Fin 50000) (q : Fin 128) :
    Host.dotGeneral dot_S50000x128_S128x128_S50000x128_1_0_0_1_n_n none A (transpose S128x128 [1, 0] W transposes_S128x128_S128x128_1_0) (ix2 p q)
      = ∑ k : Fin 128, A (ix2 p k) * W (ix2 q k) := by
  have h := dotGeneral_plain_apply (m := 50000) (n := 128) (k := 128) none A (transpose S128x128 [1, 0] W transposes_S128x128_S128x128_1_0) p q
  refine Eq.trans h (Finset.sum_congr rfl fun c _ => ?_)
  rw [transpose_ix2_apply]

theorem sumT_apply (y : FVec Ideal S50000x128 .f32) (q : Fin 128) : sumT y (ix1 q) = ∑ r : Fin 50000, y (ix2 r q) := by
  have hR : S50000x128.Reduces [0] S128 := by decide
  show Ideal.hostReduceAdd reducesTo_S50000x128_S128_d0 y (Ideal.ofBits .f32 0x00000000#32) (ix1 q) = _
  rw [Ideal.hostReduceAdd_single reducesTo_S50000x128_S128_d0 hR, Ideal.ofBits_zero_f32, zero_add]
  refine Finset.sum_congr rfl fun r _ => congrArg y ?_
  funext c
  apply Fin.ext
  match c with
  | ⟨0, _⟩ => rfl
  | ⟨1, _⟩ => rfl

theorem meanT_apply (y : FVec Ideal S50000x128 .f32) (q : Fin 128) :
    meanT y (ix1 q) = Ideal.div (∑ r : Fin 50000, y (ix2 r q)) cN := by
  show Ideal.div (sumT y (ix1 q)) (Ideal.ofBits .f32 0x47435000#32) = _
  rw [sumT_apply]

theorem devT_apply (y : FVec Ideal S50000x128 .f32) (p : Fin 50000) (q : Fin 128) :
    devT y (ix2 p q) = y (ix2 p q) - Ideal.div (∑ r : Fin 50000, y (ix2 r q)) cN := by
  unfold devT
  rw [subf_apply, broadcastInDim_apply ![0, 1] bcast_S1x128_S50000x128_0_1 _ (ix2 p q) (ix2 (0 : Fin 1) q)
    (fun a => match a with | ⟨0, _⟩ => rfl | ⟨1, _⟩ => rfl)]
  show _ - Ideal.div (broadcastInDim S1x128 ![1] bcast_S128_S1x128_1 (sumT y) (ix2 (0 : Fin 1) q)) (Ideal.ofBits .f32 0x47435000#32) = _
  rw [broadcastInDim_apply ![1] bcast_S128_S1x128_1 (sumT y) (ix2 (0 : Fin 1) q) (ix1 q) (fun a => match a with | ⟨0, _⟩ => rfl), sumT_apply]

/-- the f32 word of 50000.0 -/
theorem cN_eq : cN = ((50000 : ℝ) : EReal) := by
  simp [cN, Ideal.ofBits, Ideal.ieee, -EReal.coe_mul]; norm_num

theorem cN_pos : (0 : EReal) < cN := by
  rw [cN_eq]; exact_mod_cast (by norm_num : (0 : ℝ) < 50000)

theorem cntT_apply (i : S_.Idx) : cntT i = cN := by
  show Ideal.ofBits .f32 0x47435000#32 - (((0#32 : BitVec 32).toInt : ℝ) : EReal) = _
  simp

theorem varT_apply (y : FVec Ideal S50000x128 .f32) (q : Fin 128) :
    varT y (ix1 q) = Ideal.div (∑ r : Fin 50000, devT y (ix2 r q) * devT y (ix2 r q)) cN := by
  unfold varT
  rw [select_apply]
  have hc : broadcastInDim S128 ![] bcast_S_S128 (cmpf .ogt cntT (constant S_ .f32 0x00000000#32)) (ix1 q) = 1#1 := by
    show Ideal.cmp .ogt (cntT _) (Ideal.ofBits .f32 0x00000000#32) = 1#1
    rw [cntT_apply, Ideal.ofBits_zero_f32]
    simp [Ideal.cmp, cN_pos]
  rw [hc, select_one]
  show Ideal.div (sumT (mulf (devT y) (devT y)) (ix1 q)) (cntT _) = _
  rw [sumT_apply, cntT_apply]
  rfl

theorem yT_apply (A X : FVec Ideal S50000x128 .f32) (Wl : FVec Ideal S128x128 .f32) (bl : FVec Ideal S128 .f32) (Wr : FVec Ideal S128x128 .f32)
    (p : Fin 50000) (q : Fin 128) : yT A X Wl bl Wr (ix2 p q) = actR A X Wl Wr bl p q := by
  unfold yT actR
  rw [maximumf_apply, addf_apply, addf_apply, dotT_apply, dotT_apply, rowsT_apply]
  rfl

theorem bnT_apply (y : FVec Ideal S50000x128 .f32) (Y : Fin 50000 → Fin 128 → EReal) (hy : ∀ r j, y (ix2 r j) = Y r j)
    (g b : FVec Ideal S128 .f32) (p : Fin 50000) (q : Fin 128) :
    bnT y g b (ix2 p q) = bn Y (mean Y) (varR Y) g b p q := by
  have hm : ∀ j : Fin 128, Ideal.div (∑ r : Fin 50000, y (ix2 r j)) cN = mean Y j := fun j => by
    unfold mean colSum; simp only [hy]
  have hv : varT y (ix1 q) = varR Y q := by
    rw [varT_apply]; unfold varR colSum
    simp only [devT_apply, hy]
    rfl
  unfold bnT bn
  rw [addf_apply, mulf_apply, mulf_apply, subf_apply, rowsT_apply, rowsT_apply, rowsT_apply, rowsT_apply, meanT_apply, hm, hy]
  show _ * _ * Ideal.rsqrt (varT y (ix1 q) + Ideal.ofBits .f32 0x3727C5AC#32) + _ = _
  rw [hv]

/-- One round's host operations are the specification's round, centred-squares spelling. -/
theorem roundT_eq (A X : FVec Ideal S50000x128 .f32) (Wl : FVec Ideal S128x128 .f32) (bl : FVec Ideal S128 .f32) (Wr : FVec Ideal S128x128 .f32)
    (g b : FVec Ideal S128 .f32) :
    roundT A X Wl bl Wr g b = tab (bn (actR A X Wl Wr bl) (mean (actR A X Wl Wr bl)) (varR (actR A X Wl Wr bl)) g b) := by
  funext i
  obtain ⟨p, q, rfl⟩ : ∃ (p : Fin 50000) (q : Fin 128), i = ix2 p q := ⟨i 0, i 1, eq_ix2 i⟩
  exact bnT_apply _ _ (yT_apply A X Wl bl Wr) g b p q

/-- the three rounds' results side by side, read at a node and one of the 384 channels -/
theorem catT_apply (X1 X2 X3 : FVec Ideal S50000x128 .f32) (p : Fin 50000) (c : Fin 384) :
    concatenate S50000x384 1 [⟨S50000x128, X1⟩, ⟨S50000x128, X2⟩, ⟨S50000x128, X3⟩] concatenates_S50000x128_S50000x128_S50000x128_S50000x384_d1 (ix2 p c)
      = cat3 X1 X2 X3 p c := by
  unfold cat3
  split
  · next h1 =>
    exact concatenate_apply_piece (t := S50000x384) (1 : Fin 2) [⟨S50000x128, X1⟩, ⟨S50000x128, X2⟩, ⟨S50000x128, X3⟩] concatenates_S50000x128_S50000x128_S50000x128_S50000x384_d1 (ix2 p c) 0 (by simp) S50000x128 X1 rfl rfl 0 rfl
      (ix2 p ⟨c.val, h1⟩) (fun b hb => match b with | ⟨0, _⟩ => rfl | ⟨1, _⟩ => absurd rfl hb) (Nat.zero_add _)
  · next h1 =>
    split
    · next h2 =>
      exact concatenate_apply_piece (t := S50000x384) (1 : Fin 2) [⟨S50000x128, X1⟩, ⟨S50000x128, X2⟩, ⟨S50000x128, X3⟩] concatenates_S50000x128_S50000x128_S50000x128_S50000x384_d1 (ix2 p c) 1 (by simp) S50000x128 X2 rfl rfl 128 rfl
        (ix2 p ⟨c.val - 128, by omega⟩) (fun b hb => match b with | ⟨0, _⟩ => rfl | ⟨1, _⟩ => absurd rfl hb)
        (by show 128 + (c.val - 128) = c.val; omega)
    · next h2 =>
      exact concatenate_apply_piece (t := S50000x384) (1 : Fin 2) [⟨S50000x128, X1⟩, ⟨S50000x128, X2⟩, ⟨S50000x128, X3⟩] concatenates_S50000x128_S50000x128_S50000x128_S50000x384_d1 (ix2 p c) 2 (by simp) S50000x128 X3 rfl rfl 256 rfl
        (ix2 p ⟨c.val - 256, by have := c.isLt; omega⟩) (fun b hb => match b with | ⟨0, _⟩ => rfl | ⟨1, _⟩ => absurd rfl hb)
        (by show 256 + (c.val - 256) = c.val; omega)

/-- The last layer's host operations are the specification's, one product over all 384 channels. -/
theorem finT_eq (X1 X2 X3 : FVec Ideal S50000x128 .f32) (Wlin : FVec Ideal S128x384 .f32) (blin : FVec Ideal S128 .f32) :
    finT X1 X2 X3 Wlin blin = finR X1 X2 X3 Wlin blin := by
  funext i
  obtain ⟨p, q, rfl⟩ : ∃ (p : Fin 50000) (q : Fin 128), i = ix2 p q := ⟨i 0, i 1, eq_ix2 i⟩
  unfold finT finR
  rw [maximumf_apply, addf_apply, rowsT_apply]
  have h := dotGeneral_plain_apply (m := 50000) (n := 128) (k := 384) none
    (concatenate S50000x384 1 [⟨S50000x128, X1⟩, ⟨S50000x128, X2⟩, ⟨S50000x128, X3⟩] concatenates_S50000x128_S50000x128_S50000x128_S50000x384_d1)
    (transpose S384x128 [1, 0] Wlin transposes_S128x384_S384x128_1_0) p q
  have h' : Host.dotGeneral dot_S50000x384_S384x128_S50000x128_1_0_0_1_n_n none
      (concatenate S50000x384 1 [⟨S50000x128, X1⟩, ⟨S50000x128, X2⟩, ⟨S50000x128, X3⟩] concatenates_S50000x128_S50000x128_S50000x128_S50000x384_d1)
      (transpose S384x128 [1, 0] Wlin transposes_S128x384_S384x128_1_0) (ix2 p q)
        = ∑ k : Fin 384, cat3 X1 X2 X3 p k * Wlin (ix2 q k) :=
    Eq.trans h (Finset.sum_congr rfl fun c _ => by rw [catT_apply, transpose_ix2_apply])
  rw [h']
  rfl

/-- The specification's round over the reference's neighbourhood average is the round's host operations. -/
theorem layerR_eq (agg : (SN.Idx → EReal) → SN.Idx → EReal) (X : SN.Idx → EReal) (Wl : SW.Idx → EReal) (bl : SV.Idx → EReal)
    (Wr : SW.Idx → EReal) (g b : SV.Idx → EReal) :
    layerR agg X Wl bl Wr g b = roundT (agg X) X Wl bl Wr g b := by
  rw [roundT_eq]; rfl

end Cert.RefSide

end
-- ==== Proof.RefValue.lean ====
/- The reference's run read as the program-free specification: each round's operations, folded over any contents,
   leave the round's whole-array term (RefMath.lean) at the round's result and what the later rounds read unchanged;
   composed, the result buffer holds the specification's network over the reference's neighbourhood average. -/
import proofs.«147097_j73383811219611_1_alg».proof.Proof.RefRun
import proofs.«147097_j73383811219611_1_alg».proof.Proof.RefMath

noncomputable section

namespace Cert.RefSide

open Cert.ReferenceIdeal Cert.ReferenceIdeal.Gen Idealize.ShloMosaic Idealize.ShloMosaic.TcCoe Idealize.SL.Sem Idealize.ShloMosaic.StableHlo Cert.Gnn

/-! ## Round one -/

attribute [local irreducible] Host.gather Host.scatterAdd Host.reduceAdd in
set_option maxRecDepth 8192 in
set_option maxHeartbeats 2000000 in
theorem read1 (V : Valuation τ sig (Elt Ideal)) :
    after L1 V (main_v49 : DevRef τ sig)
      = roundT (aggT (srcT (V (main_arg1 : DevRef τ sig))) (dstT (V (main_arg1 : DevRef τ sig))) (V (main_arg0 : DevRef τ sig))) (V (main_arg0 : DevRef τ sig))
          (V (main_arg2 : DevRef τ sig)) (V (main_arg3 : DevRef τ sig)) (V (main_arg4 : DevRef τ sig)) (V (main_arg5 : DevRef τ sig)) (V (main_arg6 : DevRef τ sig)) := by
  after_results_simp
  rfl

theorem read1_v1 (V : Valuation τ sig (Elt Ideal)) : after L1 V (main_v1 : DevRef τ sig) = srcT (V (main_arg1 : DevRef τ sig)) := by
  after_results_simp
  rfl

theorem read1_v3 (V : Valuation τ sig (Elt Ideal)) : after L1 V (main_v3 : DevRef τ sig) = dstT (V (main_arg1 : DevRef τ sig)) := by
  after_results_simp
  rfl

theorem keep1_arg0 (V : Valuation τ sig (Elt Ideal)) :
    after L1 V (main_arg0 : DevRef τ sig) = V (main_arg0 : DevRef τ sig) := by
  after_results_simp
theorem keep1_arg1 (V : Valuation τ sig (Elt Ideal)) :
    after L1 V (main_arg1 : DevRef τ sig) = V (main_arg1 : DevRef τ sig) := by
  after_results_simp
theorem keep1_arg2 (V : Valuation τ sig (Elt Ideal)) :
    after L1 V (main_arg2 : DevRef τ sig) = V (main_arg2 : DevRef τ sig) := by
  after_results_simp
theorem keep1_arg3 (V : Valuation τ sig (Elt Ideal)) :
    after L1 V (main_arg3 : DevRef τ sig) = V (main_arg3 : DevRef τ sig) := by
  after_results_simp
theorem keep1_arg4 (V : Valuation τ sig (Elt Ideal)) :
    after L1 V (main_arg4 : DevRef τ sig) = V (main_arg4 : DevRef τ sig) := by
  after_results_simp
theorem keep1_arg5 (V : Valuation τ sig (Elt Ideal)) :
    after L1 V (main_arg5 : DevRef τ sig) = V (main_arg5 : DevRef τ sig) := by
  after_results_simp
theorem keep1_arg6 (V : Valuation τ sig (Elt Ideal)) :
    after L1 V (main_arg6 : DevRef τ sig) = V (main_arg6 : DevRef τ sig) := by
  after_results_simp
theorem keep1_arg7 (V : Valuation τ sig (Elt Ideal)) :
    after L1 V (main_arg7 : DevRef τ sig) = V (main_arg7 : DevRef τ sig) := by
  after_results_simp
theorem keep1_arg8 (V : Valuation τ sig (Elt Ideal)) :
    after L1 V (main_arg8 : DevRef τ sig) = V (main_arg8 : DevRef τ sig) := by
  after_results_simp
theorem keep1_arg9 (V : Valuation τ sig (Elt Ideal)) :
    after L1 V (main_arg9 : DevRef τ sig) = V (main_arg9 : DevRef τ sig) := by
  after_results_simp
theorem keep1_arg10 (V : Valuation τ sig (Elt Ideal)) :
    after L1 V (main_arg10 : DevRef τ sig) = V (main_arg10 : DevRef τ sig) := by
  after_results_simp
theorem keep1_arg11 (V : Valuation τ sig (Elt Ideal)) :
    after L1 V (main_arg11 : DevRef τ sig) = V (main_arg11 : DevRef τ sig) := by
  after_results_simp
theorem keep1_arg12 (V : Valuation τ sig (Elt Ideal)) :
    after L1 V (main_arg12 : DevRef τ sig) = V (main_arg12 : DevRef τ sig) := by
  after_results_simp
theorem keep1_arg13 (V : Valuation τ sig (Elt Ideal)) :
    after L1 V (main_arg13 : DevRef τ sig) = V (main_arg13 : DevRef τ sig) := by
  after_results_simp
theorem keep1_arg14 (V : Valuation τ sig (Elt Ideal)) :
    after L1 V (main_arg14 : DevRef τ sig) = V (main_arg14 : DevRef τ sig) := by
  after_results_simp
theorem keep1_arg15 (V : Valuation τ sig (Elt Ideal)) :
    after L1 V (main_arg15 : DevRef τ sig) = V (main_arg15 : DevRef τ sig) := by
  after_results_simp
theorem keep1_arg16 (V : Valuation τ sig (Elt Ideal)) :
    after L1 V (main_arg16 : DevRef τ sig) = V (main_arg16 : DevRef τ sig) := by
  after_results_simp
theorem keep1_arg17 (V : Valuation τ sig (Elt Ideal)) :
    after L1 V (main_arg17 : DevRef τ sig) = V (main_arg17 : DevRef τ sig) := by
  after_results_simp
theorem keep1_arg18 (V : Valuation τ sig (Elt Ideal)) :
    after L1 V (main_arg18 : DevRef τ sig) = V (main_arg18 : DevRef τ sig) := by
  after_results_simp

/-! ## Round two -/

attribute [local irreducible] Host.gather Host.scatterAdd Host.reduceAdd in
set_option maxRecDepth 8192 in
set_option maxHeartbeats 2000000 in
theorem read2 (V : Valuation τ sig (Elt Ideal)) :
    after L2 V (main_v95 : DevRef τ sig)
      = roundT (aggT (V (main_v1 : DevRef τ sig)) (V (main_v3 : DevRef τ sig)) (V (main_v49 : DevRef τ sig))) (V (main_v49 : DevRef τ sig))
          (V (main_arg7 : DevRef τ sig)) (V (main_arg8 : DevRef τ sig)) (V (main_arg9 : DevRef τ sig)) (V (main_arg10 : DevRef τ sig)) (V (main_arg11 : DevRef τ sig)) := by
  after_results_simp
  rfl

theorem keep2_v1 (V : Valuation τ sig (Elt Ideal)) :
    after L2 V (main_v1 : DevRef τ sig) = V (main_v1 : DevRef τ sig) := by
  after_results_simp
theorem keep2_v3 (V : Valuation τ sig (Elt Ideal)) :
    after L2 V (main_v3 : DevRef τ sig) = V (main_v3 : DevRef τ sig) := by
  after_results_simp
theorem keep2_v49 (V : Valuation τ sig (Elt Ideal)) :
    after L2 V (main_v49 : DevRef τ sig) = V (main_v49 : DevRef τ sig) := by
  after_results_simp
theorem keep2_arg0 (V : Valuation τ sig (Elt Ideal)) :
    after L2 V (main_arg0 : DevRef τ sig) = V (main_arg0 : DevRef τ sig) := by
  after_results_simp
theorem keep2_arg1 (V : Valuation τ sig (Elt Ideal)) :
    after L2 V (main_arg1 : DevRef τ sig) = V (main_arg1 : DevRef τ sig) := by
  after_results_simp
theorem keep2_arg2 (V : Valuation τ sig (Elt Ideal)) :
    after L2 V (main_arg2 : DevRef τ sig) = V (main_arg2 : DevRef τ sig) := by
  after_results_simp
theorem keep2_arg3 (V : Valuation τ sig (Elt Ideal)) :
    after L2 V (main_arg3 : DevRef τ sig) = V (main_arg3 : DevRef τ sig) := by
  after_results_simp
theorem keep2_arg4 (V : Valuation τ sig (Elt Ideal)) :
    after L2 V (main_arg4 : DevRef τ sig) = V (main_arg4 : DevRef τ sig) := by
  after_results_simp
theorem keep2_arg5 (V : Valuation τ sig (Elt Ideal)) :
    after L2 V (main_arg5 : DevRef τ sig) = V (main_arg5 : DevRef τ sig) := by
  after_results_simp
theorem keep2_arg6 (V : Valuation τ sig (Elt Ideal)) :
    after L2 V (main_arg6 : DevRef τ sig) = V (main_arg6 : DevRef τ sig) := by
  after_results_simp
theorem keep2_arg7 (V : Valuation τ sig (Elt Ideal)) :
    after L2 V (main_arg7 : DevRef τ sig) = V (main_arg7 : DevRef τ sig) := by
  after_results_simp
theorem keep2_arg8 (V : Valuation τ sig (Elt Ideal)) :
    after L2 V (main_arg8 : DevRef τ sig) = V (main_arg8 : DevRef τ sig) := by
  after_results_simp
theorem keep2_arg9 (V : Valuation τ sig (Elt Ideal)) :
    after L2 V (main_arg9 : DevRef τ sig) = V (main_arg9 : DevRef τ sig) := by
  after_results_simp
theorem keep2_arg10 (V : Valuation τ sig (Elt Ideal)) :
    after L2 V (main_arg10 : DevRef τ sig) = V (main_arg10 : DevRef τ sig) := by
  after_results_simp
theorem keep2_arg11 (V : Valuation τ sig (Elt Ideal)) :
    after L2 V (main_arg11 : DevRef τ sig) = V (main_arg11 : DevRef τ sig) := by
  after_results_simp
theorem keep2_arg12 (V : Valuation τ sig (Elt Ideal)) :
    after L2 V (main_arg12 : DevRef τ sig) = V (main_arg12 : DevRef τ sig) := by
  after_results_simp
theorem keep2_arg13 (V : Valuation τ sig (Elt Ideal)) :
    after L2 V (main_arg13 : DevRef τ sig) = V (main_arg13 : DevRef τ sig) := by
  after_results_simp
theorem keep2_arg14 (V : Valuation τ sig (Elt Ideal)) :
    after L2 V (main_arg14 : DevRef τ sig) = V (main_arg14 : DevRef τ sig) := by
  after_results_simp
theorem keep2_arg15 (V : Valuation τ sig (Elt Ideal)) :
    after L2 V (main_arg15 : DevRef τ sig) = V (main_arg15 : DevRef τ sig) := by
  after_results_simp
theorem keep2_arg16 (V : Valuation τ sig (Elt Ideal)) :
    after L2 V (main_arg16 : DevRef τ sig) = V (main_arg16 : DevRef τ sig) := by
  after_results_simp
theorem keep2_arg17 (V : Valuation τ sig (Elt Ideal)) :
    after L2 V (main_arg17 : DevRef τ sig) = V (main_arg17 : DevRef τ sig) := by
  after_results_simp
theorem keep2_arg18 (V : Valuation τ sig (Elt Ideal)) :
    after L2 V (main_arg18 : DevRef τ sig) = V (main_arg18 : DevRef τ sig) := by
  after_results_simp

/-! ## Round three -/

attribute [local irreducible] Host.gather Host.scatterAdd Host.reduceAdd in
set_option maxRecDepth 8192 in
set_option maxHeartbeats 2000000 in
theorem read3 (V : Valuation τ sig (Elt Ideal)) :
    after L3b (after L3a V) (main_v141 : DevRef τ sig)
      = roundT (aggT (V (main_v1 : DevRef τ sig)) (V (main_v3 : DevRef τ sig)) (V (main_v95 : DevRef τ sig))) (V (main_v95 : DevRef τ sig))
          (V (main_arg12 : DevRef τ sig)) (V (main_arg13 : DevRef τ sig)) (V (main_arg14 : DevRef τ sig)) (V (main_arg15 : DevRef τ sig)) (V (main_arg16 : DevRef τ sig)) := by
  after_results_simp
  rfl

theorem keep3_v49 (V : Valuation τ sig (Elt Ideal)) :
    after L3b (after L3a V) (main_v49 : DevRef τ sig) = V (main_v49 : DevRef τ sig) := by
  after_results_simp
theorem keep3_v95 (V : Valuation τ sig (Elt Ideal)) :
    after L3b (after L3a V) (main_v95 : DevRef τ sig) = V (main_v95 : DevRef τ sig) := by
  after_results_simp
theorem keep3_arg0 (V : Valuation τ sig (Elt Ideal)) :
    after L3b (after L3a V) (main_arg0 : DevRef τ sig) = V (main_arg0 : DevRef τ sig) := by
  after_results_simp
theorem keep3_arg1 (V : Valuation τ sig (Elt Ideal)) :
    after L3b (after L3a V) (main_arg1 : DevRef τ sig) = V (main_arg1 : DevRef τ sig) := by
  after_results_simp
theorem keep3_arg2 (V : Valuation τ sig (Elt Ideal)) :
    after L3b (after L3a V) (main_arg2 : DevRef τ sig) = V (main_arg2 : DevRef τ sig) := by
  after_results_simp
theorem keep3_arg3 (V : Valuation τ sig (Elt Ideal)) :
    after L3b (after L3a V) (main_arg3 : DevRef τ sig) = V (main_arg3 : DevRef τ sig) := by
  after_results_simp
theorem keep3_arg4 (V : Valuation τ sig (Elt Ideal)) :
    after L3b (after L3a V) (main_arg4 : DevRef τ sig) = V (main_arg4 : DevRef τ sig) := by
  after_results_simp
theorem keep3_arg5 (V : Valuation τ sig (Elt Ideal)) :
    after L3b (after L3a V) (main_arg5 : DevRef τ sig) = V (main_arg5 : DevRef τ sig) := by
  after_results_simp
theorem keep3_arg6 (V : Valuation τ sig (Elt Ideal)) :
    after L3b (after L3a V) (main_arg6 : DevRef τ sig) = V (main_arg6 : DevRef τ sig) := by
  after_results_simp
theorem keep3_arg7 (V : Valuation τ sig (Elt Ideal)) :
    after L3b (after L3a V) (main_arg7 : DevRef τ sig) = V (main_arg7 : DevRef τ sig) := by
  after_results_simp
theorem keep3_arg8 (V : Valuation τ sig (Elt Ideal)) :
    after L3b (after L3a V) (main_arg8 : DevRef τ sig) = V (main_arg8 : DevRef τ sig) := by
  after_results_simp
theorem keep3_arg9 (V : Valuation τ sig (Elt Ideal)) :
    after L3b (after L3a V) (main_arg9 : DevRef τ sig) = V (main_arg9 : DevRef τ sig) := by
  after_results_simp
theorem keep3_arg10 (V : Valuation τ sig (Elt Ideal)) :
    after L3b (after L3a V) (main_arg10 : DevRef τ sig) = V (main_arg10 : DevRef τ sig) := by
  after_results_simp
theorem keep3_arg11 (V : Valuation τ sig (Elt Ideal)) :
    after L3b (after L3a V) (main_arg11 : DevRef τ sig) = V (main_arg11 : DevRef τ sig) := by
  after_results_simp
theorem keep3_arg12 (V : Valuation τ sig (Elt Ideal)) :
    after L3b (after L3a V) (main_arg12 : DevRef τ sig) = V (main_arg12 : DevRef τ sig) := by
  after_results_simp
theorem keep3_arg13 (V : Valuation τ sig (Elt Ideal)) :
    after L3b (after L3a V) (main_arg13 : DevRef τ sig) = V (main_arg13 : DevRef τ sig) := by
  after_results_simp
theorem keep3_arg14 (V : Valuation τ sig (Elt Ideal)) :
    after L3b (after L3a V) (main_arg14 : DevRef τ sig) = V (main_arg14 : DevRef τ sig) := by
  after_results_simp
theorem keep3_arg15 (V : Valuation τ sig (Elt Ideal)) :
    after L3b (after L3a V) (main_arg15 : DevRef τ sig) = V (main_arg15 : DevRef τ sig) := by
  after_results_simp
theorem keep3_arg16 (V : Valuation τ sig (Elt Ideal)) :
    after L3b (after L3a V) (main_arg16 : DevRef τ sig) = V (main_arg16 : DevRef τ sig) := by
  after_results_simp
theorem keep3_arg17 (V : Valuation τ sig (Elt Ideal)) :
    after L3b (after L3a V) (main_arg17 : DevRef τ sig) = V (main_arg17 : DevRef τ sig) := by
  after_results_simp
theorem keep3_arg18 (V : Valuation τ sig (Elt Ideal)) :
    after L3b (after L3a V) (main_arg18 : DevRef τ sig) = V (main_arg18 : DevRef τ sig) := by
  after_results_simp

/-! ## The last layer -/

set_option maxRecDepth 8192 in
theorem readF (V : Valuation τ sig (Elt Ideal)) :
    after LF V (main_v148 : DevRef τ sig)
      = finT (V (main_v49 : DevRef τ sig)) (V (main_v95 : DevRef τ sig)) (V (main_v141 : DevRef τ sig)) (V (main_arg17 : DevRef τ sig)) (V (main_arg18 : DevRef τ sig)) := by
  after_results_simp
  rfl

theorem keepF_arg0 (V : Valuation τ sig (Elt Ideal)) :
    after LF V (main_arg0 : DevRef τ sig) = V (main_arg0 : DevRef τ sig) := by
  after_results_simp
theorem keepF_arg1 (V : Valuation τ sig (Elt Ideal)) :
    after LF V (main_arg1 : DevRef τ sig) = V (main_arg1 : DevRef τ sig) := by
  after_results_simp
theorem keepF_arg2 (V : Valuation τ sig (Elt Ideal)) :
    after LF V (main_arg2 : DevRef τ sig) = V (main_arg2 : DevRef τ sig) := by
  after_results_simp
theorem keepF_arg3 (V : Valuation τ sig (Elt Ideal)) :
    after LF V (main_arg3 : DevRef τ sig) = V (main_arg3 : DevRef τ sig) := by
  after_results_simp
theorem keepF_arg4 (V : Valuation τ sig (Elt Ideal)) :
    after LF V (main_arg4 : DevRef τ sig) = V (main_arg4 : DevRef τ sig) := by
  after_results_simp
theorem keepF_arg5 (V : Valuation τ sig (Elt Ideal)) :
    after LF V (main_arg5 : DevRef τ sig) = V (main_arg5 : DevRef τ sig) := by
  after_results_simp
theorem keepF_arg6 (V : Valuation τ sig (Elt Ideal)) :
    after LF V (main_arg6 : DevRef τ sig) = V (main_arg6 : DevRef τ sig) := by
  after_results_simp
theorem keepF_arg7 (V : Valuation τ sig (Elt Ideal)) :
    after LF V (main_arg7 : DevRef τ sig) = V (main_arg7 : DevRef τ sig) := by
  after_results_simp
theorem keepF_arg8 (V : Valuation τ sig (Elt Ideal)) :
    after LF V (main_arg8 : DevRef τ sig) = V (main_arg8 : DevRef τ sig) := by
  after_results_simp
theorem keepF_arg9 (V : Valuation τ sig (Elt Ideal)) :
    after LF V (main_arg9 : DevRef τ sig) = V (main_arg9 : DevRef τ sig) := by
  after_results_simp
theorem keepF_arg10 (V : Valuation τ sig (Elt Ideal)) :
    after LF V (main_arg10 : DevRef τ sig) = V (main_arg10 : DevRef τ sig) := by
  after_results_simp
theorem keepF_arg11 (V : Valuation τ sig (Elt Ideal)) :
    after LF V (main_arg11 : DevRef τ sig) = V (main_arg11 : DevRef τ sig) := by
  after_results_simp
theorem keepF_arg12 (V : Valuation τ sig (Elt Ideal)) :
    after LF V (main_arg12 : DevRef τ sig) = V (main_arg12 : DevRef τ sig) := by
  after_results_simp
theorem keepF_arg13 (V : Valuation τ sig (Elt Ideal)) :
    after LF V (main_arg13 : DevRef τ sig) = V (main_arg13 : DevRef τ sig) := by
  after_results_simp
theorem keepF_arg14 (V : Valuation τ sig (Elt Ideal)) :
    after LF V (main_arg14 : DevRef τ sig) = V (main_arg14 : DevRef τ sig) := by
  after_results_simp
theorem keepF_arg15 (V : Valuation τ sig (Elt Ideal)) :
    after LF V (main_arg15 : DevRef τ sig) = V (main_arg15 : DevRef τ sig) := by
  after_results_simp
theorem keepF_arg16 (V : Valuation τ sig (Elt Ideal)) :
    after LF V (main_arg16 : DevRef τ sig) = V (main_arg16 : DevRef τ sig) := by
  after_results_simp
theorem keepF_arg17 (V : Valuation τ sig (Elt Ideal)) :
    after LF V (main_arg17 : DevRef τ sig) = V (main_arg17 : DevRef τ sig) := by
  after_results_simp
theorem keepF_arg18 (V : Valuation τ sig (Elt Ideal)) :
    after LF V (main_arg18 : DevRef τ sig) = V (main_arg18 : DevRef τ sig) := by
  after_results_simp

/-! ## Composed -/

theorem keep_arg0 (V : Valuation τ sig (Elt Ideal)) : after ops V (main_arg0 : DevRef τ sig) = V (main_arg0 : DevRef τ sig) := by
  rw [after_ops, keepF_arg0, keep3_arg0, keep2_arg0, keep1_arg0]
theorem keep_arg1 (V : Valuation τ sig (Elt Ideal)) : after ops V (main_arg1 : DevRef τ sig) = V (main_arg1 : DevRef τ sig) := by
  rw [after_ops, keepF_arg1, keep3_arg1, keep2_arg1, keep1_arg1]
theorem keep_arg2 (V : Valuation τ sig (Elt Ideal)) : after ops V (main_arg2 : DevRef τ sig) = V (main_arg2 : DevRef τ sig) := by
  rw [after_ops, keepF_arg2, keep3_arg2, keep2_arg2, keep1_arg2]
theorem keep_arg3 (V : Valuation τ sig (Elt Ideal)) : after ops V (main_arg3 : DevRef τ sig) = V (main_arg3 : DevRef τ sig) := by
  rw [after_ops, keepF_arg3, keep3_arg3, keep2_arg3, keep1_arg3]
theorem keep_arg4 (V : Valuation τ sig (Elt Ideal)) : after ops V (main_arg4 : DevRef τ sig) = V (main_arg4 : DevRef τ sig) := by
  rw [after_ops, keepF_arg4, keep3_arg4, keep2_arg4, keep1_arg4]
theorem keep_arg5 (V : Valuation τ sig (Elt Ideal)) : after ops V (main_arg5 : DevRef τ sig) = V (main_arg5 : DevRef τ sig) := by
  rw [after_ops, keepF_arg5, keep3_arg5, keep2_arg5, keep1_arg5]
theorem keep_arg6 (V : Valuation τ sig (Elt Ideal)) : after ops V (main_arg6 : DevRef τ sig) = V (main_arg6 : DevRef τ sig) := by
  rw [after_ops, keepF_arg6, keep3_arg6, keep2_arg6, keep1_arg6]
theorem keep_arg7 (V : Valuation τ sig (Elt Ideal)) : after ops V (main_arg7 : DevRef τ sig) = V (main_arg7 : DevRef τ sig) := by
  rw [after_ops, keepF_arg7, keep3_arg7, keep2_arg7, keep1_arg7]
theorem keep_arg8 (V : Valuation τ sig (Elt Ideal)) : after ops V (main_arg8 : DevRef τ sig) = V (main_arg8 : DevRef τ sig) := by
  rw [after_ops, keepF_arg8, keep3_arg8, keep2_arg8, keep1_arg8]
theorem keep_arg9 (V : Valuation τ sig (Elt Ideal)) : after ops V (main_arg9 : DevRef τ sig) = V (main_arg9 : DevRef τ sig) := by
  rw [after_ops, keepF_arg9, keep3_arg9, keep2_arg9, keep1_arg9]
theorem keep_arg10 (V : Valuation τ sig (Elt Ideal)) : after ops V (main_arg10 : DevRef τ sig) = V (main_arg10 : DevRef τ sig) := by
  rw [after_ops, keepF_arg10, keep3_arg10, keep2_arg10, keep1_arg10]
theorem keep_arg11 (V : Valuation τ sig (Elt Ideal)) : after ops V (main_arg11 : DevRef τ sig) = V (main_arg11 : DevRef τ sig) := by
  rw [after_ops, keepF_arg11, keep3_arg11, keep2_arg11, keep1_arg11]
theorem keep_arg12 (V : Valuation τ sig (Elt Ideal)) : after ops V (main_arg12 : DevRef τ sig) = V (main_arg12 : DevRef τ sig) := by
  rw [after_ops, keepF_arg12, keep3_arg12, keep2_arg12, keep1_arg12]
theorem keep_arg13 (V : Valuation τ sig (Elt Ideal)) : after ops V (main_arg13 : DevRef τ sig) = V (main_arg13 : DevRef τ sig) := by
  rw [after_ops, keepF_arg13, keep3_arg13, keep2_arg13, keep1_arg13]
theorem keep_arg14 (V : Valuation τ sig (Elt Ideal)) : after ops V (main_arg14 : DevRef τ sig) = V (main_arg14 : DevRef τ sig) := by
  rw [after_ops, keepF_arg14, keep3_arg14, keep2_arg14, keep1_arg14]
theorem keep_arg15 (V : Valuation τ sig (Elt Ideal)) : after ops V (main_arg15 : DevRef τ sig) = V (main_arg15 : DevRef τ sig) := by
  rw [after_ops, keepF_arg15, keep3_arg15, keep2_arg15, keep1_arg15]
theorem keep_arg16 (V : Valuation τ sig (Elt Ideal)) : after ops V (main_arg16 : DevRef τ sig) = V (main_arg16 : DevRef τ sig) := by
  rw [after_ops, keepF_arg16, keep3_arg16, keep2_arg16, keep1_arg16]
theorem keep_arg17 (V : Valuation τ sig (Elt Ideal)) : after ops V (main_arg17 : DevRef τ sig) = V (main_arg17 : DevRef τ sig) := by
  rw [after_ops, keepF_arg17, keep3_arg17, keep2_arg17, keep1_arg17]
theorem keep_arg18 (V : Valuation τ sig (Elt Ideal)) : after ops V (main_arg18 : DevRef τ sig) = V (main_arg18 : DevRef τ sig) := by
  rw [after_ops, keepF_arg18, keep3_arg18, keep2_arg18, keep1_arg18]

/-- The fold of all of @main's operations leaves, at the result buffer, the specification's network (centred-squares
    spelling, one 384-wide product) over the reference's neighbourhood average of the launch contents. -/
theorem out_eq (V : Valuation τ sig (Elt Ideal)) :
    after ops V (main_v148 : DevRef τ sig)
      = outR (aggR (V (main_arg1 : DevRef τ sig))) (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [after_ops, readF, keep3_v49, keep3_v95, read3, keep3_arg17, keep3_arg18]
  rw [keep2_v1, keep2_v3, read2, keep2_v49, keep2_arg12, keep2_arg13, keep2_arg14, keep2_arg15, keep2_arg16, keep2_arg17, keep2_arg18]
  rw [read1, read1_v1, read1_v3, keep1_arg7, keep1_arg8, keep1_arg9, keep1_arg10, keep1_arg11, keep1_arg12, keep1_arg13, keep1_arg14,
    keep1_arg15, keep1_arg16, keep1_arg17, keep1_arg18]
  rw [finT_eq]
  simp only [outR, layerR_eq, aggR]

/-- On every device, from any memory with zero counters: every weakly fair execution of the reference's @main terminates
    with the result buffer at the specification's network over the reference's neighbourhood average of the arguments,
    and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread _ _).loc Cert.ReferenceIdeal.main_v148)
          = Cert.Gnn.outR (aggR (m ((c.tc : Thread _ _).loc Cert.ReferenceIdeal.main_arg1)))
              (m ((c.tc : Thread _ _).loc Cert.ReferenceIdeal.main_arg0))
              (m ((c.tc : Thread _ _).loc Cert.ReferenceIdeal.main_arg2))
              (m ((c.tc : Thread _ _).loc Cert.ReferenceIdeal.main_arg3))
              (m ((c.tc : Thread _ _).loc Cert.ReferenceIdeal.main_arg4))
              (m ((c.tc : Thread _ _).loc Cert.ReferenceIdeal.main_arg5))
              (m ((c.tc : Thread _ _).loc Cert.ReferenceIdeal.main_arg6))
              (m ((c.tc : Thread _ _).loc Cert.ReferenceIdeal.main_arg7))
              (m ((c.tc : Thread _ _).loc Cert.ReferenceIdeal.main_arg8))
              (m ((c.tc : Thread _ _).loc Cert.ReferenceIdeal.main_arg9))
              (m ((c.tc : Thread _ _).loc Cert.ReferenceIdeal.main_arg10))
              (m ((c.tc : Thread _ _).loc Cert.ReferenceIdeal.main_arg11))
              (m ((c.tc : Thread _ _).loc Cert.ReferenceIdeal.main_arg12))
              (m ((c.tc : Thread _ _).loc Cert.ReferenceIdeal.main_arg13))
              (m ((c.tc : Thread _ _).loc Cert.ReferenceIdeal.main_arg14))
              (m ((c.tc : Thread _ _).loc Cert.ReferenceIdeal.main_arg15))
              (m ((c.tc : Thread _ _).loc Cert.ReferenceIdeal.main_arg16))
              (m ((c.tc : Thread _ _).loc Cert.ReferenceIdeal.main_arg17))
              (m ((c.tc : Thread _ _).loc Cert.ReferenceIdeal.main_arg18))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5)
        ∧ r.2.mem ((c.tc : Thread _ _).loc Cert.ReferenceIdeal.main_arg6) = m ((c.tc : Thread _ _).loc Cert.ReferenceIdeal.main_arg6)
        ∧ r.2.mem ((c.tc : Thread _ _).loc Cert.ReferenceIdeal.main_arg7) = m ((c.tc : Thread _ _).loc Cert.ReferenceIdeal.main_arg7)
        ∧ r.2.mem ((c.tc : Thread _ _).loc Cert.ReferenceIdeal.main_arg8) = m ((c.tc : Thread _ _).loc Cert.ReferenceIdeal.main_arg8)
        ∧ r.2.mem ((c.tc : Thread _ _).loc Cert.ReferenceIdeal.main_arg9) = m ((c.tc : Thread _ _).loc Cert.ReferenceIdeal.main_arg9)
        ∧ r.2.mem ((c.tc : Thread _ _).loc Cert.ReferenceIdeal.main_arg10) = m ((c.tc : Thread _ _).loc Cert.ReferenceIdeal.main_arg10)
        ∧ r.2.mem ((c.tc : Thread _ _).loc Cert.ReferenceIdeal.main_arg11) = m ((c.tc : Thread _ _).loc Cert.ReferenceIdeal.main_arg11)
        ∧ r.2.mem ((c.tc : Thread _ _).loc Cert.ReferenceIdeal.main_arg12) = m ((c.tc : Thread _ _).loc Cert.ReferenceIdeal.main_arg12)
        ∧ r.2.mem ((c.tc : Thread _ _).loc Cert.ReferenceIdeal.main_arg13) = m ((c.tc : Thread _ _).loc Cert.ReferenceIdeal.main_arg13)
        ∧ r.2.mem ((c.tc : Thread _ _).loc Cert.ReferenceIdeal.main_arg14) = m ((c.tc : Thread _ _).loc Cert.ReferenceIdeal.main_arg14)
        ∧ r.2.mem ((c.tc : Thread _ _).loc Cert.ReferenceIdeal.main_arg15) = m ((c.tc : Thread _ _).loc Cert.ReferenceIdeal.main_arg15)
        ∧ r.2.mem ((c.tc : Thread _ _).loc Cert.ReferenceIdeal.main_arg16) = m ((c.tc : Thread _ _).loc Cert.ReferenceIdeal.main_arg16)
        ∧ r.2.mem ((c.tc : Thread _ _).loc Cert.ReferenceIdeal.main_arg17) = m ((c.tc : Thread _ _).loc Cert.ReferenceIdeal.main_arg17)
        ∧ r.2.mem ((c.tc : Thread _ _).loc Cert.ReferenceIdeal.main_arg18) = m ((c.tc : Thread _ _).loc Cert.ReferenceIdeal.main_arg18)) :=
  (θ_run _ _ _).mono (fun _ h c =>
      ⟨(h c main_v148).trans (out_eq (launchContents m c)),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c)),
       (h c main_arg6).trans (keep_arg6 (launchContents m c)),
       (h c main_arg7).trans (keep_arg7 (launchContents m c)),
       (h c main_arg8).trans (keep_arg8 (launchContents m c)),
       (h c main_arg9).trans (keep_arg9 (launchContents m c)),
       (h c main_arg10).trans (keep_arg10 (launchContents m c)),
       (h c main_arg11).trans (keep_arg11 (launchContents m c)),
       (h c main_arg12).trans (keep_arg12 (launchContents m c)),
       (h c main_arg13).trans (keep_arg13 (launchContents m c)),
       (h c main_arg14).trans (keep_arg14 (launchContents m c)),
       (h c main_arg15).trans (keep_arg15 (launchContents m c)),
       (h c main_arg16).trans (keep_arg16 (launchContents m c)),
       (h c main_arg17).trans (keep_arg17 (launchContents m c)),
       (h c main_arg18).trans (keep_arg18 (launchContents m c))⟩)
    (run_after m ρ)

end Cert.RefSide

end
-- ==== Proof.Consts.lean ====
/-
  The three float constants the programs spell, as the extended reals their bit patterns denote:
  the node count 50000, zero, and the positive guard added to the variance.
-/
import proofs.«147097_j73383811219611_1_alg».proof.Proof.Spec

noncomputable section

namespace Cert.Gnn

open Idealize.ShloMosaic

/-- The word of `50000.0` denotes the real number 50000 : `(2^23 + 4411392) · 2^(142 - 127 - 23) = 50000`. -/
theorem cN_eq : cN = ((50000 : ℝ) : EReal) := by
  simp [cN, Ideal.ofBits, Ideal.ieee, -EReal.coe_mul]; norm_num

/-- The all-zero word denotes zero. -/
theorem cZ_eq : cZ = 0 := by
  simp [cZ, Ideal.ofBits, Ideal.ieee]

/-- The guard's word denotes a positive real number (`(2^23 + 2606508) · 2^(110 - 127 - 23)`). -/
theorem cEps_pos : ∃ e : ℝ, 0 < e ∧ cEps = (e : EReal) := by
  refine ⟨(10995116 : ℝ) * (2 : ℝ) ^ (-40 : Int), by positivity, ?_⟩
  simp [cEps, Ideal.ofBits, Ideal.ieee, -EReal.coe_mul]

end Cert.Gnn

end
-- ==== Proof.AlgebraReal.lean ====
/-
  Real-number facts behind the two spellings of a column's variance, and the passage of finite sums
  from the reals to the extended reals.
-/
import Idealize.ShloMosaic.PureOps.Ideal

noncomputable section

namespace Cert.Gnn

/-- For `N` real numbers with mean `μ`, the mean of the squared deviations from `μ` is the mean of the
    squares minus `μ²` : expand `(y − μ)² = y² − 2μy + μ²`, sum, and use `Σy = Nμ` and that there are `N` terms. -/
theorem var_identity {ι : Type} (s : Finset ι) (y : ι → ℝ) (N : ℝ) (hN : N ≠ 0) (hc : (s.card : ℝ) = N) :
    (∑ i ∈ s, (y i - (∑ i ∈ s, y i) * (1 / N)) * (y i - (∑ i ∈ s, y i) * (1 / N))) * (1 / N)
      = (∑ i ∈ s, y i * y i) * (1 / N) - ((∑ i ∈ s, y i) * (1 / N)) * ((∑ i ∈ s, y i) * (1 / N)) := by
  generalize hS : ∑ i ∈ s, y i = S
  generalize hμ : S * (1 / N) = μ
  have h1 : ∑ i ∈ s, (y i - μ) * (y i - μ) = ∑ i ∈ s, y i * y i - 2 * μ * S + N * (μ * μ) := by
    have h2 : ∀ i, (y i - μ) * (y i - μ) = y i * y i - 2 * μ * y i + μ * μ := fun i => by ring
    simp only [h2]
    rw [Finset.sum_add_distrib, Finset.sum_sub_distrib, ← Finset.mul_sum, Finset.sum_const, nsmul_eq_mul, hc, hS]
  rw [h1, ← hμ]
  field_simp
  ring

/-- The mean of squared deviations is not negative. -/
theorem var_nonneg {ι : Type} (s : Finset ι) (y : ι → ℝ) (N : ℝ) (hN : 0 < N) (μ : ℝ) :
    0 ≤ (∑ i ∈ s, (y i - μ) * (y i - μ)) * (1 / N) :=
  mul_nonneg (Finset.sum_nonneg fun i _ => mul_self_nonneg _) (by positivity)

/-- A finite sum of real numbers, read in the extended reals, is the sum read there term by term. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Gnn

end
-- ==== Proof.AlgebraLayer.lean ====
/-
  One round on finite data: both spellings compute the same real numbers.
  The pre-normalisation table `y` is real (finite sums and products of reals, clipped at zero); then the column mean is
  real, the two variances are the same real number (the mean of squares minus the squared mean is the mean of the squared
  deviations, for 50000 terms divided by 50000), that number is not negative, and so the guarded inverse square root is
  a real number too.
-/
import proofs.«147097_j73383811219611_1_alg».proof.Proof.Spec
import proofs.«147097_j73383811219611_1_alg».proof.Proof.Consts
import proofs.«147097_j73383811219611_1_alg».proof.Proof.AlgebraReal

noncomputable section

namespace Cert.Gnn

open Idealize.ShloMosaic Idealize.ShloMosaic.ValueIdx

/-- Data that is finite everywhere is a real table read in the extended reals. -/
theorem Fin_.exists_real {ι : Type} {f : ι → EReal} (h : Fin_ f) : ∃ f' : ι → ℝ, f = fun i => ((f' i : ℝ) : EReal) := by
  choose f' hf' using h
  exact ⟨f', funext hf'⟩

/-- Adding the bias before or after the second product is the same: addition is commutative and associative. -/
theorem actR_eq_actK (A X : SN.Idx → EReal) (Wl Wr : SW.Idx → EReal) (bl : SV.Idx → EReal) :
    actR A X Wl Wr bl = actK A X Wl Wr bl := by
  funext r j
  simp only [actR, actK]
  rw [add_right_comm]

/-- The larger of two real numbers, read in the extended reals. -/
theorem coe_max' (a b : ℝ) : max (a : EReal) (b : EReal) = ((max a b : ℝ) : EReal) :=
  (EReal.coe_strictMono.monotone.map_max).symm

/-- On finite inputs the pre-normalisation table is real. -/
theorem actK_real (A X : SN.Idx → EReal) (Wl Wr : SW.Idx → EReal) (bl : SV.Idx → EReal)
    (hA : Fin_ A) (hX : Fin_ X) (hWl : Fin_ Wl) (hWr : Fin_ Wr) (hbl : Fin_ bl) :
    ∃ y : Fin 50000 → Fin 128 → ℝ, actK A X Wl Wr bl = fun r j => ((y r j : ℝ) : EReal) := by
  obtain ⟨A', rfl⟩ := hA.exists_real
  obtain ⟨X', rfl⟩ := hX.exists_real
  obtain ⟨Wl', rfl⟩ := hWl.exists_real
  obtain ⟨Wr', rfl⟩ := hWr.exists_real
  obtain ⟨bl', rfl⟩ := hbl.exists_real
  refine ⟨fun r j => max ((∑ k : Fin 128, A' (ix2 r k) * Wl' (ix2 j k) + ∑ k : Fin 128, X' (ix2 r k) * Wr' (ix2 j k))
    + bl' (ix1 j)) 0, ?_⟩
  funext r j
  simp only [actK]
  rw [cZ_eq, ← EReal.coe_zero]
  simp only [← EReal.coe_mul, coe_sum, ← EReal.coe_add, coe_max']

/-- Division of a real number by the node count. -/
theorem div_cN (x : ℝ) : Ideal.div (x : EReal) cN = ((x * (1 / 50000) : ℝ) : EReal) := by
  rw [cN_eq, Ideal.div_coe (by norm_num), ← EReal.coe_mul]

/-- The column mean of a real table. -/
theorem mean_real (y : Fin 50000 → Fin 128 → ℝ) (j : Fin 128) :
    mean (fun r j => ((y r j : ℝ) : EReal)) j = (((∑ r : Fin 50000, y r j) * (1 / 50000) : ℝ) : EReal) := by
  simp only [mean, colSum, coe_sum, div_cN]

/-- The mean of squares minus the squared mean, of a real table. -/
theorem varK_real (y : Fin 50000 → Fin 128 → ℝ) (j : Fin 128) :
    varK (fun r j => ((y r j : ℝ) : EReal)) j
      = (((∑ r : Fin 50000, y r j * y r j) * (1 / 50000)
          - ((∑ r : Fin 50000, y r j) * (1 / 50000)) * ((∑ r : Fin 50000, y r j) * (1 / 50000)) : ℝ) : EReal) := by
  simp only [varK, mean, colSum, ← EReal.coe_mul, coe_sum, div_cN, ← EReal.coe_sub]

/-- The mean of the squared deviations from the mean, of a real table. -/
theorem varR_real (y : Fin 50000 → Fin 128 → ℝ) (j : Fin 128) :
    varR (fun r j => ((y r j : ℝ) : EReal)) j
      = (((∑ r : Fin 50000, (y r j - (∑ r : Fin 50000, y r j) * (1 / 50000)) * (y r j - (∑ r : Fin 50000, y r j) * (1 / 50000)))
          * (1 / 50000) : ℝ) : EReal) := by
  simp only [varR, mean, colSum, ← EReal.coe_mul, coe_sum, div_cN, ← EReal.coe_sub]

/-- There are 50000 nodes. -/
theorem card_nodes : ((Finset.univ : Finset (Fin 50000)).card : ℝ) = 50000 := by
  rw [Finset.card_univ, Fintype.card_fin]; norm_num

/-- On a real table the two variances agree. -/
theorem varR_eq_varK_real (y : Fin 50000 → Fin 128 → ℝ) :
    varR (fun r j => ((y r j : ℝ) : EReal)) = varK (fun r j => ((y r j : ℝ) : EReal)) := by
  funext j
  rw [varR_real, varK_real]
  exact congrArg _ (var_identity Finset.univ (fun r => y r j) 50000 (by norm_num) card_nodes)

/-- The variance of a real table is a real number that is not negative. -/
theorem varK_fin (y : Fin 50000 → Fin 128 → ℝ) (j : Fin 128) :
    ∃ v : ℝ, 0 ≤ v ∧ varK (fun r j => ((y r j : ℝ) : EReal)) j = (v : EReal) := by
  refine ⟨_, ?_, varK_real y j⟩
  exact le_of_le_of_eq
    (var_nonneg Finset.univ (fun r => y r j) 50000 (by norm_num) ((∑ r : Fin 50000, y r j) * (1 / 50000)))
    (var_identity Finset.univ (fun r => y r j) 50000 (by norm_num) card_nodes)

/-- The inverse square root of a positive real number is a real number. -/
theorem rsqrt_pos_real {v : ℝ} (hv : 0 < v) : Ideal.rsqrt (v : EReal) = (((Real.sqrt v)⁻¹ : ℝ) : EReal) := by
  rw [Ideal.rsqrt_coe, if_neg (not_lt.mpr hv.le), if_neg hv.ne']

/-- One round: on finite inputs the centred-squares spelling equals the sums-of-squares spelling. -/
theorem layerR_eq_layerK (agg : (SN.Idx → EReal) → SN.Idx → EReal) (X : SN.Idx → EReal) (Wl : SW.Idx → EReal)
    (bl : SV.Idx → EReal) (Wr : SW.Idx → EReal) (g b : SV.Idx → EReal)
    (hA : Fin_ (agg X)) (hX : Fin_ X) (hWl : Fin_ Wl) (hbl : Fin_ bl) (hWr : Fin_ Wr) :
    layerR agg X Wl bl Wr g b = layerK agg X Wl bl Wr g b := by
  obtain ⟨y, hy⟩ := actK_real (agg X) X Wl Wr bl hA hX hWl hWr hbl
  unfold layerR layerK
  rw [actR_eq_actK, hy, varR_eq_varK_real]

/-- One round on finite inputs and finite scale and shift gives finite data. -/
theorem layerK_fin (agg : (SN.Idx → EReal) → SN.Idx → EReal) (X : SN.Idx → EReal) (Wl : SW.Idx → EReal)
    (bl : SV.Idx → EReal) (Wr : SW.Idx → EReal) (g b : SV.Idx → EReal)
    (hA : Fin_ (agg X)) (hX : Fin_ X) (hWl : Fin_ Wl) (hbl : Fin_ bl) (hWr : Fin_ Wr) (hg : Fin_ g) (hb : Fin_ b) :
    Fin_ (layerK agg X Wl bl Wr g b) := by
  obtain ⟨y, hy⟩ := actK_real (agg X) X Wl Wr bl hA hX hWl hWr hbl
  obtain ⟨e, he, hce⟩ := cEps_pos
  intro i
  obtain ⟨r, j, rfl⟩ : ∃ (r : Fin 50000) (j : Fin 128), i = ix2 r j := ⟨i 0, i 1, eq_ix2 i⟩
  obtain ⟨gv, hgv⟩ := hg (ix1 j)
  obtain ⟨bv, hbv⟩ := hb (ix1 j)
  obtain ⟨v, hv, hvar⟩ := varK_fin y j
  refine ⟨gv * (y r j - (∑ r : Fin 50000, y r j) * (1 / 50000)) * (Real.sqrt (v + e))⁻¹ + bv, ?_⟩
  unfold layerK
  rw [hy]
  show bn _ _ _ g b r j = _
  simp only [bn]
  rw [mean_real, hvar, hce, hgv, hbv, ← EReal.coe_add, rsqrt_pos_real (by linarith), ← EReal.coe_sub,
    ← EReal.coe_mul, ← EReal.coe_mul, ← EReal.coe_add]

end Cert.Gnn

end
-- ==== Proof.Algebra.lean ====
/-
  The whole network: three rounds and the last linear map.  On finite inputs, with a neighbourhood average that keeps
  finite data finite, the centred-squares spelling with one 384-wide product equals the sums-of-squares spelling with
  three 128-wide products.  Each round's equality needs its input to be finite; the rounds before it supply that.
-/
import proofs.«147097_j73383811219611_1_alg».proof.Proof.Spec
import proofs.«147097_j73383811219611_1_alg».proof.Proof.AlgebraFinal
import proofs.«147097_j73383811219611_1_alg».proof.Proof.AlgebraLayer

noncomputable section

namespace Cert.Gnn

open Idealize.ShloMosaic Idealize.ShloMosaic.ValueIdx

theorem outR_eq_outK (agg : (SN.Idx → EReal) → SN.Idx → EReal) (hagg : ∀ X, Fin_ X → Fin_ (agg X))
    (x : SN.Idx → EReal)
    (Wl1 : SW.Idx → EReal) (bl1 : SV.Idx → EReal) (Wr1 : SW.Idx → EReal) (g1 b1 : SV.Idx → EReal)
    (Wl2 : SW.Idx → EReal) (bl2 : SV.Idx → EReal) (Wr2 : SW.Idx → EReal) (g2 b2 : SV.Idx → EReal)
    (Wl3 : SW.Idx → EReal) (bl3 : SV.Idx → EReal) (Wr3 : SW.Idx → EReal) (g3 b3 : SV.Idx → EReal)
    (Wlin : SL.Idx → EReal) (blin : SV.Idx → EReal)
    (hx : Fin_ x)
    (hWl1 : Fin_ Wl1) (hbl1 : Fin_ bl1) (hWr1 : Fin_ Wr1) (hg1 : Fin_ g1) (hb1 : Fin_ b1)
    (hWl2 : Fin_ Wl2) (hbl2 : Fin_ bl2) (hWr2 : Fin_ Wr2) (hg2 : Fin_ g2) (hb2 : Fin_ b2)
    (hWl3 : Fin_ Wl3) (hbl3 : Fin_ bl3) (hWr3 : Fin_ Wr3) (hg3 : Fin_ g3) (hb3 : Fin_ b3) :
    outR agg x Wl1 bl1 Wr1 g1 b1 Wl2 bl2 Wr2 g2 b2 Wl3 bl3 Wr3 g3 b3 Wlin blin
      = outK agg x Wl1 bl1 Wr1 g1 b1 Wl2 bl2 Wr2 g2 b2 Wl3 bl3 Wr3 g3 b3 Wlin blin := by
  have _ := hg3
  have _ := hb3
  -- round 1
  have e1 : layerR agg x Wl1 bl1 Wr1 g1 b1 = layerK agg x Wl1 bl1 Wr1 g1 b1 :=
    layerR_eq_layerK agg x Wl1 bl1 Wr1 g1 b1 (hagg x hx) hx hWl1 hbl1 hWr1
  have f1 : Fin_ (layerK agg x Wl1 bl1 Wr1 g1 b1) :=
    layerK_fin agg x Wl1 bl1 Wr1 g1 b1 (hagg x hx) hx hWl1 hbl1 hWr1 hg1 hb1
  -- round 2
  have e2 : layerR agg (layerK agg x Wl1 bl1 Wr1 g1 b1) Wl2 bl2 Wr2 g2 b2
      = layerK agg (layerK agg x Wl1 bl1 Wr1 g1 b1) Wl2 bl2 Wr2 g2 b2 :=
    layerR_eq_layerK agg _ Wl2 bl2 Wr2 g2 b2 (hagg _ f1) f1 hWl2 hbl2 hWr2
  have f2 : Fin_ (layerK agg (layerK agg x Wl1 bl1 Wr1 g1 b1) Wl2 bl2 Wr2 g2 b2) :=
    layerK_fin agg _ Wl2 bl2 Wr2 g2 b2 (hagg _ f1) f1 hWl2 hbl2 hWr2 hg2 hb2
  -- round 3
  have e3 : layerR agg (layerK agg (layerK agg x Wl1 bl1 Wr1 g1 b1) Wl2 bl2 Wr2 g2 b2) Wl3 bl3 Wr3 g3 b3
      = layerK agg (layerK agg (layerK agg x Wl1 bl1 Wr1 g1 b1) Wl2 bl2 Wr2 g2 b2) Wl3 bl3 Wr3 g3 b3 :=
    layerR_eq_layerK agg _ Wl3 bl3 Wr3 g3 b3 (hagg _ f2) f2 hWl3 hbl3 hWr3
  unfold outR outK
  rw [e1, e2, e3, finR_eq_finK]

end Cert.Gnn

end
-- ==== Proof.AggFin.lean ====
/-
  The neighbourhood average of a table of real numbers is a table of real numbers: every edge carries a row of reals,
  each node's sum of arriving rows is a finite sum of reals, the count of arrivals is a real number, the larger of
  the count and one is a real number that is at least one, hence not zero, and the quotient of a real number by a
  real number that is not zero is a real number.
-/
import Idealize.ShloMosaic.Lib.IdealHost
import proofs.«147097_j73383811219611_1_alg».proof.Proof.Agg

noncomputable section

namespace Cert.Gnn

open Idealize.ShloMosaic Idealize.ShloMosaic.ValueIdx

/-- A real number plus a finite sum of real numbers is a real number. -/
theorem real_add_sum {ι : Type} (a : ℝ) (S : Finset ι) (f : ι → EReal) (h : Fin_ f) :
    ∃ v : ℝ, (a : EReal) + ∑ j ∈ S, f j = (v : EReal) := by
  classical
  choose g hg using h
  refine ⟨a + ∑ j ∈ S, g j, ?_⟩
  have hs : ∑ j ∈ S, f j = ((∑ j ∈ S, g j : ℝ) : EReal) := by
    induction S using Finset.induction_on with
    | empty => simp
    | insert b s hb ih => rw [Finset.sum_insert hb, Finset.sum_insert hb, EReal.coe_add, ih, hg]
  rw [hs, EReal.coe_add]

/-- Adding rows of reals into a table of reals leaves a table of reals. -/
theorem scatterAdd_fin {s si su : Shape} (d : ScatterDims s si su) {w : Nat} (x : s.Idx → EReal) (idx : IVec si w)
    (upd : su.Idx → EReal) (hx : Fin_ x) (hu : Fin_ upd) :
    Fin_ (Host.scatterAdd (F := Ideal) (φ := .f32) d x idx upd) := by
  intro i
  change ∃ v : ℝ, Ideal.hostScatterAdd d x idx upd i = (v : EReal)
  unfold Ideal.hostScatterAdd
  obtain ⟨a, ha⟩ := hx i
  rw [ha]
  exact real_add_sum a _ upd hu

/-- A constant table is a table of reals when the constant is. -/
theorem bcast_scalar_fin {T : Shape} (bc : S0.BroadcastsInDim T ![]) (x : S0.Idx → EReal) (hx : Fin_ x) :
    Fin_ (broadcastInDim T ![] bc x) := fun _ => hx _

theorem zero_fin : Fin_ (constant (F := Ideal) S0 .f32 0x00000000#32) :=
  fun _ => ⟨0, by change Ideal.ofBits .f32 0x00000000#32 = _; rw [Ideal.ofBits_zero_f32]; rfl⟩

theorem one_fin : Fin_ (constant (F := Ideal) S0 .f32 0x3F800000#32) :=
  fun _ => ⟨1, by change Ideal.ofBits .f32 0x3F800000#32 = _; rw [Ideal.ofBits_one_f32]; rfl⟩

/-- Every edge carries a row of the table: reals, when the table's entries are. -/
theorem edgeMsg_fin (ei : SE.Idx → BitVec 32) (X : SN.Idx → EReal) (h : Fin_ X) : Fin_ (edgeMsg ei X) :=
  fun _ => h _

theorem aggSum_fin (ei : SE.Idx → BitVec 32) (X : SN.Idx → EReal) (h : Fin_ X) : Fin_ (aggSum ei X) :=
  scatterAdd_fin _ _ _ _ (bcast_scalar_fin _ _ zero_fin) (edgeMsg_fin ei X h)

theorem aggCnt_fin (ei : SE.Idx → BitVec 32) : Fin_ (aggCnt ei) :=
  scatterAdd_fin _ _ _ _ (bcast_scalar_fin _ _ zero_fin) (bcast_scalar_fin _ _ one_fin)

/-- The larger of a real number and one is a real number that is not zero. -/
theorem max_one_ne_zero (c : ℝ) : max (c : EReal) 1 = ((max c 1 : ℝ) : EReal)
    ∧ max c 1 ≠ (0 : ℝ) := by
  refine ⟨?_, ?_⟩
  · rw [show (1 : EReal) = ((1 : ℝ) : EReal) by norm_cast]
    exact (EReal.coe_strictMono.monotone.map_max).symm
  · have : (1 : ℝ) ≤ max c 1 := le_max_right _ _
    intro h0; rw [h0] at this; norm_num at this

/-- The quotient of a real number by a real number that is not zero is a real number. -/
theorem div_fin (a b : ℝ) (hb : b ≠ 0) : ∃ v : ℝ, Ideal.div (a : EReal) (b : EReal) = (v : EReal) :=
  ⟨a * (1 / b), by rw [Ideal.div_coe hb, EReal.coe_mul]⟩

/-- A table read through a re-indexing is the table read at some index. -/
theorem bcast_apply_exists {s t : Shape} {α : Type} (dims : Fin s.rank → Fin t.rank) (hb : s.BroadcastsInDim t dims)
    (y : s.Idx → α) (j : t.Idx) : ∃ k, broadcastInDim t dims hb y j = y k := ⟨_, rfl⟩

/-- A table of reals divided, entry by entry, by the larger of a real count and one is a table of reals. -/
theorem avg_fin {s sc : Shape} (dims : Fin sc.rank → Fin s.rank) (hb : sc.BroadcastsInDim s dims)
    (bc : S0.BroadcastsInDim sc ![]) (S : s.Idx → EReal) (C : sc.Idx → EReal) (hS : Fin_ S) (hC : Fin_ C) :
    Fin_ (Host.divf (F := Ideal) (φ := .f32) S
      (broadcastInDim s dims hb
        (maximumf (F := Ideal) (φ := .f32) C
          (broadcastInDim sc ![] bc (constant (F := Ideal) S0 .f32 0x3F800000#32))))) := by
  intro i
  obtain ⟨a, ha⟩ := hS i
  obtain ⟨k, hk⟩ := bcast_apply_exists dims hb
    (maximumf (F := Ideal) (φ := .f32) C (broadcastInDim sc ![] bc (constant (F := Ideal) S0 .f32 0x3F800000#32))) i
  obtain ⟨c, hc⟩ := hC k
  obtain ⟨hm, hne⟩ := max_one_ne_zero c
  obtain ⟨v, hv⟩ := div_fin a (max c 1) hne
  refine ⟨v, ?_⟩
  rw [hostDivf_apply, ha, hk, maximumf_apply, broadcastInDim_scalar_apply, constant_apply, Ideal.ofBits_one_f32, hc, hm]
  exact hv

/-- The neighbourhood average of a table of reals is a table of reals. -/
theorem agg_fin (ei : SE.Idx → BitVec 32) (X : SN.Idx → EReal) (h : Fin_ X) : Fin_ (agg ei X) :=
  avg_fin _ _ _ _ _ (aggSum_fin ei X h) (aggCnt_fin ei)

end Cert.Gnn

end
-- ==== Proof.PreFin.lean ====
/-
  From the precondition to finiteness: the precondition is the conjunction, over the eighteen float arguments, of
  "every entry's absolute value is below plus infinity"; an extended real whose absolute value is below plus infinity
  is a real number.
-/
import proofs.«147097_j73383811219611_1_alg».proof.Pre_finite_inputs
import proofs.«147097_j73383811219611_1_alg».proof.Proof.Gen.Pre_finite_inputs
import proofs.«147097_j73383811219611_1_alg».proof.Defs
import proofs.«147097_j73383811219611_1_alg».proof.Proof.Spec
import Idealize.ShloMosaic.Lib.ReduceAll

noncomputable section

namespace Cert.Gnn

open Idealize.ShloMosaic Idealize.ShloMosaic.ValueIdx

instance subsingleton_scalar_idx : Subsingleton (⟨0, ![]⟩ : Shape).Idx := ⟨fun a b => funext fun d => d.elim0⟩

/-- The word of plus infinity denotes the top element. -/
theorem ofBits_inf_f32 : Ideal.ofBits .f32 0x7F800000#32 = (⊤ : EReal) := by
  simp [Ideal.ofBits, Ideal.ieee]

/-- An extended real whose absolute value `max x (-x)` is below the top element is a real number. -/
theorem real_of_abs_lt_top (x : EReal) (h : max x (-x) < (⊤ : EReal)) : ∃ v : ℝ, x = (v : EReal) := by
  induction x using EReal.rec with
  | bot => simp at h
  | coe v => exact ⟨v, rfl⟩
  | top => simp at h

/-- One conjunct of the precondition, read back: if the test "all entries have absolute value below plus infinity"
    answers one, every entry is a real number. -/
theorem fin_of_all {s : Shape} {axes : List (Fin s.rank)} (x : s.Idx → EReal)
    (bc : (⟨0, ![]⟩ : Shape).BroadcastsInDim s (![] : Fin 0 → Fin s.rank))
    (red : s.ReducesTo axes (⟨0, ![]⟩ : Shape)) (hu : 0 < (⟨0, ![]⟩ : Shape).numel)
    (e : Host.reduce IntOp.andi
          (cmpf (F := Ideal) (φ := .f32) .olt (Host.absf (F := Ideal) (φ := .f32) x)
            (broadcastInDim s ![] bc (constant (F := Ideal) (⟨0, ![]⟩ : Shape) .f32 0x7F800000#32)))
          (constantI (⟨0, ![]⟩ : Shape) 1 1#1) red hu ix0 = 1#1) : Fin_ x := by
  intro i
  have hi := Host.reduce_andi_all _ _ red hu ix0 e i
  change Ideal.cmp .olt (max (x i) (-(x i))) (Ideal.ofBits .f32 0x7F800000#32) = 1#1 at hi
  rw [ofBits_inf_f32] at hi
  have hlt : max (x i) (-(x i)) < (⊤ : EReal) := by
    by_contra hn
    simp [Ideal.cmp, hn] at hi
  exact real_of_abs_lt_top _ hlt

open Cert.Pre_finite_inputs in
/-- The precondition, decoded: each of the eighteen float arguments has only real entries. -/
theorem fin_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Fin_ (ι := Cert.Pre_finite_inputs.S50000x128.Idx) (m ((c.tc : Thread Cert.KernelIdeal.nD Cert.KernelIdeal.τ).loc Cert.KernelIdeal.main_arg0))
      ∧ Fin_ (ι := Cert.Pre_finite_inputs.S128x128.Idx) (m ((c.tc : Thread Cert.KernelIdeal.nD Cert.KernelIdeal.τ).loc Cert.KernelIdeal.main_arg2))
      ∧ Fin_ (ι := Cert.Pre_finite_inputs.S128.Idx) (m ((c.tc : Thread Cert.KernelIdeal.nD Cert.KernelIdeal.τ).loc Cert.KernelIdeal.main_arg3))
      ∧ Fin_ (ι := Cert.Pre_finite_inputs.S128x128.Idx) (m ((c.tc : Thread Cert.KernelIdeal.nD Cert.KernelIdeal.τ).loc Cert.KernelIdeal.main_arg4))
      ∧ Fin_ (ι := Cert.Pre_finite_inputs.S128.Idx) (m ((c.tc : Thread Cert.KernelIdeal.nD Cert.KernelIdeal.τ).loc Cert.KernelIdeal.main_arg5))
      ∧ Fin_ (ι := Cert.Pre_finite_inputs.S128.Idx) (m ((c.tc : Thread Cert.KernelIdeal.nD Cert.KernelIdeal.τ).loc Cert.KernelIdeal.main_arg6))
      ∧ Fin_ (ι := Cert.Pre_finite_inputs.S128x128.Idx) (m ((c.tc : Thread Cert.KernelIdeal.nD Cert.KernelIdeal.τ).loc Cert.KernelIdeal.main_arg7))
      ∧ Fin_ (ι := Cert.Pre_finite_inputs.S128.Idx) (m ((c.tc : Thread Cert.KernelIdeal.nD Cert.KernelIdeal.τ).loc Cert.KernelIdeal.main_arg8))
      ∧ Fin_ (ι := Cert.Pre_finite_inputs.S128x128.Idx) (m ((c.tc : Thread Cert.KernelIdeal.nD Cert.KernelIdeal.τ).loc Cert.KernelIdeal.main_arg9))
      ∧ Fin_ (ι := Cert.Pre_finite_inputs.S128.Idx) (m ((c.tc : Thread Cert.KernelIdeal.nD Cert.KernelIdeal.τ).loc Cert.KernelIdeal.main_arg10))
      ∧ Fin_ (ι := Cert.Pre_finite_inputs.S128.Idx) (m ((c.tc : Thread Cert.KernelIdeal.nD Cert.KernelIdeal.τ).loc Cert.KernelIdeal.main_arg11))
      ∧ Fin_ (ι := Cert.Pre_finite_inputs.S128x128.Idx) (m ((c.tc : Thread Cert.KernelIdeal.nD Cert.KernelIdeal.τ).loc Cert.KernelIdeal.main_arg12))
      ∧ Fin_ (ι := Cert.Pre_finite_inputs.S128.Idx) (m ((c.tc : Thread Cert.KernelIdeal.nD Cert.KernelIdeal.τ).loc Cert.KernelIdeal.main_arg13))
      ∧ Fin_ (ι := Cert.Pre_finite_inputs.S128x128.Idx) (m ((c.tc : Thread Cert.KernelIdeal.nD Cert.KernelIdeal.τ).loc Cert.KernelIdeal.main_arg14))
      ∧ Fin_ (ι := Cert.Pre_finite_inputs.S128.Idx) (m ((c.tc : Thread Cert.KernelIdeal.nD Cert.KernelIdeal.τ).loc Cert.KernelIdeal.main_arg15))
      ∧ Fin_ (ι := Cert.Pre_finite_inputs.S128.Idx) (m ((c.tc : Thread Cert.KernelIdeal.nD Cert.KernelIdeal.τ).loc Cert.KernelIdeal.main_arg16))
      ∧ Fin_ (ι := Cert.Pre_finite_inputs.S128x384.Idx) (m ((c.tc : Thread Cert.KernelIdeal.nD Cert.KernelIdeal.τ).loc Cert.KernelIdeal.main_arg17))
      ∧ Fin_ (ι := Cert.Pre_finite_inputs.S128.Idx) (m ((c.tc : Thread Cert.KernelIdeal.nD Cert.KernelIdeal.τ).loc Cert.KernelIdeal.main_arg18)) := by
  have e := congrFun (h c) ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  simp only [andi, IntOp.andi_eq_one] at e
  obtain ⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩ := e
  exact ⟨fin_of_all _ _ _ _ e0, fin_of_all _ _ _ _ e2, fin_of_all _ _ _ _ e3, fin_of_all _ _ _ _ e4, fin_of_all _ _ _ _ e5, fin_of_all _ _ _ _ e6, fin_of_all _ _ _ _ e7, fin_of_all _ _ _ _ e8, fin_of_all _ _ _ _ e9, fin_of_all _ _ _ _ e10, fin_of_all _ _ _ _ e11, fin_of_all _ _ _ _ e12, fin_of_all _ _ _ _ e13, fin_of_all _ _ _ _ e14, fin_of_all _ _ _ _ e15, fin_of_all _ _ _ _ e16, fin_of_all _ _ _ _ e17, fin_of_all _ _ _ _ e18⟩

end Cert.Gnn

end
-- ==== Proof.lean ====
/-
  The certificate of a three-round graph network on 50000 nodes with 128 channels.

  Both programs compute, three times over, the neighbourhood average of the node features (a gather along the edge
  list, a scatter-add onto the target nodes, a division by the clipped in-degree), the activations
  y = max(A·Wlᵀ + X·Wrᵀ + bl, 0), and their column-wise normalisation g·(y − μ)·(σ² + ε)^(-1/2) + b over the node axis;
  then one linear map of the three rounds' results side by side, clipped below at zero.  The kernel streams the nodes
  in ten blocks of 5000 rows, accumulates the column sums of y and of y² across the blocks and takes
  σ² = E[y²] − E[y]²; the reference takes σ² = E[(y − E y)²] and one product over all 384 channels.

  At the ideal instance the two agree on finite inputs: sums over the extended reals may be regrouped and re-indexed
  freely, and for real data Σ(y − μ)²/N = Σy²/N − μ² with μ = Σy/N and N the number of summands.  Finiteness is what the
  precondition gives, and every round keeps it: an average of reals over a nonzero real count, finite sums of products,
  a maximum with zero, and (σ² + ε)^(-1/2) of a non-negative variance plus a positive ε.

  The three frames: the kernel's at both instances by the generated frame certificates; the reference's is its run with
  the result dropped.  The ideal pass rewrote nothing, so the preservation conjunct is trivial.
-/
import proofs.«147097_j73383811219611_1_alg».proof.Defs
import proofs.«147097_j73383811219611_1_alg».proof.Proof.Gen.Kernel
import proofs.«147097_j73383811219611_1_alg».proof.Proof.Gen.Kernel.Frame
import proofs.«147097_j73383811219611_1_alg».proof.Proof.Gen.KernelIdeal
import proofs.«147097_j73383811219611_1_alg».proof.Proof.Gen.KernelIdeal.Frame
import proofs.«147097_j73383811219611_1_alg».proof.Proof.Gen.ReferenceIdeal
import proofs.«147097_j73383811219611_1_alg».proof.Proof.Gen.Pre_finite_inputs
import proofs.«147097_j73383811219611_1_alg».proof.Proof.KerSide
import proofs.«147097_j73383811219611_1_alg».proof.Proof.RefValue
import proofs.«147097_j73383811219611_1_alg».proof.Proof.Algebra
import proofs.«147097_j73383811219611_1_alg».proof.Proof.AggFin
import proofs.«147097_j73383811219611_1_alg».proof.Proof.PreFin
import proofs.«147097_j73383811219611_1_alg».proof.Proof.AggProg

noncomputable section

namespace Cert.Proof

open Idealize.ShloMosaic Idealize.SL.Sem Cert.Gnn

/-- The reference's neighbourhood average is the kernel's: the same chain of host operations over the edge list. -/
theorem aggR_is_agg : Cert.RefSide.aggR = agg := by
  funext ei X
  exact aggR_eq ei X

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run (Cert.ReferenceIdeal.defs (F := Ideal)) _ _).mono (fun _ h c => (h c).2) (Cert.RefSide.run m ρ)

/-- The ideal pass rewrote no operation. -/
theorem preserves : Cert.preserves_Kernel_KernelIdeal := trivial

/-- From arguments that agree and are finite, both programs end at the network's value: the kernel at the
    sums-of-squares spelling, the reference at the centred-squares spelling, equal on finite data. -/
theorem algebraic : Cert.algebraic_KernelIdeal_ReferenceIdeal := by
  intro m ρ m' ρ' hpre hagree
  refine ⟨fun c => outK (agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelIdeal.KerSide.run m ρ, ?_⟩
  refine (θ_run (Cert.ReferenceIdeal.defs (F := Ideal)) _ _).mono (fun _ h c => ⟨(h c).1.trans ?_, (h c).2⟩) (Cert.RefSide.run m' ρ')
  obtain ⟨a0, a1, a2, a3, a4, a5, a6, a7, a8, a9, a10, a11, a12, a13, a14, a15, a16, a17, a18⟩ := hagree c
  obtain ⟨f0, f2, f3, f4, f5, f6, f7, f8, f9, f10, f11, f12, f13, f14, f15, f16, f17, f18⟩ := fin_of_pre m hpre c
  rw [a0, a1, a2, a3, a4, a5, a6, a7, a8, a9, a10, a11, a12, a13, a14, a15, a16, a17, a18, aggR_is_agg]
  exact outR_eq_outK (agg _) (fun X hX => agg_fin _ X hX) _ _ _ _ _ _ _ _ _ _ _ _ _ _ _ _ _ _ f0 f2 f3 f4 f5 f6 f7 f8 f9 f10 f11 f12 f13 f14 f15 f16

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
